-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x44 : Shape := ⟨2, ![50000, 44]⟩
abbrev S2x600000 : Shape := ⟨2, ![2, 600000]⟩
abbrev S44x128 : Shape := ⟨2, ![44, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S50000x44 : S_.BroadcastsInDim S50000x44 (![] : Fin 0 → Fin S50000x44.rank)
  reducesTo_S50000x44_S_d0_1 : S50000x44.ReducesTo [0, 1] S_
  h_S_ : 0 < S_.numel
  bcast_S_S44x128 : S_.BroadcastsInDim S44x128 (![] : Fin 0 → Fin S44x128.rank)
  reducesTo_S44x128_S_d0_1 : S44x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S32x16 .f32) (main_arg9 : FVec F S16 .f32) (main_arg10 : FVec F S16x1 .f32) (main_arg11 : FVec F S1 .f32) (main_v33 : IVec S_ 1) : IVec S_ 1 :=
  let main_v34 : FVec F S32x16 .f32 := Host.absf main_arg8
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x1 .f32 := Host.absf main_arg10
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64 .f32) (main_arg6 : FVec F S64x32 .f32) (main_arg7 : FVec F S32 .f32) (main_arg8 : FVec F S32x16 .f32) (main_arg9 : FVec F S16 .f32) (main_arg10 : FVec F S16x1 .f32) (main_arg11 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x44 .f32) (main_arg1 : IVec S2x600000 32) (main_arg2 : FVec F S44x128 .f32) (main_arg3 : FVec F S128 .f32) (main_arg4 : FVec F S128x64 .f32) (main_arg5 : FVec F S64 .f32) (main_arg6 : FVec F S64x32 .f32) (main_arg7 : FVec F S32 .f32) (main_arg8 : FVec F S32x16 .f32) (main_arg9 : FVec F S16 .f32) (main_arg10 : FVec F S16x1 .f32) (main_arg11 : FVec F S1 .f32) : IVec S_ 1 :=
  let main_v0 : FVec F S50000x44 .f32 := Host.absf main_arg0
  let main_cst : FVec F S_ .f32 := constant S_ .f32 0x7F800000#32
  let main_v1 : FVec F S50000x44 .f32 := broadcastInDim S50000x44 ![] bcast_S_S50000x44 main_cst
  let main_v2 : IVec S50000x44 1 := cmpf .olt main_v0 main_v1
  let main_c : IVec S_ 1 := constantI S_ 1 1#1
  let main_v3 : IVec S_ 1 := (fun x v => Host.reduce IntOp.andi x v reducesTo_S50000x44_S_d0_1 h_S_) main_v2 main_c
  let main_v4 : FVec F S44x128 .f32 := Host.absf main_arg2
  let main_cst_0 : FVec F S_ .f32 := constant S_ .f32 0x7F800000#32
  let main_v5 : FVec F S44x128 .f32 := broadcastInDim S44x128 ![] bcast_S_S44x128 main_cst_0
  let main_v6 : IVec S44x128 1 := cmpf .olt main_v4 main_v5
  let main_c_1 : IVec S_ 1 := constantI S_ 1 1#1
  let main_v7 : IVec S_ 1 := (fun x v => Host.reduce IntOp.andi x v reducesTo_S44x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_v13 main_v16
-- ==== Kernel.lean ====
abbrev S50000x44 : Shape := ⟨2, ![50000, 44]⟩
abbrev S2x600000 : Shape := ⟨2, ![2, 600000]⟩
abbrev S44x128 : Shape := ⟨2, ![44, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S51200x44 : Shape := ⟨2, ![51200, 44]⟩
abbrev S1x128 : Shape := ⟨2, ![1, 128]⟩
abbrev S51200x128 : Shape := ⟨2, ![51200, 128]⟩
abbrev S50000x128 : Shape := ⟨2, ![50000, 128]⟩
abbrev S650000x128 : Shape := ⟨2, ![650000, 128]⟩
abbrev S1x64 : Shape := ⟨2, ![1, 64]⟩
abbrev S51200x64 : Shape := ⟨2, ![51200, 64]⟩
abbrev S50000x64 : Shape := ⟨2, ![50000, 64]⟩
abbrev S650000x64 : Shape := ⟨2, ![650000, 64]⟩
abbrev S1x32 : Shape := ⟨2, ![1, 32]⟩
abbrev S51200x32 : Shape := ⟨2, ![51200, 32]⟩
abbrev S50000x32 : Shape := ⟨2, ![50000, 32]⟩
abbrev S650000x32 : Shape := ⟨2, ![650000, 32]⟩
abbrev S1x16 : Shape := ⟨2, ![1, 16]⟩
abbrev S1x1 : Shape := ⟨2, ![1, 1]⟩
abbrev S51200x1 : Shape := ⟨2, ![51200, 1]⟩
abbrev S50000x1 : Shape := ⟨2, ![50000, 1]⟩
abbrev S2048x44 : Shape := ⟨2, ![2048, 44]⟩
abbrev S2048x128 : Shape := ⟨2, ![2048, 128]⟩
abbrev S2048x64 : Shape := ⟨2, ![2048, 64]⟩
abbrev S2048x32 : Shape := ⟨2, ![2048, 32]⟩
abbrev S2048x1 : Shape := ⟨2, ![2048, 1]⟩
abbrev S2048x16 : Shape := ⟨2, ![2048, 16]⟩

abbrev nBuf : Space → Nat
  | .hbm => 142
  | .vmem => 26
  | .smem => 0
  | _ => 0

abbrev hbmTy0_0 (i : Nat) : BufTy := match i % 128 with
  | 0 => ⟨S50000x44, .f32⟩
  | 1 => ⟨S2x600000, .i32⟩
  | 2 => ⟨S44x128, .f32⟩
  | 3 => ⟨S128, .f32⟩
  | 4 => ⟨S128x64, .f32⟩
  | 5 => ⟨S64, .f32⟩
  | 6 => ⟨S64x32, .f32⟩
  | 7 => ⟨S32, .f32⟩
  | 8 => ⟨S32x16, .f32⟩
  | 9 => ⟨S16, .f32⟩
  | 10 => ⟨S16x1, .f32⟩
  | 11 => ⟨S1, .f32⟩
  | 12 => ⟨S50000, .i32⟩
  | 13 => ⟨S1x600000, .i32⟩
  | 14 => ⟨S600000, .i32⟩
  | 15 => ⟨S650000, .i32⟩
  | 16 => ⟨S1x600000, .i32⟩
  | 17 => ⟨S600000, .i32⟩
  | 18 => ⟨S650000, .i32⟩
  | 19 => ⟨S_, .f32⟩
  | 20 => ⟨S650000, .f32⟩
  | 21 => ⟨S_, .f32⟩
  | 22 => ⟨S50000, .f32⟩
  | 23 => ⟨S650000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S650000, .f32⟩
  | 48 => ⟨S_, .i32⟩
  | 49 => ⟨S_, .f32⟩
  | 50 => ⟨S51200x44, .f32⟩
  | 51 => ⟨S_, .f32⟩
  | 52 => ⟨S1x128, .f32⟩
  | 53 => ⟨S51200x128, .f32⟩
  | 54 => ⟨S50000x128, .f32⟩
  | 55 => ⟨S_, .i32⟩
  | 56 => ⟨S650000, .i32⟩
  | 57 => ⟨S650000, .i1⟩
  | 58 => ⟨S_, .i32⟩
  | 59 => ⟨S650000, .i32⟩
  | 60 => ⟨S650000, .i32⟩
  | 61 => ⟨S650000, .i32⟩
  | 62 => ⟨S650000x1, .i32⟩
  | 63 => ⟨S650000x128, .f32⟩
  | 64 => ⟨S650000x1, .f32⟩
  | 65 => ⟨S650000x128, .f32⟩
  | 66 => ⟨S650000x128, .f32⟩
  | 67 => ⟨S_, .f32⟩
  | 68 => ⟨S50000x128, .f32⟩
  | 69 => ⟨S650000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S_, .i32⟩
  | 78 => ⟨S_, .f32⟩
  | 79 => ⟨S51200x128, .f32⟩
  | 80 => ⟨S_, .f32⟩
  | 81 => ⟨S1x64, .f32⟩
  | 82 => ⟨S51200x64, .f32⟩
  | 83 => ⟨S50000x64, .f32⟩
  | 84 => ⟨S_, .i32⟩
  | 85 => ⟨S650000, .i32⟩
  | 86 => ⟨S650000, .i1⟩
  | 87 => ⟨S_, .i32⟩
  | 88 => ⟨S650000, .i32⟩
  | 89 => ⟨S650000, .i32⟩
  | 90 => ⟨S650000, .i32⟩
  | 91 => ⟨S650000x1, .i32⟩
  | 92 => ⟨S650000x64, .f32⟩
  | 93 => ⟨S650000x1, .f32⟩
  | 94 => ⟨S650000x64, .f32⟩
  | 95 => ⟨S650000x64, .f32⟩
  | 96 => ⟨S_, .f32⟩
  | 97 => ⟨S50000x64, .f32⟩
  | 98 => ⟨S650000x1, .i32⟩
  | 99 => ⟨S50000x64, .f32⟩
  | 100 => ⟨S1x64, .f32⟩
  | 101 => ⟨S50000x64, .f32⟩
  | 102 => ⟨S50000x64, .f32⟩
  | 103 => ⟨S_, .f32⟩
  | 104 => ⟨S50000x64, .f32⟩
  | 105 => ⟨S50000x64, .f32⟩
  | 106 => ⟨S_, .i32⟩
  | 107 => ⟨S_, .f32⟩
  | 108 => ⟨S51200x64, .f32⟩
  | 109 => ⟨S_, .f32⟩
  | 110 => ⟨S1x32, .f32⟩
  | 111 => ⟨S51200x32, .f32⟩
  | 112 => ⟨S50000x32, .f32⟩
  | 113 => ⟨S_, .i32⟩
  | 114 => ⟨S650000, .i32⟩
  | 115 => ⟨S650000, .i1⟩
  | 116 => ⟨S_, .i32⟩
  | 117 => ⟨S650000, .i32⟩
  | 118 => ⟨S650000, .i32⟩
  | 119 => ⟨S650000, .i32⟩
  | 120 => ⟨S650000x1, .i32⟩
  | 121 => ⟨S650000x32, .f32⟩
  | 122 => ⟨S650000x1, .f32⟩
  | 123 => ⟨S650000x32, .f32⟩
  | 124 => ⟨S650000x32, .f32⟩
  | 125 => ⟨S_, .f32⟩
  | 126 => ⟨S50000x32, .f32⟩
  | 127 => ⟨S650000x1, .i32⟩
  | _ => ⟨S50000x44, .f32⟩

abbrev hbmTy0_1 (i : Nat) : BufTy := match i % 128 with
  | 0 => ⟨S50000x32, .f32⟩
  | 1 => ⟨S1x32, .f32⟩
  | 2 => ⟨S50000x32, .f32⟩
  | 3 => ⟨S50000x32, .f32⟩
  | 4 => ⟨S_, .f32⟩
  | 5 => ⟨S50000x32, .f32⟩
  | 6 => ⟨S50000x32, .f32⟩
  | 7 => ⟨S_, .i32⟩
  | 8 => ⟨S_, .f32⟩
  | 9 => ⟨S51200x32, .f32⟩
  | 10 => ⟨S1x16, .f32⟩
  | 11 => ⟨S1x1, .f32⟩
  | 12 => ⟨S51200x1, .f32⟩
  | 13 => ⟨S50000x1, .f32⟩
  | _ => ⟨S50000x44, .f32⟩

abbrev hbmTy (i : Nat) : BufTy := match i / 128 with
  | 0 => hbmTy0_0 i
  | 1 => hbmTy0_1 i
  | _ => ⟨S50000x44, .f32⟩

abbrev bufTy : (tb : Table) → Fin (tcTables nBuf tb) → BufTy
  | .hbm, ⟨i, _⟩ => hbmTy i
  | .local _ .vmem, ⟨0, _⟩ => ⟨S2048x44, .f32⟩
  | .local _ .vmem, ⟨1, _⟩ => ⟨S2048x44, .f32⟩
  | .local _ .vmem, ⟨2, _⟩ => ⟨S44x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S128x64, .f32⟩
  | .local _ .vmem, ⟨9, _⟩ => ⟨S1x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S64x32, .f32⟩
  | .local _ .vmem, ⟨15, _⟩ => ⟨S1x32, .f32⟩
  | .local _ .vmem, ⟨16, _⟩ => ⟨S2048x32, .f32⟩
  | .local _ .vmem, ⟨17, _⟩ => ⟨S2048x32, .f32⟩
  | .local _ .vmem, ⟨18, _⟩ => ⟨S2048x32, .f32⟩
  | .local _ .vmem, ⟨19, _⟩ => ⟨S2048x32, .f32⟩
  | .local _ .vmem, ⟨20, _⟩ => ⟨S32x16, .f32⟩
  | .local _ .vmem, ⟨21, _⟩ => ⟨S1x16, .f32⟩
  | .local _ .vmem, ⟨22, _⟩ => ⟨S16x1, .f32⟩
  | .local _ .vmem, ⟨23, _⟩ => ⟨S1x1, .f32⟩
  | .local _ .vmem, ⟨24, _⟩ => ⟨S2048x1, .f32⟩
  | .local _ .vmem, ⟨25, _⟩ => ⟨S2048x1, .f32⟩
  | _, _ => ⟨S50000x44, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst : Ref sig .tc := ⟨.hbm, 19, rfl⟩
abbrev main_call0_v7 : Ref sig .tc := ⟨.hbm, 20, rfl⟩
abbrev main_call0_cst_0 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_cst_1 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_c : Ref sig .tc := ⟨.hbm, 29, rfl⟩
abbrev main_call0_v14 : Ref sig .tc := ⟨.hbm, 30, rfl⟩
abbrev main_call0_v15 : Ref sig .tc := ⟨.hbm, 31, rfl⟩
abbrev main_call0_c_2 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_c_3 : Ref sig .tc := ⟨.hbm, 38, rfl⟩
abbrev main_call0_v21 : Ref sig .tc := ⟨.hbm, 39, rfl⟩
abbrev main_call0_v22 : Ref sig .tc := ⟨.hbm, 40, rfl⟩
abbrev main_call0_c_4 : Ref sig .tc := ⟨.hbm, 41, rfl⟩
abbrev main_call0_v23 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_call0_c_5 : Ref sig .tc := ⟨.hbm, 48, rfl⟩
abbrev main_call0_call0_v0 : Ref sig .tc := ⟨.hbm, 49, rfl⟩
abbrev main_call0_v29 : Ref sig .tc := ⟨.hbm, 50, rfl⟩
abbrev main_call0_cst_6 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_c_7 : Ref sig .tc := ⟨.hbm, 55, rfl⟩
abbrev main_call0_v33 : Ref sig .tc := ⟨.hbm, 56, rfl⟩
abbrev main_call0_v34 : Ref sig .tc := ⟨.hbm, 57, rfl⟩
abbrev main_call0_c_8 : Ref sig .tc := ⟨.hbm, 58, rfl⟩
abbrev main_call0_v35 : Ref sig .tc := ⟨.hbm, 59, rfl⟩
abbrev main_call0_v36 : Ref sig .tc := ⟨.hbm, 60, rfl⟩
abbrev main_call0_v37 : Ref sig .tc := ⟨.hbm, 61, rfl⟩
abbrev main_call0_v38 : Ref sig .tc := ⟨.hbm, 62, rfl⟩
abbrev main_call0_v39 : Ref sig .tc := ⟨.hbm, 63, rfl⟩
abbrev main_call0_v40 : Ref sig .tc := ⟨.hbm, 64, rfl⟩
abbrev main_call0_v41 : Ref sig .tc := ⟨.hbm, 65, rfl⟩
abbrev main_call0_v42 : Ref sig .tc := ⟨.hbm, 66, rfl⟩
abbrev main_call0_cst_9 : Ref sig .tc := ⟨.hbm, 67, rfl⟩
abbrev main_call0_v43 : Ref sig .tc := ⟨.hbm, 68, rfl⟩
abbrev main_call0_v44 : Ref sig .tc := ⟨.hbm, 69, rfl⟩
abbrev main_call0_v45 : Ref sig .tc := ⟨.hbm, 70, rfl⟩
abbrev main_call0_v46 : Ref sig .tc := ⟨.hbm, 71, rfl⟩
abbrev main_call0_v47 : Ref sig .tc := ⟨.hbm, 72, rfl⟩
abbrev main_call0_v48 : Ref sig .tc := ⟨.hbm, 73, rfl⟩
abbrev main_call0_call1_cst : Ref sig .tc := ⟨.hbm, 74, rfl⟩
abbrev main_call0_call1_v0 : Ref sig .tc := ⟨.hbm, 75, rfl⟩
abbrev main_call0_v49 : Ref sig .tc := ⟨.hbm, 76, rfl⟩
abbrev main_call0_c_10 : Ref sig .tc := ⟨.hbm, 77, rfl⟩
abbrev main_call0_call2_v0 : Ref sig .tc := ⟨.hbm, 78, rfl⟩
abbrev main_call0_v50 : Ref sig .tc := ⟨.hbm, 79, rfl⟩
abbrev main_call0_cst_11 : Ref sig .tc := ⟨.hbm, 80, rfl⟩
abbrev main_call0_v51 : Ref sig .tc := ⟨.hbm, 81, rfl⟩
abbrev main_call0_v52 : Ref sig .tc := ⟨.hbm, 82, rfl⟩
abbrev main_call0_v53 : Ref sig .tc := ⟨.hbm, 83, rfl⟩
abbrev main_call0_c_12 : Ref sig .tc := ⟨.hbm, 84, rfl⟩
abbrev main_call0_v54 : Ref sig .tc := ⟨.hbm, 85, rfl⟩
abbrev main_call0_v55 : Ref sig .tc := ⟨.hbm, 86, rfl⟩
abbrev main_call0_c_13 : Ref sig .tc := ⟨.hbm, 87, rfl⟩
abbrev main_call0_v56 : Ref sig .tc := ⟨.hbm, 88, rfl⟩
abbrev main_call0_v57 : Ref sig .tc := ⟨.hbm, 89, rfl⟩
abbrev main_call0_v58 : Ref sig .tc := ⟨.hbm, 90, rfl⟩
abbrev main_call0_v59 : Ref sig .tc := ⟨.hbm, 91, rfl⟩
abbrev main_call0_v60 : Ref sig .tc := ⟨.hbm, 92, rfl⟩
abbrev main_call0_v61 : Ref sig .tc := ⟨.hbm, 93, rfl⟩
abbrev main_call0_v62 : Ref sig .tc := ⟨.hbm, 94, rfl⟩
abbrev main_call0_v63 : Ref sig .tc := ⟨.hbm, 95, rfl⟩
abbrev main_call0_cst_14 : Ref sig .tc := ⟨.hbm, 96, rfl⟩
abbrev main_call0_v64 : Ref sig .tc := ⟨.hbm, 97, rfl⟩
abbrev main_call0_v65 : Ref sig .tc := ⟨.hbm, 98, rfl⟩
abbrev main_call0_v66 : Ref sig .tc := ⟨.hbm, 99, rfl⟩
abbrev main_call0_v67 : Ref sig .tc := ⟨.hbm, 100, rfl⟩
abbrev main_call0_v68 : Ref sig .tc := ⟨.hbm, 101, rfl⟩
abbrev main_call0_v69 : Ref sig .tc := ⟨.hbm, 102, rfl⟩
abbrev main_call0_call3_cst : Ref sig .tc := ⟨.hbm, 103, rfl⟩
abbrev main_call0_call3_v0 : Ref sig .tc := ⟨.hbm, 104, rfl⟩
abbrev main_call0_v70 : Ref sig .tc := ⟨.hbm, 105, rfl⟩
abbrev main_call0_c_15 : Ref sig .tc := ⟨.hbm, 106, rfl⟩
abbrev main_call0_call4_v0 : Ref sig .tc := ⟨.hbm, 107, rfl⟩
abbrev main_call0_v71 : Ref sig .tc := ⟨.hbm, 108, rfl⟩
abbrev main_call0_cst_16 : Ref sig .tc := ⟨.hbm, 109, rfl⟩
abbrev main_call0_v72 : Ref sig .tc := ⟨.hbm, 110, rfl⟩
abbrev main_call0_v73 : Ref sig .tc := ⟨.hbm, 111, rfl⟩
abbrev main_call0_v74 : Ref sig .tc := ⟨.hbm, 112, rfl⟩
abbrev main_call0_c_17 : Ref sig .tc := ⟨.hbm, 113, rfl⟩
abbrev main_call0_v75 : Ref sig .tc := ⟨.hbm, 114, rfl⟩
abbrev main_call0_v76 : Ref sig .tc := ⟨.hbm, 115, rfl⟩
abbrev main_call0_c_18 : Ref sig .tc := ⟨.hbm, 116, rfl⟩
abbrev main_call0_v77 : Ref sig .tc := ⟨.hbm, 117, rfl⟩
abbrev main_call0_v78 : Ref sig .tc := ⟨.hbm, 118, rfl⟩
abbrev main_call0_v79 : Ref sig .tc := ⟨.hbm, 119, rfl⟩
abbrev main_call0_v80 : Ref sig .tc := ⟨.hbm, 120, rfl⟩
abbrev main_call0_v81 : Ref sig .tc := ⟨.hbm, 121, rfl⟩
abbrev main_call0_v82 : Ref sig .tc := ⟨.hbm, 122, rfl⟩
abbrev main_call0_v83 : Ref sig .tc := ⟨.hbm, 123, rfl⟩
abbrev main_call0_v84 : Ref sig .tc := ⟨.hbm, 124, rfl⟩
abbrev main_call0_cst_19 : Ref sig .tc := ⟨.hbm, 125, rfl⟩
abbrev main_call0_v85 : Ref sig .tc := ⟨.hbm, 126, rfl⟩
abbrev main_call0_v86 : Ref sig .tc := ⟨.hbm, 127, rfl⟩
abbrev main_call0_v87 : Ref sig .tc := ⟨.hbm, 128, rfl⟩
abbrev main_call0_v88 : Ref sig .tc := ⟨.hbm, 129, rfl⟩
abbrev main_call0_v89 : Ref sig .tc := ⟨.hbm, 130, rfl⟩
abbrev main_call0_v90 : Ref sig .tc := ⟨.hbm, 131, rfl⟩
abbrev main_call0_call5_cst : Ref sig .tc := ⟨.hbm, 132, rfl⟩
abbrev main_call0_call5_v0 : Ref sig .tc := ⟨.hbm, 133, rfl⟩
abbrev main_call0_v91 : Ref sig .tc := ⟨.hbm, 134, rfl⟩
abbrev main_call0_c_20 : Ref sig .tc := ⟨.hbm, 135, rfl⟩
abbrev main_call0_call6_v0 : Ref sig .tc := ⟨.hbm, 136, rfl⟩
abbrev main_call0_v92 : Ref sig .tc := ⟨.hbm, 137, rfl⟩
abbrev main_call0_v93 : Ref sig .tc := ⟨.hbm, 138, rfl⟩
abbrev main_call0_v94 : Ref sig .tc := ⟨.hbm, 139, rfl⟩
abbrev main_call0_v95 : Ref sig .tc := ⟨.hbm, 140, rfl⟩
abbrev main_v0 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x44 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S44x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  pads_S50000x44_S51200x44_012000_000 : S50000x44.Pads (![0, 0] : Fin 2 → Nat) ![1200, 0] ![0, 0] S51200x44
  h_S_ : 0 < S_.numel
  bcast_S_S1x128 : S_.BroadcastsInDim S1x128 (![] : Fin 0 → Fin S1x128.rank)
  slices_S51200x128_S50000x128_0_0 : S51200x128.Slices ![0, 0] S50000x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  pads_S50000x128_S51200x128_012000_000 : S50000x128.Pads (![0, 0] : Fin 2 → Nat) ![1200, 0] ![0, 0] S51200x128
  bcast_S_S1x64 : S_.BroadcastsInDim S1x64 (![] : Fin 0 → Fin S1x64.rank)
  slices_S51200x64_S50000x64_0_0 : S51200x64.Slices ![0, 0] S50000x64
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  pads_S50000x64_S51200x64_012000_000 : S50000x64.Pads (![0, 0] : Fin 2 → Nat) ![1200, 0] ![0, 0] S51200x64
  bcast_S_S1x32 : S_.BroadcastsInDim S1x32 (![] : Fin 0 → Fin S1x32.rank)
  slices_S51200x32_S50000x32_0_0 : S51200x32.Slices ![0, 0] S50000x32
  bcast_S650000x1_S650000x32_0_1 : S650000x1.BroadcastsInDim S650000x32 (![0, 1] : Fin 2 → Fin S650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  pads_S50000x32_S51200x32_012000_000 : S50000x32.Pads (![0, 0] : Fin 2 → Nat) ![1200, 0] ![0, 0] S51200x32
  shapeCasts_S16_S1x16 : S16.ShapeCasts S1x16
  shapeCasts_S1_S1x1 : S1.ShapeCasts S1x1
  slices_S51200x1_S50000x1_0_0 : S51200x1.Slices ![0, 0] S50000x1
  inb_S2048x44_S2048x44_0_0 : ∀ a, (![0, 0] : Fin 2 → Nat) a + S2048x44.size a ≤ S2048x44.size a
  h_S2048x44 : 0 < S2048x44.numel
  shapeCasts_S2048x44_S2048x44 : S2048x44.ShapeCasts S2048x44
  bitsLt_bf16_f32 : FTy.bits .bf16 < FTy.bits .f32
  inb_S44x128_S44x128_0_0 : ∀ a, (![0, 0] : Fin 2 → Nat) a + S44x128.size a ≤ S44x128.size a
  h_S44x128 : 0 < S44x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  gather_S50000x32_S650000x1_S650000x32_1_0_n_n_0_1_132_wf : GatherDims.WF S50000x32 S650000x1 S650000x32 [1] [0] [] [0] [] 1 ![1, 32]
  scatter_S50000x32_S650000x1_S650000x32_1_0_0_1_wf : ScatterDims.WF S50000x32 S650000x1 S650000x32 [1] [0] [0] 1
  dot_S2048x44_S44x128_S2048x128_1_0_0_1_n_n_wf : DotDims.WF S2048x44 S44x128 S2048x128 [1] [0] [0] [1] [] []
  dot_S2048x128_S128x64_S2048x64_1_0_0_1_n_n_wf : DotDims.WF S2048x128 S128x64 S2048x64 [1] [0] [0] [1] [] []
  dot_S2048x64_S64x32_S2048x32_1_0_0_1_n_n_wf : DotDims.WF S2048x64 S64x32 S2048x32 [1] [0] [0] [1] [] []
  dot_S2048x32_S32x16_S2048x16_1_0_0_1_n_n_wf : DotDims.WF S2048x32 S32x16 S2048x16 [1] [0] [0] [1] [] []
  dot_S2048x16_S16x1_S2048x1_1_0_0_1_n_n_wf : DotDims.WF S2048x16 S16x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x44.size a ≤ S51200x44.size a
  hwx0_0 : ∀ i : grid0.Coords, EltTy.bits .f32 = 32 ∨ (Rect.block (s := S51200x44) S2048x44.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S44x128.size a ≤ S44x128.size a
  hwx0_1 : ∀ i : grid0.Coords, EltTy.bits .f32 = 32 ∨ (Rect.block (s := S44x128) S44x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S51200x128.size a
  hwx0_3 : ∀ i : grid0.Coords, EltTy.bits .f32 = 32 ∨ (Rect.block (s := S51200x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S51200x128.size a
  hwx1_0 : ∀ i : grid1.Coords, EltTy.bits .f32 = 32 ∨ (Rect.block (s := S51200x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S51200x64.size a
  hwx1_3 : ∀ i : grid1.Coords, EltTy.bits .f32 = 32 ∨ (Rect.block (s := S51200x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S51200x64.size a
  hwx2_0 : ∀ i : grid2.Coords, EltTy.bits .f32 = 32 ∨ (Rect.block (s := S51200x64) S2048x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x32.size a ≤ S51200x32.size a
  hwx2_3 : ∀ i : grid2.Coords, EltTy.bits .f32 = 32 ∨ (Rect.block (s := S51200x32) S2048x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x32.size a ≤ S51200x32.size a
  hwx3_0 : ∀ i : grid3.Coords, EltTy.bits .f32 = 32 ∨ (Rect.block (s := S51200x32) S2048x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x16.size a ≤ S32x16.size a
  hwx3_1 : ∀ i : grid3.Coords, EltTy.bits .f32 = 32 ∨ (Rect.block (s := S32x16) S32x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x1.size a ≤ S16x1.size a
  hwx3_3 : ∀ i : grid3.Coords, EltTy.bits .f32 = 32 ∨ (Rect.block (s := S16x1) S16x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x1.size a ≤ S51200x1.size a
  hwx3_5 : ∀ i : grid3.Coords, EltTy.bits .f32 = 32 ∨ (Rect.block (s := S51200x1) S2048x1.size (cc3_transform_5 i) (hinb3_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def gather_S50000x32_S650000x1_S650000x32_1_0_n_n_0_1_132 : GatherDims S50000x32 S650000x1 S650000x32 where
  offsetDims := [1]
  collapsedSliceDims := [0]
  operandBatchingDims := []
  startIndicesBatchingDims := []
  startIndexMap := [0]
  indexVectorDim := 1
  sliceSizes := ![1, 32]
  wf := gather_S50000x32_S650000x1_S650000x32_1_0_n_n_0_1_132_wf
def scatter_S50000x32_S650000x1_S650000x32_1_0_0_1 : ScatterDims S50000x32 S650000x1 S650000x32 where
  updateWindowDims := [1]
  insertedWindowDims := [0]
  scatterDimsToOperandDims := [0]
  indexVectorDim := 1
  wf := scatter_S50000x32_S650000x1_S650000x32_1_0_0_1_wf
def dot_S2048x44_S44x128_S2048x128_1_0_0_1_n_n : DotDims S2048x44 S44x128 S2048x128 where
  lhsContracting := [1]
  rhsContracting := [0]
  lhsNonContracting := [0]
  rhsNonContracting := [1]
  lhsBatch := []
  rhsBatch := []
  wf := dot_S2048x44_S44x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf

abbrev win0_0 : Pipeline.Window sig grid0 :=
  Pipeline.Window.ofSpec (Memref.whole main_call0_v29) S2048x44.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S44x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v31) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v50) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v51) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v52) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v71) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v72) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v73) S2048x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v92) S2048x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S32x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v93) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S16x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v94) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v95) S2048x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x44 : Shape := ⟨2, ![50000, 44]⟩
abbrev S2x600000 : Shape := ⟨2, ![2, 600000]⟩
abbrev S44x128 : Shape := ⟨2, ![44, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x128 : Shape := ⟨2, ![50000, 128]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩
abbrev S50000x32 : Shape := ⟨2, ![50000, 32]⟩
abbrev S650000x32 : Shape := ⟨2, ![650000, 32]⟩
abbrev S1x32 : Shape := ⟨2, ![1, 32]⟩
abbrev S50000x16 : Shape := ⟨2, ![50000, 16]⟩
abbrev S1x16 : Shape := ⟨2, ![1, 16]⟩
abbrev S50000x1 : Shape := ⟨2, ![50000, 1]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S50000x44, .f32⟩
  | 1 => ⟨S2x600000, .i32⟩
  | 2 => ⟨S44x128, .f32⟩
  | 3 => ⟨S128, .f32⟩
  | 4 => ⟨S128x64, .f32⟩
  | 5 => ⟨S64, .f32⟩
  | 6 => ⟨S64x32, .f32⟩
  | 7 => ⟨S32, .f32⟩
  | 8 => ⟨S32x16, .f32⟩
  | 9 => ⟨S16, .f32⟩
  | 10 => ⟨S16x1, .f32⟩
  | 11 => ⟨S1, .f32⟩
  | 12 => ⟨S50000, .i32⟩
  | 13 => ⟨S1x600000, .i32⟩
  | 14 => ⟨S600000, .i32⟩
  | 15 => ⟨S650000, .i32⟩
  | 16 => ⟨S1x600000, .i32⟩
  | 17 => ⟨S600000, .i32⟩
  | 18 => ⟨S650000, .i32⟩
  | 19 => ⟨S_, .f32⟩
  | 20 => ⟨S650000, .f32⟩
  | 21 => ⟨S_, .f32⟩
  | 22 => ⟨S50000, .f32⟩
  | 23 => ⟨S650000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S650000, .f32⟩
  | 48 => ⟨S50000x128, .f32⟩
  | 49 => ⟨S_, .i32⟩
  | 50 => ⟨S650000, .i32⟩
  | 51 => ⟨S650000, .i1⟩
  | 52 => ⟨S_, .i32⟩
  | 53 => ⟨S650000, .i32⟩
  | 54 => ⟨S650000, .i32⟩
  | 55 => ⟨S650000, .i32⟩
  | 56 => ⟨S650000x1, .i32⟩
  | 57 => ⟨S650000x128, .f32⟩
  | 58 => ⟨S650000x1, .f32⟩
  | 59 => ⟨S650000x128, .f32⟩
  | 60 => ⟨S650000x128, .f32⟩
  | 61 => ⟨S_, .f32⟩
  | 62 => ⟨S50000x128, .f32⟩
  | 63 => ⟨S650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x64, .f32⟩
  | 72 => ⟨S_, .i32⟩
  | 73 => ⟨S650000, .i32⟩
  | 74 => ⟨S650000, .i1⟩
  | 75 => ⟨S_, .i32⟩
  | 76 => ⟨S650000, .i32⟩
  | 77 => ⟨S650000, .i32⟩
  | 78 => ⟨S650000, .i32⟩
  | 79 => ⟨S650000x1, .i32⟩
  | 80 => ⟨S650000x64, .f32⟩
  | 81 => ⟨S650000x1, .f32⟩
  | 82 => ⟨S650000x64, .f32⟩
  | 83 => ⟨S650000x64, .f32⟩
  | 84 => ⟨S_, .f32⟩
  | 85 => ⟨S50000x64, .f32⟩
  | 86 => ⟨S650000x1, .i32⟩
  | 87 => ⟨S50000x64, .f32⟩
  | 88 => ⟨S1x64, .f32⟩
  | 89 => ⟨S50000x64, .f32⟩
  | 90 => ⟨S50000x64, .f32⟩
  | 91 => ⟨S_, .f32⟩
  | 92 => ⟨S50000x64, .f32⟩
  | 93 => ⟨S50000x64, .f32⟩
  | 94 => ⟨S50000x32, .f32⟩
  | 95 => ⟨S_, .i32⟩
  | 96 => ⟨S650000, .i32⟩
  | 97 => ⟨S650000, .i1⟩
  | 98 => ⟨S_, .i32⟩
  | 99 => ⟨S650000, .i32⟩
  | 100 => ⟨S650000, .i32⟩
  | 101 => ⟨S650000, .i32⟩
  | 102 => ⟨S650000x1, .i32⟩
  | 103 => ⟨S650000x32, .f32⟩
  | 104 => ⟨S650000x1, .f32⟩
  | 105 => ⟨S650000x32, .f32⟩
  | 106 => ⟨S650000x32, .f32⟩
  | 107 => ⟨S_, .f32⟩
  | 108 => ⟨S50000x32, .f32⟩
  | 109 => ⟨S650000x1, .i32⟩
  | 110 => ⟨S50000x32, .f32⟩
  | 111 => ⟨S1x32, .f32⟩
  | 112 => ⟨S50000x32, .f32⟩
  | 113 => ⟨S50000x32, .f32⟩
  | 114 => ⟨S_, .f32⟩
  | 115 => ⟨S50000x32, .f32⟩
  | 116 => ⟨S50000x32, .f32⟩
  | 117 => ⟨S50000x16, .f32⟩
  | 118 => ⟨S1x16, .f32⟩
  | 119 => ⟨S50000x16, .f32⟩
  | 120 => ⟨S50000x16, .f32⟩
  | 121 => ⟨S_, .f32⟩
  | 122 => ⟨S50000x16, .f32⟩
  | 123 => ⟨S50000x16, .f32⟩
  | 124 => ⟨S50000x1, .f32⟩
  | 125 => ⟨S1x1, .f32⟩
  | 126 => ⟨S50000x1, .f32⟩
  | 127 => ⟨S50000x1, .f32⟩
  | _ => ⟨S50000x44, .f32⟩

abbrev hbmTy0_1 (i : Nat) : BufTy := match i % 128 with
  | 0 => ⟨S50000x1, .f32⟩
  | 1 => ⟨S50000x1, .f32⟩
  | 2 => ⟨S_, .f32⟩
  | 3 => ⟨S50000x1, .f32⟩
  | 4 => ⟨S50000x1, .f32⟩
  | 5 => ⟨S_, .f32⟩
  | 6 => ⟨S50000x1, .f32⟩
  | 7 => ⟨S50000x1, .f32⟩
  | _ => ⟨S50000x44, .f32⟩

abbrev hbmTy (i : Nat) : BufTy := match i / 128 with
  | 0 => hbmTy0_0 i
  | 1 => hbmTy0_1 i
  | _ => ⟨S50000x44, .f32⟩

abbrev bufTy : (tb : Table) → Fin (tcTables nBuf tb) → BufTy
  | .hbm, ⟨i, _⟩ => hbmTy i
  | _, _ => ⟨S50000x44, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_cst : Ref sig .tc := ⟨.hbm, 68, rfl⟩
abbrev main_call0_v0 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call1_cst : Ref sig .tc := ⟨.hbm, 91, rfl⟩
abbrev main_call1_v0 : Ref sig .tc := ⟨.hbm, 92, rfl⟩
abbrev main_v64 : Ref sig .tc := ⟨.hbm, 93, rfl⟩
abbrev main_v65 : Ref sig .tc := ⟨.hbm, 94, rfl⟩
abbrev main_c_11 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_13 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call2_cst : Ref sig .tc := ⟨.hbm, 114, rfl⟩
abbrev main_call2_v0 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_call3_cst : Ref sig .tc := ⟨.hbm, 121, rfl⟩
abbrev main_call3_v0 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_14 : Ref sig .tc := ⟨.hbm, 130, rfl⟩
abbrev main_v94 : Ref sig .tc := ⟨.hbm, 131, rfl⟩
abbrev main_v95 : Ref sig .tc := ⟨.hbm, 132, rfl⟩
abbrev main_cst_15 : Ref sig .tc := ⟨.hbm, 133, rfl⟩
abbrev main_v96 : Ref sig .tc := ⟨.hbm, 134, rfl⟩
abbrev main_v97 : Ref sig .tc := ⟨.hbm, 135, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S650000x1_S650000x32_0_1 : S650000x1.BroadcastsInDim S650000x32 (![0, 1] : Fin 2 → Fin S650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x44_S44x128_S50000x128_1_0_0_1_n_n_wf : DotDims.WF S50000x44 S44x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  dot_S50000x64_S64x32_S50000x32_1_0_0_1_n_n_wf : DotDims.WF S50000x64 S64x32 S50000x32 [1] [0] [0] [1] [] []
  gather_S50000x32_S650000x1_S650000x32_1_0_n_n_0_1_132_wf : GatherDims.WF S50000x32 S650000x1 S650000x32 [1] [0] [] [0] [] 1 ![1, 32]
  scatter_S50000x32_S650000x1_S650000x32_1_0_0_1_wf : ScatterDims.WF S50000x32 S650000x1 S650000x32 [1] [0] [0] 1
  dot_S50000x32_S32x16_S50000x16_1_0_0_1_n_n_wf : DotDims.WF S50000x32 S32x16 S50000x16 [1] [0] [0] [1] [] []
  dot_S50000x16_S16x1_S50000x1_1_0_0_1_n_n_wf : DotDims.WF S50000x16 S16x1 S50000x1 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x44_S44x128_S50000x128_1_0_0_1_n_n : DotDims S50000x44 S44x128 S50000x128 where
  lhsContracting := [1]
  rhsContracting := [0]
  lhsNonContracting := [0]
  rhsNonContracting := [1]
  lhsBatch := []
  rhsBatch := []
  wf := dot_S50000x44_S44x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S650000x1_S650000x32_1_0_n_n_0_1_132 : GatherDims S50000x32 S650000x1 S650000x32 where
  offsetDims := [1]
  collapsedSliceDims := [0]
  operandBatchingDims := []
  startIndicesBatchingDims := []
  startIndexMap := [0]
  indexVectorDim := 1
  sliceSizes := ![1, 32]
  wf := gather_S50000x32_S650000x1_S650000x32_1_0_n_n_0_1_132_wf
def scatter_S50000x32_S650000x1_S650000x32_1_0_0_1 : ScatterDims S50000x32 S650000x1 S650000x32 where
  updateWindowDims := [1]
  insertedWindowDims := [0]
  scatterDimsToOperandDims := [0]
  indexVectorDim := 1
  wf := scatter_S50000x32_S650000x1_S650000x32_1_0_0_1_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def dot_S50000x16_S16x1_S50000x1_1_0_0_1_n_n : DotDims S50000x16 S16x1 S50000x1 where
  lhsContracting := [1]
  rhsContracting := [0]
  lhsNonContracting := [0]
  rhsNonContracting := [1]
  lhsBatch := []
  rhsBatch := []
  wf := dot_S50000x16_S16x1_S50000x1_1_0_0_1_n_n_wf

class Facts : Prop extends Facts₀ where

variable [Facts]
-- ==== Proof.KRun.lean ====
/-
  The idealized kernel's whole run, with every buffer named at the end.

  The program is four kernel regions among five stretches of host operations.  The buffer contents at the nine
  segment boundaries are a fold from the launch memory: a host stretch applies its operations in order, and a region
  leaves each of its output arrays at what its grid points wrote back and every other buffer as it found it.
  Theorem: from any memory with zero counters every weakly fair execution terminates without a fault, and on every
  core every unscoped buffer ends holding the contents of the last boundary of that fold.  The result array is one
  such buffer.
-/
import proofs.«145682_j63694365000469_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and on every
    core every unscoped buffer ends at the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The result array ends at the last boundary's contents. -/
theorem result_mem {r : PUnit × MemSt nD τ sig (Elt F)}
    (h : ∀ c : Dev nD, ∀ b ∈ Pipeline.ucRefs τ sig, r.2.mem (((c : Thread nD τ)).1, b) = W9 m ρ c b) (c : Dev nD) :
    r.2.mem ((c.tc : Thread nD τ).loc main_v0) = W9 m ρ c (Proc.devRef .tc main_v0) :=
  h c _ (mem_uc main_v0 (by decide))

end Cert.KernelIdeal.WholeRun

end
-- ==== Proof.LibPlainDot.lean ====
/-
  A plain matrix product read at an element, over the extended reals.

  For the dimension numbers "contract the left operand's axis 1 with the right operand's axis 0, no batch axis"
  (`DotDims.plain M K N`: an M×K array times a K×N array), the contraction position is one coordinate k < K, the left
  operand is read at (r, k) and the right at (k, c).  So the element (r, c) of the product — whether computed by the
  matrix unit into an accumulator of zeros or by the host's dot_general — is the finite sum  Σ_{k < K} lhs(r,k) · rhs(k,c).
  Nothing here depends on the extents, so the statement is for all M, K, N.
-/
import Idealize.ShloMosaic.Lib.ValueIdx
import Idealize.ShloMosaic.PureOps.Ideal.Laws

noncomputable section

open scoped BigOperators

namespace Cert.PlainDot

open Idealize.ShloMosaic Idealize.ShloMosaic.ValueIdx

variable {M K N : Nat}

/-- The left operand's row coordinate is the output's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- The right operand's column coordinate is the output's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The contraction sum of a plain product, re-indexed by the inner coordinate. -/
theorem sum_plain {φ₁ φ₂ : FTy} (lhs : FVec Ideal ⟨2, ![M, K]⟩ φ₁) (rhs : FVec Ideal ⟨2, ![K, N]⟩ φ₂) (r : Fin M) (c : Fin N) :
    ∑ q : (DotDims.plain M K N).contr.Idx,
        lhs ((DotDims.plain M K N).lhsIdx (ix2 r c) q) * rhs ((DotDims.plain M K N).rhsIdx (ix2 r c) q)
      = ∑ k : Fin K, lhs (ix2 r k) * rhs (ix2 k c) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx (ix2 r c) ((contrEquiv1 (DotDims.plain M K N) K hr hs).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K hr hs).symm k) = ix2 k c :=
    funext fun a => Fin.ext (by
      match a with
      | ⟨0, _⟩ => exact ((DotDims.plain M K N).rhsIdx_val_of_single rfl _ _).trans hk
      | ⟨1, _⟩ => exact rhs_col _ _)
  rw [el, er]

/-- A plain product accumulated by the matrix unit into zeros, at the element (r, c). -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (sum_plain lhs rhs r c)

/-- A plain product computed by the host's dot_general, at the element (r, c). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (sum_plain lhs rhs r c)

end Cert.PlainDot

end
-- ==== Proof.Region0.lean ====
/-
  Kernel region 0: the output array as one function of the arrays the region finds.

  The grid has 25 points.  Point t stages rows 2048·t … 2048·t + 2047 of the left operand (an array of 51200 × 44), the
  whole right operand (44 × 128) and the whole one-row bias (1 × 128); the body multiplies the staged rows by the right
  operand on the matrix unit into zeros, adds the bias row to every row, and the result is written back to rows
  2048·t … 2048·t + 2047 of the output (51200 × 128).  A change of float format is the identity on the extended reals, so
  entry (r, c) of what a point computes is  Σ_{k < 44} A(r, k) · B(k, c) + z(0, c).  The 25 row blocks tile the output,
  hence after the region the output array is that function of A, B, z at every index.
-/
import proofs.«145682_j63694365000469_2_alg».proof.Proof.Gen.KernelIdeal.Frame
import proofs.«145682_j63694365000469_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

/-- The printed dimension numbers are the plain ones: contract the left operand's columns with the right one's rows. -/
theorem dot_plain : dot_S2048x44_S44x128_S2048x128_1_0_0_1_n_n = DotDims.plain 2048 44 128 := rfl

/-- What the body stores, at row p and column q of the block: the p-th staged row times the q-th column, plus the bias. -/
theorem pay_apply (x0 : Vec Ideal S2048x44 .f32) (x1 : Vec Ideal S44x128 .f32) (x2 : Vec Ideal S1x128 .f32) (p : Fin 2048) (q : Fin 128) :
    k0_pay1 x0 x1 x2 (ix2 p q) = (∑ k : Fin 44, x0 (ix2 p k) * x1 (ix2 k q)) + x2 (ix2 0 q) := by
  unfold k0_pay1
  refine (addf_apply _ _ _).trans ?_
  refine congrArg₂ (· + ·) ?_ ?_
  · simp only [matmul, dot_plain, shapeCast_self]
    exact Cert.PlainDot.matmul_zero_apply none _ _ p q
  · rw [shapeCast_self]
    exact broadcastTo_1b_ab_apply x2 _ p q

/-- The region's output as one function of the three arrays it reads. -/
def G (A : S51200x44.Idx → Elt Ideal .f32) (B : S44x128.Idx → Elt Ideal .f32) (z : S1x128.Idx → Elt Ideal .f32) : S51200x128.Idx → Elt Ideal .f32 :=
  fun i => (∑ k : Fin 44, A (ix2 (⟨(i 0).val, (i 0).isLt⟩ : Fin 51200) k) * B (ix2 k (⟨(i 1).val, (i 1).isLt⟩ : Fin 128)))
    + z (ix2 0 (⟨(i 1).val, (i 1).isLt⟩ : Fin 128))

theorem hz : (![0, 0] : Fin 2 → Nat) = fun _ => 0 := funext fun a => by fin_cases a <;> rfl

/-- The index maps over the grid: the left operand and the output move one block of rows per point, the right operand
    and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The left operand's block at point t is rows 2048·t … of the array. -/
theorem blockA_apply (c : Dev nD) (t : Fin cfg0.N) (y : S2048x44.Idx) (i : S51200x44.Idx)
    (h0 : (i 0).val = t.val * 2048 + (y 0).val) (h1 : (i 1).val = (y 1).val) :
    (iblk0 V c 0 t : Vec Ideal S2048x44 .f32) y = (V c main_call0_v29 : S51200x44.Idx → Elt Ideal .f32) i := by
  obtain ⟨e0, e1, -⟩ := idx_facts t
  unfold iblk0
  rw [View.read_apply]
  show V c main_call0_v29 _ = V c main_call0_v29 _
  congr 1
  funext a
  apply Fin.ext
  match a with
  | ⟨0, _⟩ => show win0_0.index t (0 : Fin 2) * 2048 + 1 * (y 0).val = (i 0).val; rw [e0, h0]; omega
  | ⟨1, _⟩ => show win0_0.index t (1 : Fin 2) * 44 + 1 * (y 1).val = (i 1).val; rw [e1, h1]; omega

/-- The right operand's block at every point is the whole array. -/
theorem blockB_apply (c : Dev nD) (t : Fin cfg0.N) (y : S44x128.Idx) :
    (iblk0 V c 1 t : Vec Ideal S44x128 .f32) y = (V c main_arg2 : S44x128.Idx → Elt Ideal .f32) y := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 44 + 1 * (y 0).val = (y 0).val; rw [e0]; omega
  | ⟨1, _⟩ => show win0_1.index t (1 : Fin 2) * 128 + 1 * (y 1).val = (y 1).val; rw [e1]; omega

/-- The bias row's block at every point is the whole row. -/
theorem blockZ_apply (c : Dev nD) (t : Fin cfg0.N) (y : S1x128.Idx) :
    (iblk0 V c 2 t : Vec Ideal S1x128 .f32) y = (V c main_call0_v30 : S1x128.Idx → Elt Ideal .f32) y := by
  obtain ⟨-, -, -, -, e0, e1, -⟩ := idx_facts t
  unfold iblk0
  rw [View.read_apply]
  show V c main_call0_v30 _ = V c main_call0_v30 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- What point t writes back is block t of G of the arrays the region finds. -/
theorem flushed_eq (c : Dev nD) (t : Fin cfg0.N) :
    (dat0 V c).flushed 3 t = ((cfg0.win 3).blk t).view.read (Elt Ideal)
      (G (V c main_call0_v29) (V c main_arg2) (V c main_call0_v30)) := by
  show (cfg0.win 3).cut (grid0.coords t) ((dat0 V c).after 3 t) = _
  rw [after0_3]
  unfold out0_3
  rw [View.canon_unit_zero hz]
  simp only [View.ld_unit_zero (S := S2048x44) hz, View.ld_unit_zero (S := S44x128) hz, View.ld_unit_zero (S := S1x128) hz]
  obtain ⟨-, -, -, -, -, -, e0, e1⟩ := idx_facts t
  funext j
  obtain ⟨p, q, rfl⟩ : ∃ (p : Fin 2048) (q : Fin 128), j = ix2 p q := ⟨j 0, j 1, eq_ix2 j⟩
  refine (pay_apply _ _ _ p q).trans ?_
  rw [View.read_apply]
  unfold G
  have hr : ((((cfg0.win 3).blk t).view.emb (ix2 p q)) 0).val = t.val * 2048 + p.val := by
    show win0_3.index t (0 : Fin 2) * 2048 + 1 * p.val = _; rw [e0]; omega
  have hc : ((((cfg0.win 3).blk t).view.emb (ix2 p q)) 1).val = q.val := by
    show win0_3.index t (1 : Fin 2) * 128 + 1 * q.val = _; rw [e1]; omega
  refine congrArg₂ (· + ·) (Finset.sum_congr rfl fun k _ => congrArg₂ (· * ·) ?_ ?_) ?_
  · exact blockA_apply V c t (ix2 p k) _ hr rfl
  · refine (blockB_apply V c t (ix2 k q)).trans (congrArg _ ?_)
    exact funext fun a => Fin.ext (by match a with | ⟨0, _⟩ => rfl | ⟨1, _⟩ => exact hc.symm)
  · refine (blockZ_apply V c t (ix2 0 q)).trans (congrArg _ ?_)
    exact funext fun a => Fin.ext (by match a with | ⟨0, _⟩ => rfl | ⟨1, _⟩ => exact hc.symm)

/-- The 25 row blocks tile the output: row r lies in the block of point r / 2048. -/
theorem cover (i : S51200x128.Idx) : ∃ t : Fin cfg0.N, (cfg0.win 3).flush t = true ∧ i ∈ ((cfg0.win 3).blk t).view.set := by
  have hi0 : (i 0).val < 51200 := (i 0).isLt
  have hi1 : (i 1).val < 128 := (i 1).isLt
  have hN : cfg0.N = 25 := N_0
  let t : Fin cfg0.N := ⟨(i 0).val / 2048, by rw [hN]; omega⟩
  obtain ⟨-, -, -, -, -, -, e0, e1⟩ := idx_facts t
  refine ⟨t, flush0_3 t, ?_⟩
  show i ∈ ((View.whole main_call0_v31).slice (win0_3.rect t)).set
  rw [View.set_slice_whole, Rect.mem_set_unit]
  intro a
  have ht : t.val = (i 0).val / 2048 := rfl
  match a with
  | ⟨0, _⟩ => show win0_3.index t (0 : Fin 2) * 2048 ≤ (i 0).val ∧ (i 0).val < win0_3.index t (0 : Fin 2) * 2048 + 2048; rw [e0]; omega
  | ⟨1, _⟩ => show win0_3.index t (1 : Fin 2) * 128 ≤ (i 1).val ∧ (i 1).val < win0_3.index t (1 : Fin 2) * 128 + 128; rw [e1]; omega

/-- After the region the output array is G of the arrays the region found. -/
theorem final (c : Dev nD) : (dat0 V c).arrAt 3 cfg0.N = G (V c main_call0_v29) (V c main_arg2) (V c main_call0_v30) :=
  (dat0 V c).arrAt_eq_of_cover 3 _ (fun t _ => flushed_eq V c t) cover

end Cert.KernelIdeal.Region0

end
-- ==== Proof.Region1.lean ====
/-
  Kernel region 1: the output array as one function of the arrays the region finds.

  The grid has 25 points.  Point t stages rows 2048·t … 2048·t + 2047 of the left operand (an array of 51200 × 128), the
  whole right operand (128 × 64) and the whole one-row bias (1 × 64); the body multiplies the staged rows by the right
  operand on the matrix unit into zeros, adds the bias row to every row, and the result is written back to rows
  2048·t … 2048·t + 2047 of the output (51200 × 64).  A change of float format is the identity on the extended reals, so
  entry (r, c) of what a point computes is  Σ_{k < 128} A(r, k) · B(k, c) + z(0, c).  The 25 row blocks tile the output,
  hence after the region the output array is that function of A, B, z at every index.
-/
import proofs.«145682_j63694365000469_2_alg».proof.Proof.Gen.KernelIdeal.Frame
import proofs.«145682_j63694365000469_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

/-- The printed dimension numbers are the plain ones: contract the left operand's columns with the right one's rows. -/
theorem dot_plain : dot_S2048x128_S128x64_S2048x64_1_0_0_1_n_n = DotDims.plain 2048 128 64 := rfl

/-- What the body stores, at row p and column q of the block: the p-th staged row times the q-th column, plus the bias. -/
theorem pay_apply (x0 : Vec Ideal S2048x128 .f32) (x1 : Vec Ideal S128x64 .f32) (x2 : Vec Ideal S1x64 .f32) (p : Fin 2048) (q : Fin 64) :
    k1_pay1 x0 x1 x2 (ix2 p q) = (∑ k : Fin 128, x0 (ix2 p k) * x1 (ix2 k q)) + x2 (ix2 0 q) := by
  unfold k1_pay1
  refine (addf_apply _ _ _).trans ?_
  refine congrArg₂ (· + ·) ?_ ?_
  · simp only [matmul, dot_plain, shapeCast_self]
    exact Cert.PlainDot.matmul_zero_apply none _ _ p q
  · rw [shapeCast_self]
    exact broadcastTo_1b_ab_apply x2 _ p q

/-- The region's output as one function of the three arrays it reads. -/
def G (A : S51200x128.Idx → Elt Ideal .f32) (B : S128x64.Idx → Elt Ideal .f32) (z : S1x64.Idx → Elt Ideal .f32) : S51200x64.Idx → Elt Ideal .f32 :=
  fun i => (∑ k : Fin 128, A (ix2 (⟨(i 0).val, (i 0).isLt⟩ : Fin 51200) k) * B (ix2 k (⟨(i 1).val, (i 1).isLt⟩ : Fin 64)))
    + z (ix2 0 (⟨(i 1).val, (i 1).isLt⟩ : Fin 64))

theorem hz : (![0, 0] : Fin 2 → Nat) = fun _ => 0 := funext fun a => by fin_cases a <;> rfl

/-- The index maps over the grid: the left operand and the output move one block of rows per point, the right operand
    and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The left operand's block at point t is rows 2048·t … of the array. -/
theorem blockA_apply (c : Dev nD) (t : Fin cfg1.N) (y : S2048x128.Idx) (i : S51200x128.Idx)
    (h0 : (i 0).val = t.val * 2048 + (y 0).val) (h1 : (i 1).val = (y 1).val) :
    (iblk1 V c 0 t : Vec Ideal S2048x128 .f32) y = (V c main_call0_v50 : S51200x128.Idx → Elt Ideal .f32) i := by
  obtain ⟨e0, e1, -⟩ := idx_facts t
  unfold iblk1
  rw [View.read_apply]
  show V c main_call0_v50 _ = V c main_call0_v50 _
  congr 1
  funext a
  apply Fin.ext
  match a with
  | ⟨0, _⟩ => show win1_0.index t (0 : Fin 2) * 2048 + 1 * (y 0).val = (i 0).val; rw [e0, h0]; omega
  | ⟨1, _⟩ => show win1_0.index t (1 : Fin 2) * 128 + 1 * (y 1).val = (i 1).val; rw [e1, h1]; omega

/-- The right operand's block at every point is the whole array. -/
theorem blockB_apply (c : Dev nD) (t : Fin cfg1.N) (y : S128x64.Idx) :
    (iblk1 V c 1 t : Vec Ideal S128x64 .f32) y = (V c main_arg4 : S128x64.Idx → Elt Ideal .f32) y := by
  obtain ⟨-, -, e0, e1, -⟩ := idx_facts t
  unfold iblk1
  rw [View.read_apply]
  show V c main_arg4 _ = V c main_arg4 _
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 64 + 1 * (y 1).val = (y 1).val; rw [e1]; omega

/-- The bias row's block at every point is the whole row. -/
theorem blockZ_apply (c : Dev nD) (t : Fin cfg1.N) (y : S1x64.Idx) :
    (iblk1 V c 2 t : Vec Ideal S1x64 .f32) y = (V c main_call0_v51 : S1x64.Idx → Elt Ideal .f32) y := by
  obtain ⟨-, -, -, -, e0, e1, -⟩ := idx_facts t
  unfold iblk1
  rw [View.read_apply]
  show V c main_call0_v51 _ = V c main_call0_v51 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- What point t writes back is block t of G of the arrays the region finds. -/
theorem flushed_eq (c : Dev nD) (t : Fin cfg1.N) :
    (dat1 V c).flushed 3 t = ((cfg1.win 3).blk t).view.read (Elt Ideal)
      (G (V c main_call0_v50) (V c main_arg4) (V c main_call0_v51)) := by
  show (cfg1.win 3).cut (grid1.coords t) ((dat1 V c).after 3 t) = _
  rw [after1_3]
  unfold out1_3
  rw [View.canon_unit_zero hz]
  simp only [View.ld_unit_zero (S := S2048x128) hz, View.ld_unit_zero (S := S128x64) hz, View.ld_unit_zero (S := S1x64) hz]
  obtain ⟨-, -, -, -, -, -, e0, e1⟩ := idx_facts t
  funext j
  obtain ⟨p, q, rfl⟩ : ∃ (p : Fin 2048) (q : Fin 64), j = ix2 p q := ⟨j 0, j 1, eq_ix2 j⟩
  refine (pay_apply _ _ _ p q).trans ?_
  rw [View.read_apply]
  unfold G
  have hr : ((((cfg1.win 3).blk t).view.emb (ix2 p q)) 0).val = t.val * 2048 + p.val := by
    show win1_3.index t (0 : Fin 2) * 2048 + 1 * p.val = _; rw [e0]; omega
  have hc : ((((cfg1.win 3).blk t).view.emb (ix2 p q)) 1).val = q.val := by
    show win1_3.index t (1 : Fin 2) * 64 + 1 * q.val = _; rw [e1]; omega
  refine congrArg₂ (· + ·) (Finset.sum_congr rfl fun k _ => congrArg₂ (· * ·) ?_ ?_) ?_
  · exact blockA_apply V c t (ix2 p k) _ hr rfl
  · refine (blockB_apply V c t (ix2 k q)).trans (congrArg _ ?_)
    exact funext fun a => Fin.ext (by match a with | ⟨0, _⟩ => rfl | ⟨1, _⟩ => exact hc.symm)
  · refine (blockZ_apply V c t (ix2 0 q)).trans (congrArg _ ?_)
    exact funext fun a => Fin.ext (by match a with | ⟨0, _⟩ => rfl | ⟨1, _⟩ => exact hc.symm)

/-- The 25 row blocks tile the output: row r lies in the block of point r / 2048. -/
theorem cover (i : S51200x64.Idx) : ∃ t : Fin cfg1.N, (cfg1.win 3).flush t = true ∧ i ∈ ((cfg1.win 3).blk t).view.set := by
  have hi0 : (i 0).val < 51200 := (i 0).isLt
  have hi1 : (i 1).val < 64 := (i 1).isLt
  have hN : cfg1.N = 25 := N_1
  let t : Fin cfg1.N := ⟨(i 0).val / 2048, by rw [hN]; omega⟩
  obtain ⟨-, -, -, -, -, -, e0, e1⟩ := idx_facts t
  refine ⟨t, flush1_3 t, ?_⟩
  show i ∈ ((View.whole main_call0_v52).slice (win1_3.rect t)).set
  rw [View.set_slice_whole, Rect.mem_set_unit]
  intro a
  have ht : t.val = (i 0).val / 2048 := rfl
  match a with
  | ⟨0, _⟩ => show win1_3.index t (0 : Fin 2) * 2048 ≤ (i 0).val ∧ (i 0).val < win1_3.index t (0 : Fin 2) * 2048 + 2048; rw [e0]; omega
  | ⟨1, _⟩ => show win1_3.index t (1 : Fin 2) * 64 ≤ (i 1).val ∧ (i 1).val < win1_3.index t (1 : Fin 2) * 64 + 64; rw [e1]; omega

/-- After the region the output array is G of the arrays the region found. -/
theorem final (c : Dev nD) : (dat1 V c).arrAt 3 cfg1.N = G (V c main_call0_v50) (V c main_arg4) (V c main_call0_v51) :=
  (dat1 V c).arrAt_eq_of_cover 3 _ (fun t _ => flushed_eq V c t) cover

end Cert.KernelIdeal.Region1

end
-- ==== Proof.Region2.lean ====
/-
  Kernel region 2: the output array as one function of the arrays the region finds.

  The grid has 25 points.  Point t stages rows 2048·t … 2048·t + 2047 of the left operand (an array of 51200 × 64), the
  whole right operand (64 × 32) and the whole one-row bias (1 × 32); the body multiplies the staged rows by the right
  operand on the matrix unit into zeros, adds the bias row to every row, and the result is written back to rows
  2048·t … 2048·t + 2047 of the output (51200 × 32).  A change of float format is the identity on the extended reals, so
  entry (r, c) of what a point computes is  Σ_{k < 64} A(r, k) · B(k, c) + z(0, c).  The 25 row blocks tile the output,
  hence after the region the output array is that function of A, B, z at every index.
-/
import proofs.«145682_j63694365000469_2_alg».proof.Proof.Gen.KernelIdeal.Frame
import proofs.«145682_j63694365000469_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

/-- The printed dimension numbers are the plain ones: contract the left operand's columns with the right one's rows. -/
theorem dot_plain : dot_S2048x64_S64x32_S2048x32_1_0_0_1_n_n = DotDims.plain 2048 64 32 := rfl

/-- What the body stores, at row p and column q of the block: the p-th staged row times the q-th column, plus the bias. -/
theorem pay_apply (x0 : Vec Ideal S2048x64 .f32) (x1 : Vec Ideal S64x32 .f32) (x2 : Vec Ideal S1x32 .f32) (p : Fin 2048) (q : Fin 32) :
    k2_pay1 x0 x1 x2 (ix2 p q) = (∑ k : Fin 64, x0 (ix2 p k) * x1 (ix2 k q)) + x2 (ix2 0 q) := by
  unfold k2_pay1
  refine (addf_apply _ _ _).trans ?_
  refine congrArg₂ (· + ·) ?_ ?_
  · simp only [matmul, dot_plain, shapeCast_self]
    exact Cert.PlainDot.matmul_zero_apply none _ _ p q
  · rw [shapeCast_self]
    exact broadcastTo_1b_ab_apply x2 _ p q

/-- The region's output as one function of the three arrays it reads. -/
def G (A : S51200x64.Idx → Elt Ideal .f32) (B : S64x32.Idx → Elt Ideal .f32) (z : S1x32.Idx → Elt Ideal .f32) : S51200x32.Idx → Elt Ideal .f32 :=
  fun i => (∑ k : Fin 64, A (ix2 (⟨(i 0).val, (i 0).isLt⟩ : Fin 51200) k) * B (ix2 k (⟨(i 1).val, (i 1).isLt⟩ : Fin 32)))
    + z (ix2 0 (⟨(i 1).val, (i 1).isLt⟩ : Fin 32))

theorem hz : (![0, 0] : Fin 2 → Nat) = fun _ => 0 := funext fun a => by fin_cases a <;> rfl

/-- The index maps over the grid: the left operand and the output move one block of rows per point, the right operand
    and the bias stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The left operand's block at point t is rows 2048·t … of the array. -/
theorem blockA_apply (c : Dev nD) (t : Fin cfg2.N) (y : S2048x64.Idx) (i : S51200x64.Idx)
    (h0 : (i 0).val = t.val * 2048 + (y 0).val) (h1 : (i 1).val = (y 1).val) :
    (iblk2 V c 0 t : Vec Ideal S2048x64 .f32) y = (V c main_call0_v71 : S51200x64.Idx → Elt Ideal .f32) i := by
  obtain ⟨e0, e1, -⟩ := idx_facts t
  unfold iblk2
  rw [View.read_apply]
  show V c main_call0_v71 _ = V c main_call0_v71 _
  congr 1
  funext a
  apply Fin.ext
  match a with
  | ⟨0, _⟩ => show win2_0.index t (0 : Fin 2) * 2048 + 1 * (y 0).val = (i 0).val; rw [e0, h0]; omega
  | ⟨1, _⟩ => show win2_0.index t (1 : Fin 2) * 64 + 1 * (y 1).val = (i 1).val; rw [e1, h1]; omega

/-- The right operand's block at every point is the whole array. -/
theorem blockB_apply (c : Dev nD) (t : Fin cfg2.N) (y : S64x32.Idx) :
    (iblk2 V c 1 t : Vec Ideal S64x32 .f32) y = (V c main_arg6 : S64x32.Idx → Elt Ideal .f32) y := by
  obtain ⟨-, -, e0, e1, -⟩ := idx_facts t
  unfold iblk2
  rw [View.read_apply]
  show V c main_arg6 _ = V c main_arg6 _
  congr 1
  funext a
  apply Fin.ext
  match a with
  | ⟨0, _⟩ => show win2_1.index t (0 : Fin 2) * 64 + 1 * (y 0).val = (y 0).val; rw [e0]; omega
  | ⟨1, _⟩ => show win2_1.index t (1 : Fin 2) * 32 + 1 * (y 1).val = (y 1).val; rw [e1]; omega

/-- The bias row's block at every point is the whole row. -/
theorem blockZ_apply (c : Dev nD) (t : Fin cfg2.N) (y : S1x32.Idx) :
    (iblk2 V c 2 t : Vec Ideal S1x32 .f32) y = (V c main_call0_v72 : S1x32.Idx → Elt Ideal .f32) y := by
  obtain ⟨-, -, -, -, e0, e1, -⟩ := idx_facts t
  unfold iblk2
  rw [View.read_apply]
  show V c main_call0_v72 _ = V c main_call0_v72 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 32 + 1 * (y 1).val = (y 1).val; rw [e1]; omega

/-- What point t writes back is block t of G of the arrays the region finds. -/
theorem flushed_eq (c : Dev nD) (t : Fin cfg2.N) :
    (dat2 V c).flushed 3 t = ((cfg2.win 3).blk t).view.read (Elt Ideal)
      (G (V c main_call0_v71) (V c main_arg6) (V c main_call0_v72)) := by
  show (cfg2.win 3).cut (grid2.coords t) ((dat2 V c).after 3 t) = _
  rw [after2_3]
  unfold out2_3
  rw [View.canon_unit_zero hz]
  simp only [View.ld_unit_zero (S := S2048x64) hz, View.ld_unit_zero (S := S64x32) hz, View.ld_unit_zero (S := S1x32) hz]
  obtain ⟨-, -, -, -, -, -, e0, e1⟩ := idx_facts t
  funext j
  obtain ⟨p, q, rfl⟩ : ∃ (p : Fin 2048) (q : Fin 32), j = ix2 p q := ⟨j 0, j 1, eq_ix2 j⟩
  refine (pay_apply _ _ _ p q).trans ?_
  rw [View.read_apply]
  unfold G
  have hr : ((((cfg2.win 3).blk t).view.emb (ix2 p q)) 0).val = t.val * 2048 + p.val := by
    show win2_3.index t (0 : Fin 2) * 2048 + 1 * p.val = _; rw [e0]; omega
  have hc : ((((cfg2.win 3).blk t).view.emb (ix2 p q)) 1).val = q.val := by
    show win2_3.index t (1 : Fin 2) * 32 + 1 * q.val = _; rw [e1]; omega
  refine congrArg₂ (· + ·) (Finset.sum_congr rfl fun k _ => congrArg₂ (· * ·) ?_ ?_) ?_
  · exact blockA_apply V c t (ix2 p k) _ hr rfl
  · refine (blockB_apply V c t (ix2 k q)).trans (congrArg _ ?_)
    exact funext fun a => Fin.ext (by match a with | ⟨0, _⟩ => rfl | ⟨1, _⟩ => exact hc.symm)
  · refine (blockZ_apply V c t (ix2 0 q)).trans (congrArg _ ?_)
    exact funext fun a => Fin.ext (by match a with | ⟨0, _⟩ => rfl | ⟨1, _⟩ => exact hc.symm)

/-- The 25 row blocks tile the output: row r lies in the block of point r / 2048. -/
theorem cover (i : S51200x32.Idx) : ∃ t : Fin cfg2.N, (cfg2.win 3).flush t = true ∧ i ∈ ((cfg2.win 3).blk t).view.set := by
  have hi0 : (i 0).val < 51200 := (i 0).isLt
  have hi1 : (i 1).val < 32 := (i 1).isLt
  have hN : cfg2.N = 25 := N_2
  let t : Fin cfg2.N := ⟨(i 0).val / 2048, by rw [hN]; omega⟩
  obtain ⟨-, -, -, -, -, -, e0, e1⟩ := idx_facts t
  refine ⟨t, flush2_3 t, ?_⟩
  show i ∈ ((View.whole main_call0_v73).slice (win2_3.rect t)).set
  rw [View.set_slice_whole, Rect.mem_set_unit]
  intro a
  have ht : t.val = (i 0).val / 2048 := rfl
  match a with
  | ⟨0, _⟩ => show win2_3.index t (0 : Fin 2) * 2048 ≤ (i 0).val ∧ (i 0).val < win2_3.index t (0 : Fin 2) * 2048 + 2048; rw [e0]; omega
  | ⟨1, _⟩ => show win2_3.index t (1 : Fin 2) * 32 ≤ (i 1).val ∧ (i 1).val < win2_3.index t (1 : Fin 2) * 32 + 32; rw [e1]; omega

/-- After the region the output array is G of the arrays the region found. -/
theorem final (c : Dev nD) : (dat2 V c).arrAt 3 cfg2.N = G (V c main_call0_v71) (V c main_arg6) (V c main_call0_v72) :=
  (dat2 V c).arrAt_eq_of_cover 3 _ (fun t _ => flushed_eq V c t) cover

end Cert.KernelIdeal.Region2

end
-- ==== Proof.Region3.lean ====
/-
  Kernel region 3, the fused head: the output array as one function of the arrays the region finds.

  The grid has 25 points.  Point t stages rows 2048·t … 2048·t + 2047 of the hidden array H (51200 × 32) and, whole, the
  two weight matrices W₁ (32 × 16), W₂ (16 × 1) and the two one-row biases b₁ (1 × 16), b₂ (1 × 1).  The body computes
  u = max(H·W₁ + b₁, 0), then s = u·W₂ + b₂, then 1 / (1 + exp(0 − s)), and the result is written back to rows
  2048·t … of the output (51200 × 1).  Both products run on the matrix unit into zeros and every change of float format
  is the identity on the extended reals, so entry (r, q) of what a point computes is
     1 / (1 + exp(0 − (Σ_{j<16} max(Σ_{k<32} H(r,k)·W₁(k,j) + b₁(0,j), 0) · W₂(j,q) + b₂(0,q)))).
  The 25 row blocks tile the output, hence after the region the output array is that function at every index.
-/
import proofs.«145682_j63694365000469_2_alg».proof.Proof.Gen.KernelIdeal.Frame
import proofs.«145682_j63694365000469_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat)

theorem dot1_plain : dot_S2048x32_S32x16_S2048x16_1_0_0_1_n_n = DotDims.plain 2048 32 16 := rfl
theorem dot2_plain : dot_S2048x16_S16x1_S2048x1_1_0_0_1_n_n = DotDims.plain 2048 16 1 := rfl

/-- The head at one row: the logistic function, spelt 1 / (1 + exp(0 − s)), of the second layer's sum. -/
def headAt (H : Fin 32 → Elt Ideal .f32) (W1 : Fin 32 → Fin 16 → Elt Ideal .f32) (b1 : Fin 16 → Elt Ideal .f32)
    (W2 : Fin 16 → Elt Ideal .f32) (b2 : Elt Ideal .f32) : Elt Ideal .f32 :=
  Ideal.div (Ideal.ofBits .f32 0x3F800000#32) (Ideal.ofBits .f32 0x3F800000#32 + Ideal.exp (Ideal.ofBits .f32 0x00000000#32
    - ((∑ j : Fin 16, max ((∑ k : Fin 32, H k * W1 k j) + b1 j) (Ideal.ofBits .f32 0x00000000#32) * W2 j) + b2)))

/-- What the body stores, at row p and column q of the block. -/
theorem pay_apply (x0 : Vec Ideal S2048x32 .f32) (x1 : Vec Ideal S32x16 .f32) (x2 : Vec Ideal S1x16 .f32) (x3 : Vec Ideal S16x1 .f32) (x4 : Vec Ideal S1x1 .f32)
    (p : Fin 2048) (q : Fin 1) :
    k3_pay1 x0 x1 x2 x3 x4 (ix2 p q)
      = headAt (fun k => x0 (ix2 p k)) (fun k j => x1 (ix2 k j)) (fun j => x2 (ix2 0 j)) (fun j => x3 (ix2 j q)) (x4 (ix2 0 q)) := by
  unfold k3_pay1 headAt
  refine congrArg₂ Ideal.div rfl (congrArg₂ (· + ·) rfl (congrArg Ideal.exp (congrArg₂ (· - ·) rfl (congrArg₂ (· + ·) ?_ ?_))))
  · simp only [matmul, dot2_plain]
    refine (Cert.PlainDot.matmul_zero_apply none _ _ p q).trans ?_
    refine Finset.sum_congr rfl fun j _ => congrArg₂ (· * ·) ?_ rfl
    refine congrArg₂ max ?_ rfl
    refine congrArg₂ (· + ·) ?_ ?_
    · simp only [matmul, dot1_plain, shapeCast_self]
      exact Cert.PlainDot.matmul_zero_apply none _ _ p j
    · rw [shapeCast_self]
      exact broadcastTo_1b_ab_apply x2 _ p j
  · rw [shapeCast_self]
    exact broadcastTo_1b_ab_apply x4 _ p q

/-- The region's output as one function of the five arrays it reads. -/
def G (H : S51200x32.Idx → Elt Ideal .f32) (W1 : S32x16.Idx → Elt Ideal .f32) (b1 : S1x16.Idx → Elt Ideal .f32)
    (W2 : S16x1.Idx → Elt Ideal .f32) (b2 : S1x1.Idx → Elt Ideal .f32) : S51200x1.Idx → Elt Ideal .f32 :=
  fun i => headAt (fun k => H (ix2 (⟨(i 0).val, (i 0).isLt⟩ : Fin 51200) k)) (fun k j => W1 (ix2 k j)) (fun j => b1 (ix2 0 j))
    (fun j => W2 (ix2 j (⟨(i 1).val, (i 1).isLt⟩ : Fin 1))) (b2 (ix2 0 (⟨(i 1).val, (i 1).isLt⟩ : Fin 1)))

theorem hz : (![0, 0] : Fin 2 → Nat) = fun _ => 0 := funext fun a => by fin_cases a <;> rfl

/-- The index maps over the grid: the hidden array and the output move one block of rows per point, the weights and the
    biases stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ True :=
  (by decide +kernel : ∀ t : Fin grid3.N, _)

variable (V : (c : Dev nD) → (b : Ref sig .tc) → Buf (Elt Ideal) ((c : Thread nD τ).loc b))

/-- The hidden array's block at point t is rows 2048·t … of the array. -/
theorem blockH_apply (c : Dev nD) (t : Fin cfg3.N) (y : S2048x32.Idx) (i : S51200x32.Idx)
    (h0 : (i 0).val = t.val * 2048 + (y 0).val) (h1 : (i 1).val = (y 1).val) :
    (iblk3 V c 0 t : Vec Ideal S2048x32 .f32) y = (V c main_call0_v92 : S51200x32.Idx → Elt Ideal .f32) i := by
  obtain ⟨e0, e1, -⟩ := idx_facts t
  unfold iblk3
  rw [View.read_apply]
  show V c main_call0_v92 _ = V c main_call0_v92 _
  congr 1
  funext a
  apply Fin.ext
  match a with
  | ⟨0, _⟩ => show win3_0.index t (0 : Fin 2) * 2048 + 1 * (y 0).val = (i 0).val; rw [e0, h0]; omega
  | ⟨1, _⟩ => show win3_0.index t (1 : Fin 2) * 32 + 1 * (y 1).val = (i 1).val; rw [e1, h1]; omega

/-- The first weight matrix's block at every point is the whole array. -/
theorem block1_apply (c : Dev nD) (t : Fin cfg3.N) (y : S32x16.Idx) :
    (iblk3 V c 1 t : Vec Ideal S32x16 .f32) y = (V c main_arg8 : S32x16.Idx → Elt Ideal .f32) y := by
  obtain ⟨-, -, e0, e1, -⟩ := idx_facts t
  unfold iblk3
  rw [View.read_apply]
  show V c main_arg8 _ = V c main_arg8 _
  congr 1
  funext a
  apply Fin.ext
  match a with
  | ⟨0, _⟩ => show win3_1.index t (0 : Fin 2) * 32 + 1 * (y 0).val = (y 0).val; rw [e0]; omega
  | ⟨1, _⟩ => show win3_1.index t (1 : Fin 2) * 16 + 1 * (y 1).val = (y 1).val; rw [e1]; omega

/-- The first bias row's block at every point is the whole array. -/
theorem block2_apply (c : Dev nD) (t : Fin cfg3.N) (y : S1x16.Idx) :
    (iblk3 V c 2 t : Vec Ideal S1x16 .f32) y = (V c main_call0_v93 : S1x16.Idx → Elt Ideal .f32) y := by
  obtain ⟨-, -, -, -, e0, e1, -⟩ := idx_facts t
  unfold iblk3
  rw [View.read_apply]
  show V c main_call0_v93 _ = V c main_call0_v93 _
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 16 + 1 * (y 1).val = (y 1).val; rw [e1]; omega

/-- The second weight matrix's block at every point is the whole array. -/
theorem block3_apply (c : Dev nD) (t : Fin cfg3.N) (y : S16x1.Idx) :
    (iblk3 V c 3 t : Vec Ideal S16x1 .f32) y = (V c main_arg10 : S16x1.Idx → Elt Ideal .f32) y := by
  obtain ⟨-, -, -, -, -, -, e0, e1, -⟩ := idx_facts t
  unfold iblk3
  rw [View.read_apply]
  show V c main_arg10 _ = V c main_arg10 _
  congr 1
  funext a
  apply Fin.ext
  match a with
  | ⟨0, _⟩ => show win3_3.index t (0 : Fin 2) * 16 + 1 * (y 0).val = (y 0).val; rw [e0]; omega
  | ⟨1, _⟩ => show win3_3.index t (1 : Fin 2) * 1 + 1 * (y 1).val = (y 1).val; rw [e1]; omega

/-- The second bias's block at every point is the whole array. -/
theorem block4_apply (c : Dev nD) (t : Fin cfg3.N) (y : S1x1.Idx) :
    (iblk3 V c 4 t : Vec Ideal S1x1 .f32) y = (V c main_call0_v94 : S1x1.Idx → Elt Ideal .f32) y := by
  obtain ⟨-, -, -, -, -, -, -, -, e0, e1, -⟩ := idx_facts t
  unfold iblk3
  rw [View.read_apply]
  show V c main_call0_v94 _ = V c main_call0_v94 _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 1 + 1 * (y 1).val = (y 1).val; rw [e1]; omega

/-- What point t writes back is block t of G of the arrays the region finds. -/
theorem flushed_eq (c : Dev nD) (t : Fin cfg3.N) :
    (dat3 V c).flushed 5 t = ((cfg3.win 5).blk t).view.read (Elt Ideal)
      (G (V c main_call0_v92) (V c main_arg8) (V c main_call0_v93) (V c main_arg10) (V c main_call0_v94)) := by
  show (cfg3.win 5).cut (grid3.coords t) ((dat3 V c).after 5 t) = _
  rw [after3_5]
  unfold out3_5
  rw [View.canon_unit_zero hz]
  simp only [View.ld_unit_zero (S := S2048x32) hz, View.ld_unit_zero (S := S32x16) hz, View.ld_unit_zero (S := S1x16) hz,
    View.ld_unit_zero (S := S16x1) hz, View.ld_unit_zero (S := S1x1) hz]
  obtain ⟨-, -, -, -, -, -, -, -, -, -, e0, e1, -⟩ := idx_facts t
  funext j
  obtain ⟨p, q, rfl⟩ : ∃ (p : Fin 2048) (q : Fin 1), j = ix2 p q := ⟨j 0, j 1, eq_ix2 j⟩
  refine (pay_apply _ _ _ _ _ p q).trans ?_
  rw [View.read_apply]
  unfold G
  have hr : ((((cfg3.win 5).blk t).view.emb (ix2 p q)) 0).val = t.val * 2048 + p.val := by
    show win3_5.index t (0 : Fin 2) * 2048 + 1 * p.val = _; rw [e0]; omega
  have hc : ((((cfg3.win 5).blk t).view.emb (ix2 p q)) 1).val = q.val := by
    show win3_5.index t (1 : Fin 2) * 1 + 1 * q.val = _; rw [e1]; omega
  have hq : (⟨((((cfg3.win 5).blk t).view.emb (ix2 p q)) 1).val, ((((cfg3.win 5).blk t).view.emb (ix2 p q)) 1).isLt⟩ : Fin 1) = q := Fin.ext hc
  rw [hq]
  congr 1
  · funext k; exact blockH_apply V c t (ix2 p k) _ hr rfl
  · funext k j; exact block1_apply V c t (ix2 k j)
  · funext j; exact block2_apply V c t (ix2 0 j)
  · funext j; exact block3_apply V c t (ix2 j q)
  · exact block4_apply V c t (ix2 0 q)

/-- The 25 row blocks tile the output: row r lies in the block of point r / 2048. -/
theorem cover (i : S51200x1.Idx) : ∃ t : Fin cfg3.N, (cfg3.win 5).flush t = true ∧ i ∈ ((cfg3.win 5).blk t).view.set := by
  have hi0 : (i 0).val < 51200 := (i 0).isLt
  have hi1 : (i 1).val < 1 := (i 1).isLt
  have hN : cfg3.N = 25 := N_3
  let t : Fin cfg3.N := ⟨(i 0).val / 2048, by rw [hN]; omega⟩
  obtain ⟨-, -, -, -, -, -, -, -, -, -, e0, e1, -⟩ := idx_facts t
  refine ⟨t, flush3_5 t, ?_⟩
  show i ∈ ((View.whole main_call0_v95).slice (win3_5.rect t)).set
  rw [View.set_slice_whole, Rect.mem_set_unit]
  intro a
  have ht : t.val = (i 0).val / 2048 := rfl
  match a with
  | ⟨0, _⟩ => show win3_5.index t (0 : Fin 2) * 2048 ≤ (i 0).val ∧ (i 0).val < win3_5.index t (0 : Fin 2) * 2048 + 2048; rw [e0]; omega
  | ⟨1, _⟩ => show win3_5.index t (1 : Fin 2) * 1 ≤ (i 1).val ∧ (i 1).val < win3_5.index t (1 : Fin 2) * 1 + 1; rw [e1]; omega

/-- After the region the output array is G of the arrays the region found. -/
theorem final (c : Dev nD) : (dat3 V c).arrAt 5 cfg3.N
    = G (V c main_call0_v92) (V c main_arg8) (V c main_call0_v93) (V c main_arg10) (V c main_call0_v94) :=
  (dat3 V c).arrAt_eq_of_cover 5 _ (fun t _ => flushed_eq V c t) cover

end Cert.KernelIdeal.Region3

end
-- ==== Proof.HostFnK.lean ====
/-
  The host side of the graph network, as named functions of its inputs (program KernelIdeal).

  From the edge list (2 × 600000 node numbers) the program forms 650000 source and destination nodes — the edges' first
  and second row, each followed by the self loops 0 … 49999 —, the degree of every node (ones added into the destination
  nodes, starting from zeros), its inverse square root after a clamp below at one, and the edge weight
  norm e = dinv(src e) · dinv(dst e), a node number below zero being read 50000 higher.  One layer then takes a dense
  product hw (50000 × N), gathers its rows at the source nodes, scales row e by norm e, adds the rows into their
  destination nodes starting from zeros, adds the bias to every row and clamps at zero.
  These are the printed operations, composed and named; nothing here looks inside a gather or a scatter.
-/
import proofs.«145682_j63694365000469_2_alg».proof.KernelIdeal

set_option maxRecDepth 16384

noncomputable section

namespace Cert.KernelIdeal.HostFn

open Cert.KernelIdeal Idealize.ShloMosaic

variable {F : FTy → Type} [FloatOps F] [Facts]
open Facts₀ Facts

/-- The 650000 source nodes: the edge list's first row, then the self loops. -/
def srcOf (ei : (⟨S2x600000, .i32⟩ : BufTy).Contents (Elt F)) : (⟨S650000, .i32⟩ : BufTy).Contents (Elt F) :=
  concatenate S650000 0 [⟨S600000, (shapeCast _ (extractStridedSlice S1x600000 ![0, 0] ei slices_S2x600000_S1x600000_0_0) shapeCasts_S1x600000_S600000)⟩, ⟨S50000, (iotaInDim S50000 32 0)⟩] concatenates_S600000_S50000_S650000_d0

/-- The 650000 destination nodes: the edge list's second row, then the self loops. -/
def dstOf (ei : (⟨S2x600000, .i32⟩ : BufTy).Contents (Elt F)) : (⟨S650000, .i32⟩ : BufTy).Contents (Elt F) :=
  concatenate S650000 0 [⟨S600000, (shapeCast _ (extractStridedSlice S1x600000 ![1, 0] ei slices_S2x600000_S1x600000_1_0) shapeCasts_S1x600000_S600000)⟩, ⟨S50000, (iotaInDim S50000 32 0)⟩] concatenates_S600000_S50000_S650000_d0

/-- A list of node numbers as an index column. -/
def column (s : (⟨S650000, .i32⟩ : BufTy).Contents (Elt F)) : (⟨S650000x1, .i32⟩ : BufTy).Contents (Elt F) :=
  broadcastInDim S650000x1 ![0] bcast_S650000_S650000x1_0 s

/-- The same with a number below zero read 50000 higher. -/
def wrapped (s : (⟨S650000, .i32⟩ : BufTy).Contents (Elt F)) : (⟨S650000x1, .i32⟩ : BufTy).Contents (Elt F) :=
  broadcastInDim S650000x1 ![0] bcast_S650000_S650000x1_0 (select (cmpi .slt s (broadcastInDim S650000 ![] bcast_S_S650000 (constantI S_ 32 0#32))) (addi s (broadcastInDim S650000 ![] bcast_S_S650000 (constantI S_ 32 50000#32))) s)

/-- The inverse square root of every node's degree, the degree clamped below at one. -/
def invSqrtDeg (dst : (⟨S650000, .i32⟩ : BufTy).Contents (Elt F)) : (⟨S50000, .f32⟩ : BufTy).Contents (Elt F) :=
  Host.rsqrt (maximumf (Host.scatterAdd scatter_S50000_S650000x1_S650000_n_0_0_1 (broadcastInDim S50000 ![] bcast_S_S50000 (constant S_ .f32 0x00000000#32)) (column dst) (broadcastInDim S650000 ![] bcast_S_S650000 (constant S_ .f32 0x3F800000#32))) (broadcastInDim S50000 ![] bcast_S_S50000 (constant S_ .f32 0x3F800000#32)))

/-- The edge weights. -/
def normOf (src dst : (⟨S650000, .i32⟩ : BufTy).Contents (Elt F)) : (⟨S650000, .f32⟩ : BufTy).Contents (Elt F) :=
  mulf (Host.gather gather_S50000_S650000x1_S650000_n_0_n_n_0_1_1 (invSqrtDeg dst) (wrapped src)) (Host.gather gather_S50000_S650000x1_S650000_n_0_n_n_0_1_1 (invSqrtDeg dst) (wrapped dst))

/-- One graph-convolution layer after its dense product, at width 128: gather the rows of hw at the source nodes, scale row e by
    norm e, add the rows into their destination nodes starting from zeros, add the bias to every row, clamp at zero. -/
def mix128 (hw : (⟨S50000x128, .f32⟩ : BufTy).Contents (Elt F)) (src dst : (⟨S650000, .i32⟩ : BufTy).Contents (Elt F)) (norm : (⟨S650000, .f32⟩ : BufTy).Contents (Elt F)) (b : (⟨S128, .f32⟩ : BufTy).Contents (Elt F)) :
    (⟨S50000x128, .f32⟩ : BufTy).Contents (Elt F) :=
  maximumf (addf (Host.scatterAdd scatter_S50000x128_S650000x1_S650000x128_1_0_0_1 (broadcastInDim S50000x128 ![] bcast_S_S50000x128 (constant S_ .f32 0x00000000#32)) (column dst) (mulf (Host.gather gather_S50000x128_S650000x1_S650000x128_1_0_n_n_0_1_1128 hw (wrapped src)) (broadcastInDim S650000x128 ![0, 1] bcast_S650000x1_S650000x128_0_1 (broadcastInDim S650000x1 ![0] bcast_S650000_S650000x1_0 norm)))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- One graph-convolution layer after its dense product, at width 64: gather the rows of hw at the source nodes, scale row e by
    norm e, add the rows into their destination nodes starting from zeros, add the bias to every row, clamp at zero. -/
def mix64 (hw : (⟨S50000x64, .f32⟩ : BufTy).Contents (Elt F)) (src dst : (⟨S650000, .i32⟩ : BufTy).Contents (Elt F)) (norm : (⟨S650000, .f32⟩ : BufTy).Contents (Elt F)) (b : (⟨S64, .f32⟩ : BufTy).Contents (Elt F)) :
    (⟨S50000x64, .f32⟩ : BufTy).Contents (Elt F) :=
  maximumf (addf (Host.scatterAdd scatter_S50000x64_S650000x1_S650000x64_1_0_0_1 (broadcastInDim S50000x64 ![] bcast_S_S50000x64 (constant S_ .f32 0x00000000#32)) (column dst) (mulf (Host.gather gather_S50000x64_S650000x1_S650000x64_1_0_n_n_0_1_164 hw (wrapped src)) (broadcastInDim S650000x64 ![0, 1] bcast_S650000x1_S650000x64_0_1 (broadcastInDim S650000x1 ![0] bcast_S650000_S650000x1_0 norm)))) (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- One graph-convolution layer after its dense product, at width 32: gather the rows of hw at the source nodes, scale row e by
    norm e, add the rows into their destination nodes starting from zeros, add the bias to every row, clamp at zero. -/
def mix32 (hw : (⟨S50000x32, .f32⟩ : BufTy).Contents (Elt F)) (src dst : (⟨S650000, .i32⟩ : BufTy).Contents (Elt F)) (norm : (⟨S650000, .f32⟩ : BufTy).Contents (Elt F)) (b : (⟨S32, .f32⟩ : BufTy).Contents (Elt F)) :
    (⟨S50000x32, .f32⟩ : BufTy).Contents (Elt F) :=
  maximumf (addf (Host.scatterAdd scatter_S50000x32_S650000x1_S650000x32_1_0_0_1 (broadcastInDim S50000x32 ![] bcast_S_S50000x32 (constant S_ .f32 0x00000000#32)) (column dst) (mulf (Host.gather gather_S50000x32_S650000x1_S650000x32_1_0_n_n_0_1_132 hw (wrapped src)) (broadcastInDim S650000x32 ![0, 1] bcast_S650000x1_S650000x32_0_1 (broadcastInDim S650000x1 ![0] bcast_S650000_S650000x1_0 norm)))) (broadcastInDim S50000x32 ![0, 1] bcast_S1x32_S50000x32_0_1 (broadcastInDim S1x32 ![1] bcast_S32_S1x32_1 b))) (broadcastInDim S50000x32 ![] bcast_S_S50000x32 (constant S_ .f32 0x00000000#32))

/-- 44 columns: 1200 rows appended below the 50000 (the appended rows' value is never read by what follows). -/
def padRows44 (x : (⟨S50000x44, .f32⟩ : BufTy).Contents (Elt F)) : (⟨S51200x44, .f32⟩ : BufTy).Contents (Elt F) :=
  pad S51200x44 ![0, 0] ![1200, 0] ![0, 0] x (sitofp .f32 (constantI S_ 32 0#32) : (⟨S_, .f32⟩ : BufTy).Contents (Elt F)) pads_S50000x44_S51200x44_012000_000 h_S_

/-- 128 columns: 1200 rows appended below the 50000 (the appended rows' value is never read by what follows). -/
def padRows128 (x : (⟨S50000x128, .f32⟩ : BufTy).Contents (Elt F)) : (⟨S51200x128, .f32⟩ : BufTy).Contents (Elt F) :=
  pad S51200x128 ![0, 0] ![1200, 0] ![0, 0] x (sitofp .f32 (constantI S_ 32 0#32) : (⟨S_, .f32⟩ : BufTy).Contents (Elt F)) pads_S50000x128_S51200x128_012000_000 h_S_

/-- 64 columns: 1200 rows appended below the 50000 (the appended rows' value is never read by what follows). -/
def padRows64 (x : (⟨S50000x64, .f32⟩ : BufTy).Contents (Elt F)) : (⟨S51200x64, .f32⟩ : BufTy).Contents (Elt F) :=
  pad S51200x64 ![0, 0] ![1200, 0] ![0, 0] x (sitofp .f32 (constantI S_ 32 0#32) : (⟨S_, .f32⟩ : BufTy).Contents (Elt F)) pads_S50000x64_S51200x64_012000_000 h_S_

/-- 32 columns: 1200 rows appended below the 50000 (the appended rows' value is never read by what follows). -/
def padRows32 (x : (⟨S50000x32, .f32⟩ : BufTy).Contents (Elt F)) : (⟨S51200x32, .f32⟩ : BufTy).Contents (Elt F) :=
  pad S51200x32 ![0, 0] ![1200, 0] ![0, 0] x (sitofp .f32 (constantI S_ 32 0#32) : (⟨S_, .f32⟩ : BufTy).Contents (Elt F)) pads_S50000x32_S51200x32_012000_000 h_S_
/-- A bias row of 128 zeros. -/
def zeroRow128 : (⟨S1x128, .f32⟩ : BufTy).Contents (Elt F) :=
  broadcastInDim S1x128 ![] bcast_S_S1x128 (constant S_ .f32 0x00000000#32)

/-- A bias row of 64 zeros. -/
def zeroRow64 : (⟨S1x64, .f32⟩ : BufTy).Contents (Elt F) :=
  broadcastInDim S1x64 ![] bcast_S_S1x64 (constant S_ .f32 0x00000000#32)

/-- A bias row of 32 zeros. -/
def zeroRow32 : (⟨S1x32, .f32⟩ : BufTy).Contents (Elt F) :=
  broadcastInDim S1x32 ![] bcast_S_S1x32 (constant S_ .f32 0x00000000#32)
/-- The first 50000 of 51200 rows, 128 columns. -/
def topRows128 (y : (⟨S51200x128, .f32⟩ : BufTy).Contents (Elt F)) : (⟨S50000x128, .f32⟩ : BufTy).Contents (Elt F) :=
  extractStridedSlice S50000x128 ![0, 0] y slices_S51200x128_S50000x128_0_0

/-- The first 50000 of 51200 rows, 64 columns. -/
def topRows64 (y : (⟨S51200x64, .f32⟩ : BufTy).Contents (Elt F)) : (⟨S50000x64, .f32⟩ : BufTy).Contents (Elt F) :=
  extractStridedSlice S50000x64 ![0, 0] y slices_S51200x64_S50000x64_0_0

/-- The first 50000 of 51200 rows, 32 columns. -/
def topRows32 (y : (⟨S51200x32, .f32⟩ : BufTy).Contents (Elt F)) : (⟨S50000x32, .f32⟩ : BufTy).Contents (Elt F) :=
  extractStridedSlice S50000x32 ![0, 0] y slices_S51200x32_S50000x32_0_0

/-- The first 50000 of 51200 rows, 1 column. -/
def topRows1 (y : (⟨S51200x1, .f32⟩ : BufTy).Contents (Elt F)) : (⟨S50000x1, .f32⟩ : BufTy).Contents (Elt F) :=
  extractStridedSlice S50000x1 ![0, 0] y slices_S51200x1_S50000x1_0_0

end Cert.KernelIdeal.HostFn

end
-- ==== Proof.KDefs.lean ====
/-
  The idealized kernel's result as one function of the argument arrays: the definitions.

  x is padded from 50000 to 51200 rows, multiplied by W₁ region by region with a bias row of zeros, cut back to 50000 rows
  and passed through the first graph-convolution layer; the same again with W₂ and with W₃; the third hidden array,
  padded, goes through the fused head with the two biases as rows, and the first 50000 rows are the result.
-/
import proofs.«145682_j63694365000469_2_alg».proof.Proof.Region0
import proofs.«145682_j63694365000469_2_alg».proof.Proof.Region1
import proofs.«145682_j63694365000469_2_alg».proof.Proof.Region2
import proofs.«145682_j63694365000469_2_alg».proof.Proof.Region3
import proofs.«145682_j63694365000469_2_alg».proof.Proof.HostFnK

set_option maxRecDepth 16384

noncomputable section

namespace Cert.KernelIdeal.Stages

open Cert.KernelIdeal Cert.KernelIdeal.Gen Cert.KernelIdeal.HostFn
open Idealize.ShloMosaic Idealize.ShloMosaic.TcCoe Idealize.SL.Sem

variable (m : (ℓ : Loc nD τ sig) → Buf (Elt Ideal) ℓ) (c : Dev nD)

/-- The source nodes, the destination nodes and the edge weights of the launch's edge list. -/
abbrev src : (⟨S650000, .i32⟩ : BufTy).Contents (Elt Ideal) := srcOf (m ((c : Thread nD τ).loc main_arg1))
abbrev dst : (⟨S650000, .i32⟩ : BufTy).Contents (Elt Ideal) := dstOf (m ((c : Thread nD τ).loc main_arg1))
abbrev norm : (⟨S650000, .f32⟩ : BufTy).Contents (Elt Ideal) := normOf (src m c) (dst m c)

/-- The hidden arrays after layers one, two and three. -/
def h1 : (⟨S50000x128, .f32⟩ : BufTy).Contents (Elt Ideal) :=
  mix128 (topRows128 (Region0.G (padRows44 (m ((c : Thread nD τ).loc main_arg0))) (m ((c : Thread nD τ).loc main_arg2)) zeroRow128)) (src m c) (dst m c) (norm m c) (m ((c : Thread nD τ).loc main_arg3))
def h2 : (⟨S50000x64, .f32⟩ : BufTy).Contents (Elt Ideal) :=
  mix64 (topRows64 (Region1.G (padRows128 (h1 m c)) (m ((c : Thread nD τ).loc main_arg4)) zeroRow64)) (src m c) (dst m c) (norm m c) (m ((c : Thread nD τ).loc main_arg5))
def h3 : (⟨S50000x32, .f32⟩ : BufTy).Contents (Elt Ideal) :=
  mix32 (topRows32 (Region2.G (padRows64 (h2 m c)) (m ((c : Thread nD τ).loc main_arg6)) zeroRow32)) (src m c) (dst m c) (norm m c) (m ((c : Thread nD τ).loc main_arg7))

/-- The result. -/
def result : (⟨S50000x1, .f32⟩ : BufTy).Contents (Elt Ideal) :=
  topRows1 (Region3.G (padRows32 (h3 m c)) (m ((c : Thread nD τ).loc main_arg8)) (shapeCast S1x16 (m ((c : Thread nD τ).loc main_arg9)) shapeCasts_S16_S1x16) (m ((c : Thread nD τ).loc main_arg10)) (shapeCast S1x1 (m ((c : Thread nD τ).loc main_arg11)) shapeCasts_S1_S1x1))

end Cert.KernelIdeal.Stages

end
-- ==== Proof.Keep.lean ====
/-
  Buffers no segment writes keep their contents across segment boundaries.

  The source nodes, the destination nodes and the edge weights are computed by the first host stretch and only read
  afterwards; an argument array is never written.  So at every later boundary each of them holds what it held at the
  first boundary (for an argument: at launch).  One lemma per buffer and boundary — a host stretch none of whose
  operations writes the buffer, or a region none of whose arrays it is — and their composites.
-/
import proofs.«145682_j63694365000469_2_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- No operation of the named stretch writes the buffer of the goal. -/
macro "unwritten" ops:ident : tactic => `(tactic| exact StableHlo.after_of_forall_not_mem _ _ (List.forall_iff_forall_mem.mp (by
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

theorem keep_main_call0_v3_2 : W2 m ρ c (Proc.devRef .tc main_call0_v3) = W1 m ρ c (Proc.devRef .tc main_call0_v3) := W2_of_ne m ρ c main_call0_v3 (by decide)
theorem keep_main_call0_v3_3 : W3 m ρ c (Proc.devRef .tc main_call0_v3) = W2 m ρ c (Proc.devRef .tc main_call0_v3) := by unwritten hostOps1
theorem keep_main_call0_v3_4 : W4 m ρ c (Proc.devRef .tc main_call0_v3) = W3 m ρ c (Proc.devRef .tc main_call0_v3) := W4_of_ne m ρ c main_call0_v3 (by decide)
theorem keep_main_call0_v3_5 : W5 m ρ c (Proc.devRef .tc main_call0_v3) = W4 m ρ c (Proc.devRef .tc main_call0_v3) := by unwritten hostOps2
theorem keep_main_call0_v3_6 : W6 m ρ c (Proc.devRef .tc main_call0_v3) = W5 m ρ c (Proc.devRef .tc main_call0_v3) := W6_of_ne m ρ c main_call0_v3 (by decide)
theorem back_main_call0_v3_2 : W2 m ρ c (Proc.devRef .tc main_call0_v3) = W1 m ρ c (Proc.devRef .tc main_call0_v3) := (keep_main_call0_v3_2 m ρ c)
theorem back_main_call0_v3_3 : W3 m ρ c (Proc.devRef .tc main_call0_v3) = W1 m ρ c (Proc.devRef .tc main_call0_v3) := ((keep_main_call0_v3_3 m ρ c).trans (keep_main_call0_v3_2 m ρ c))
theorem back_main_call0_v3_4 : W4 m ρ c (Proc.devRef .tc main_call0_v3) = W1 m ρ c (Proc.devRef .tc main_call0_v3) := (((keep_main_call0_v3_4 m ρ c).trans (keep_main_call0_v3_3 m ρ c)).trans (keep_main_call0_v3_2 m ρ c))
theorem back_main_call0_v3_5 : W5 m ρ c (Proc.devRef .tc main_call0_v3) = W1 m ρ c (Proc.devRef .tc main_call0_v3) := ((((keep_main_call0_v3_5 m ρ c).trans (keep_main_call0_v3_4 m ρ c)).trans (keep_main_call0_v3_3 m ρ c)).trans (keep_main_call0_v3_2 m ρ c))
theorem back_main_call0_v3_6 : W6 m ρ c (Proc.devRef .tc main_call0_v3) = W1 m ρ c (Proc.devRef .tc main_call0_v3) := (((((keep_main_call0_v3_6 m ρ c).trans (keep_main_call0_v3_5 m ρ c)).trans (keep_main_call0_v3_4 m ρ c)).trans (keep_main_call0_v3_3 m ρ c)).trans (keep_main_call0_v3_2 m ρ c))

theorem keep_main_call0_v6_2 : W2 m ρ c (Proc.devRef .tc main_call0_v6) = W1 m ρ c (Proc.devRef .tc main_call0_v6) := W2_of_ne m ρ c main_call0_v6 (by decide)
theorem keep_main_call0_v6_3 : W3 m ρ c (Proc.devRef .tc main_call0_v6) = W2 m ρ c (Proc.devRef .tc main_call0_v6) := by unwritten hostOps1
theorem keep_main_call0_v6_4 : W4 m ρ c (Proc.devRef .tc main_call0_v6) = W3 m ρ c (Proc.devRef .tc main_call0_v6) := W4_of_ne m ρ c main_call0_v6 (by decide)
theorem keep_main_call0_v6_5 : W5 m ρ c (Proc.devRef .tc main_call0_v6) = W4 m ρ c (Proc.devRef .tc main_call0_v6) := by unwritten hostOps2
theorem keep_main_call0_v6_6 : W6 m ρ c (Proc.devRef .tc main_call0_v6) = W5 m ρ c (Proc.devRef .tc main_call0_v6) := W6_of_ne m ρ c main_call0_v6 (by decide)
theorem back_main_call0_v6_2 : W2 m ρ c (Proc.devRef .tc main_call0_v6) = W1 m ρ c (Proc.devRef .tc main_call0_v6) := (keep_main_call0_v6_2 m ρ c)
theorem back_main_call0_v6_3 : W3 m ρ c (Proc.devRef .tc main_call0_v6) = W1 m ρ c (Proc.devRef .tc main_call0_v6) := ((keep_main_call0_v6_3 m ρ c).trans (keep_main_call0_v6_2 m ρ c))
theorem back_main_call0_v6_4 : W4 m ρ c (Proc.devRef .tc main_call0_v6) = W1 m ρ c (Proc.devRef .tc main_call0_v6) := (((keep_main_call0_v6_4 m ρ c).trans (keep_main_call0_v6_3 m ρ c)).trans (keep_main_call0_v6_2 m ρ c))
theorem back_main_call0_v6_5 : W5 m ρ c (Proc.devRef .tc main_call0_v6) = W1 m ρ c (Proc.devRef .tc main_call0_v6) := ((((keep_main_call0_v6_5 m ρ c).trans (keep_main_call0_v6_4 m ρ c)).trans (keep_main_call0_v6_3 m ρ c)).trans (keep_main_call0_v6_2 m ρ c))
theorem back_main_call0_v6_6 : W6 m ρ c (Proc.devRef .tc main_call0_v6) = W1 m ρ c (Proc.devRef .tc main_call0_v6) := (((((keep_main_call0_v6_6 m ρ c).trans (keep_main_call0_v6_5 m ρ c)).trans (keep_main_call0_v6_4 m ρ c)).trans (keep_main_call0_v6_3 m ρ c)).trans (keep_main_call0_v6_2 m ρ c))

theorem keep_main_call0_v28_2 : W2 m ρ c (Proc.devRef .tc main_call0_v28) = W1 m ρ c (Proc.devRef .tc main_call0_v28) := W2_of_ne m ρ c main_call0_v28 (by decide)
theorem keep_main_call0_v28_3 : W3 m ρ c (Proc.devRef .tc main_call0_v28) = W2 m ρ c (Proc.devRef .tc main_call0_v28) := by unwritten hostOps1
theorem keep_main_call0_v28_4 : W4 m ρ c (Proc.devRef .tc main_call0_v28) = W3 m ρ c (Proc.devRef .tc main_call0_v28) := W4_of_ne m ρ c main_call0_v28 (by decide)
theorem keep_main_call0_v28_5 : W5 m ρ c (Proc.devRef .tc main_call0_v28) = W4 m ρ c (Proc.devRef .tc main_call0_v28) := by unwritten hostOps2
theorem keep_main_call0_v28_6 : W6 m ρ c (Proc.devRef .tc main_call0_v28) = W5 m ρ c (Proc.devRef .tc main_call0_v28) := W6_of_ne m ρ c main_call0_v28 (by decide)
theorem back_main_call0_v28_2 : W2 m ρ c (Proc.devRef .tc main_call0_v28) = W1 m ρ c (Proc.devRef .tc main_call0_v28) := (keep_main_call0_v28_2 m ρ c)
theorem back_main_call0_v28_3 : W3 m ρ c (Proc.devRef .tc main_call0_v28) = W1 m ρ c (Proc.devRef .tc main_call0_v28) := ((keep_main_call0_v28_3 m ρ c).trans (keep_main_call0_v28_2 m ρ c))
theorem back_main_call0_v28_4 : W4 m ρ c (Proc.devRef .tc main_call0_v28) = W1 m ρ c (Proc.devRef .tc main_call0_v28) := (((keep_main_call0_v28_4 m ρ c).trans (keep_main_call0_v28_3 m ρ c)).trans (keep_main_call0_v28_2 m ρ c))
theorem back_main_call0_v28_5 : W5 m ρ c (Proc.devRef .tc main_call0_v28) = W1 m ρ c (Proc.devRef .tc main_call0_v28) := ((((keep_main_call0_v28_5 m ρ c).trans (keep_main_call0_v28_4 m ρ c)).trans (keep_main_call0_v28_3 m ρ c)).trans (keep_main_call0_v28_2 m ρ c))
theorem back_main_call0_v28_6 : W6 m ρ c (Proc.devRef .tc main_call0_v28) = W1 m ρ c (Proc.devRef .tc main_call0_v28) := (((((keep_main_call0_v28_6 m ρ c).trans (keep_main_call0_v28_5 m ρ c)).trans (keep_main_call0_v28_4 m ρ c)).trans (keep_main_call0_v28_3 m ρ c)).trans (keep_main_call0_v28_2 m ρ c))

theorem keep_main_arg2_1 : W1 m ρ c (Proc.devRef .tc main_arg2) = W0 m ρ c (Proc.devRef .tc main_arg2) := by unwritten hostOps0
theorem back_main_arg2_1 : W1 m ρ c (Proc.devRef .tc main_arg2) = W0 m ρ c (Proc.devRef .tc main_arg2) := (keep_main_arg2_1 m ρ c)

theorem keep_main_arg3_1 : W1 m ρ c (Proc.devRef .tc main_arg3) = W0 m ρ c (Proc.devRef .tc main_arg3) := by unwritten hostOps0
theorem keep_main_arg3_2 : W2 m ρ c (Proc.devRef .tc main_arg3) = W1 m ρ c (Proc.devRef .tc main_arg3) := W2_of_ne m ρ c main_arg3 (by decide)
theorem back_main_arg3_1 : W1 m ρ c (Proc.devRef .tc main_arg3) = W0 m ρ c (Proc.devRef .tc main_arg3) := (keep_main_arg3_1 m ρ c)
theorem back_main_arg3_2 : W2 m ρ c (Proc.devRef .tc main_arg3) = W0 m ρ c (Proc.devRef .tc main_arg3) := ((keep_main_arg3_2 m ρ c).trans (keep_main_arg3_1 m ρ c))

theorem keep_main_arg4_1 : W1 m ρ c (Proc.devRef .tc main_arg4) = W0 m ρ c (Proc.devRef .tc main_arg4) := by unwritten hostOps0
theorem keep_main_arg4_2 : W2 m ρ c (Proc.devRef .tc main_arg4) = W1 m ρ c (Proc.devRef .tc main_arg4) := W2_of_ne m ρ c main_arg4 (by decide)
theorem keep_main_arg4_3 : W3 m ρ c (Proc.devRef .tc main_arg4) = W2 m ρ c (Proc.devRef .tc main_arg4) := by unwritten hostOps1
theorem back_main_arg4_1 : W1 m ρ c (Proc.devRef .tc main_arg4) = W0 m ρ c (Proc.devRef .tc main_arg4) := (keep_main_arg4_1 m ρ c)
theorem back_main_arg4_2 : W2 m ρ c (Proc.devRef .tc main_arg4) = W0 m ρ c (Proc.devRef .tc main_arg4) := ((keep_main_arg4_2 m ρ c).trans (keep_main_arg4_1 m ρ c))
theorem back_main_arg4_3 : W3 m ρ c (Proc.devRef .tc main_arg4) = W0 m ρ c (Proc.devRef .tc main_arg4) := (((keep_main_arg4_3 m ρ c).trans (keep_main_arg4_2 m ρ c)).trans (keep_main_arg4_1 m ρ c))

theorem keep_main_arg5_1 : W1 m ρ c (Proc.devRef .tc main_arg5) = W0 m ρ c (Proc.devRef .tc main_arg5) := by unwritten hostOps0
theorem keep_main_arg5_2 : W2 m ρ c (Proc.devRef .tc main_arg5) = W1 m ρ c (Proc.devRef .tc main_arg5) := W2_of_ne m ρ c main_arg5 (by decide)
theorem keep_main_arg5_3 : W3 m ρ c (Proc.devRef .tc main_arg5) = W2 m ρ c (Proc.devRef .tc main_arg5) := by unwritten hostOps1
theorem keep_main_arg5_4 : W4 m ρ c (Proc.devRef .tc main_arg5) = W3 m ρ c (Proc.devRef .tc main_arg5) := W4_of_ne m ρ c main_arg5 (by decide)
theorem back_main_arg5_1 : W1 m ρ c (Proc.devRef .tc main_arg5) = W0 m ρ c (Proc.devRef .tc main_arg5) := (keep_main_arg5_1 m ρ c)
theorem back_main_arg5_2 : W2 m ρ c (Proc.devRef .tc main_arg5) = W0 m ρ c (Proc.devRef .tc main_arg5) := ((keep_main_arg5_2 m ρ c).trans (keep_main_arg5_1 m ρ c))
theorem back_main_arg5_3 : W3 m ρ c (Proc.devRef .tc main_arg5) = W0 m ρ c (Proc.devRef .tc main_arg5) := (((keep_main_arg5_3 m ρ c).trans (keep_main_arg5_2 m ρ c)).trans (keep_main_arg5_1 m ρ c))
theorem back_main_arg5_4 : W4 m ρ c (Proc.devRef .tc main_arg5) = W0 m ρ c (Proc.devRef .tc main_arg5) := ((((keep_main_arg5_4 m ρ c).trans (keep_main_arg5_3 m ρ c)).trans (keep_main_arg5_2 m ρ c)).trans (keep_main_arg5_1 m ρ c))

theorem keep_main_arg6_1 : W1 m ρ c (Proc.devRef .tc main_arg6) = W0 m ρ c (Proc.devRef .tc main_arg6) := by unwritten hostOps0
theorem keep_main_arg6_2 : W2 m ρ c (Proc.devRef .tc main_arg6) = W1 m ρ c (Proc.devRef .tc main_arg6) := W2_of_ne m ρ c main_arg6 (by decide)
theorem keep_main_arg6_3 : W3 m ρ c (Proc.devRef .tc main_arg6) = W2 m ρ c (Proc.devRef .tc main_arg6) := by unwritten hostOps1
theorem keep_main_arg6_4 : W4 m ρ c (Proc.devRef .tc main_arg6) = W3 m ρ c (Proc.devRef .tc main_arg6) := W4_of_ne m ρ c main_arg6 (by decide)
theorem keep_main_arg6_5 : W5 m ρ c (Proc.devRef .tc main_arg6) = W4 m ρ c (Proc.devRef .tc main_arg6) := by unwritten hostOps2
theorem back_main_arg6_1 : W1 m ρ c (Proc.devRef .tc main_arg6) = W0 m ρ c (Proc.devRef .tc main_arg6) := (keep_main_arg6_1 m ρ c)
theorem back_main_arg6_2 : W2 m ρ c (Proc.devRef .tc main_arg6) = W0 m ρ c (Proc.devRef .tc main_arg6) := ((keep_main_arg6_2 m ρ c).trans (keep_main_arg6_1 m ρ c))
theorem back_main_arg6_3 : W3 m ρ c (Proc.devRef .tc main_arg6) = W0 m ρ c (Proc.devRef .tc main_arg6) := (((keep_main_arg6_3 m ρ c).trans (keep_main_arg6_2 m ρ c)).trans (keep_main_arg6_1 m ρ c))
theorem back_main_arg6_4 : W4 m ρ c (Proc.devRef .tc main_arg6) = W0 m ρ c (Proc.devRef .tc main_arg6) := ((((keep_main_arg6_4 m ρ c).trans (keep_main_arg6_3 m ρ c)).trans (keep_main_arg6_2 m ρ c)).trans (keep_main_arg6_1 m ρ c))
theorem back_main_arg6_5 : W5 m ρ c (Proc.devRef .tc main_arg6) = W0 m ρ c (Proc.devRef .tc main_arg6) := (((((keep_main_arg6_5 m ρ c).trans (keep_main_arg6_4 m ρ c)).trans (keep_main_arg6_3 m ρ c)).trans (keep_main_arg6_2 m ρ c)).trans (keep_main_arg6_1 m ρ c))

theorem keep_main_arg7_1 : W1 m ρ c (Proc.devRef .tc main_arg7) = W0 m ρ c (Proc.devRef .tc main_arg7) := by unwritten hostOps0
theorem keep_main_arg7_2 : W2 m ρ c (Proc.devRef .tc main_arg7) = W1 m ρ c (Proc.devRef .tc main_arg7) := W2_of_ne m ρ c main_arg7 (by decide)
theorem keep_main_arg7_3 : W3 m ρ c (Proc.devRef .tc main_arg7) = W2 m ρ c (Proc.devRef .tc main_arg7) := by unwritten hostOps1
theorem keep_main_arg7_4 : W4 m ρ c (Proc.devRef .tc main_arg7) = W3 m ρ c (Proc.devRef .tc main_arg7) := W4_of_ne m ρ c main_arg7 (by decide)
theorem keep_main_arg7_5 : W5 m ρ c (Proc.devRef .tc main_arg7) = W4 m ρ c (Proc.devRef .tc main_arg7) := by unwritten hostOps2
theorem keep_main_arg7_6 : W6 m ρ c (Proc.devRef .tc main_arg7) = W5 m ρ c (Proc.devRef .tc main_arg7) := W6_of_ne m ρ c main_arg7 (by decide)
theorem back_main_arg7_1 : W1 m ρ c (Proc.devRef .tc main_arg7) = W0 m ρ c (Proc.devRef .tc main_arg7) := (keep_main_arg7_1 m ρ c)
theorem back_main_arg7_2 : W2 m ρ c (Proc.devRef .tc main_arg7) = W0 m ρ c (Proc.devRef .tc main_arg7) := ((keep_main_arg7_2 m ρ c).trans (keep_main_arg7_1 m ρ c))
theorem back_main_arg7_3 : W3 m ρ c (Proc.devRef .tc main_arg7) = W0 m ρ c (Proc.devRef .tc main_arg7) := (((keep_main_arg7_3 m ρ c).trans (keep_main_arg7_2 m ρ c)).trans (keep_main_arg7_1 m ρ c))
theorem back_main_arg7_4 : W4 m ρ c (Proc.devRef .tc main_arg7) = W0 m ρ c (Proc.devRef .tc main_arg7) := ((((keep_main_arg7_4 m ρ c).trans (keep_main_arg7_3 m ρ c)).trans (keep_main_arg7_2 m ρ c)).trans (keep_main_arg7_1 m ρ c))
theorem back_main_arg7_5 : W5 m ρ c (Proc.devRef .tc main_arg7) = W0 m ρ c (Proc.devRef .tc main_arg7) := (((((keep_main_arg7_5 m ρ c).trans (keep_main_arg7_4 m ρ c)).trans (keep_main_arg7_3 m ρ c)).trans (keep_main_arg7_2 m ρ c)).trans (keep_main_arg7_1 m ρ c))
theorem back_main_arg7_6 : W6 m ρ c (Proc.devRef .tc main_arg7) = W0 m ρ c (Proc.devRef .tc main_arg7) := ((((((keep_main_arg7_6 m ρ c).trans (keep_main_arg7_5 m ρ c)).trans (keep_main_arg7_4 m ρ c)).trans (keep_main_arg7_3 m ρ c)).trans (keep_main_arg7_2 m ρ c)).trans (keep_main_arg7_1 m ρ c))

theorem keep_main_arg9_1 : W1 m ρ c (Proc.devRef .tc main_arg9) = W0 m ρ c (Proc.devRef .tc main_arg9) := by unwritten hostOps0
theorem keep_main_arg9_2 : W2 m ρ c (Proc.devRef .tc main_arg9) = W1 m ρ c (Proc.devRef .tc main_arg9) := W2_of_ne m ρ c main_arg9 (by decide)
theorem keep_main_arg9_3 : W3 m ρ c (Proc.devRef .tc main_arg9) = W2 m ρ c (Proc.devRef .tc main_arg9) := by unwritten hostOps1
theorem keep_main_arg9_4 : W4 m ρ c (Proc.devRef .tc main_arg9) = W3 m ρ c (Proc.devRef .tc main_arg9) := W4_of_ne m ρ c main_arg9 (by decide)
theorem keep_main_arg9_5 : W5 m ρ c (Proc.devRef .tc main_arg9) = W4 m ρ c (Proc.devRef .tc main_arg9) := by unwritten hostOps2
theorem keep_main_arg9_6 : W6 m ρ c (Proc.devRef .tc main_arg9) = W5 m ρ c (Proc.devRef .tc main_arg9) := W6_of_ne m ρ c main_arg9 (by decide)
theorem back_main_arg9_1 : W1 m ρ c (Proc.devRef .tc main_arg9) = W0 m ρ c (Proc.devRef .tc main_arg9) := (keep_main_arg9_1 m ρ c)
theorem back_main_arg9_2 : W2 m ρ c (Proc.devRef .tc main_arg9) = W0 m ρ c (Proc.devRef .tc main_arg9) := ((keep_main_arg9_2 m ρ c).trans (keep_main_arg9_1 m ρ c))
theorem back_main_arg9_3 : W3 m ρ c (Proc.devRef .tc main_arg9) = W0 m ρ c (Proc.devRef .tc main_arg9) := (((keep_main_arg9_3 m ρ c).trans (keep_main_arg9_2 m ρ c)).trans (keep_main_arg9_1 m ρ c))
theorem back_main_arg9_4 : W4 m ρ c (Proc.devRef .tc main_arg9) = W0 m ρ c (Proc.devRef .tc main_arg9) := ((((keep_main_arg9_4 m ρ c).trans (keep_main_arg9_3 m ρ c)).trans (keep_main_arg9_2 m ρ c)).trans (keep_main_arg9_1 m ρ c))
theorem back_main_arg9_5 : W5 m ρ c (Proc.devRef .tc main_arg9) = W0 m ρ c (Proc.devRef .tc main_arg9) := (((((keep_main_arg9_5 m ρ c).trans (keep_main_arg9_4 m ρ c)).trans (keep_main_arg9_3 m ρ c)).trans (keep_main_arg9_2 m ρ c)).trans (keep_main_arg9_1 m ρ c))
theorem back_main_arg9_6 : W6 m ρ c (Proc.devRef .tc main_arg9) = W0 m ρ c (Proc.devRef .tc main_arg9) := ((((((keep_main_arg9_6 m ρ c).trans (keep_main_arg9_5 m ρ c)).trans (keep_main_arg9_4 m ρ c)).trans (keep_main_arg9_3 m ρ c)).trans (keep_main_arg9_2 m ρ c)).trans (keep_main_arg9_1 m ρ c))

theorem keep_main_arg11_1 : W1 m ρ c (Proc.devRef .tc main_arg11) = W0 m ρ c (Proc.devRef .tc main_arg11) := by unwritten hostOps0
theorem keep_main_arg11_2 : W2 m ρ c (Proc.devRef .tc main_arg11) = W1 m ρ c (Proc.devRef .tc main_arg11) := W2_of_ne m ρ c main_arg11 (by decide)
theorem keep_main_arg11_3 : W3 m ρ c (Proc.devRef .tc main_arg11) = W2 m ρ c (Proc.devRef .tc main_arg11) := by unwritten hostOps1
theorem keep_main_arg11_4 : W4 m ρ c (Proc.devRef .tc main_arg11) = W3 m ρ c (Proc.devRef .tc main_arg11) := W4_of_ne m ρ c main_arg11 (by decide)
theorem keep_main_arg11_5 : W5 m ρ c (Proc.devRef .tc main_arg11) = W4 m ρ c (Proc.devRef .tc main_arg11) := by unwritten hostOps2
theorem keep_main_arg11_6 : W6 m ρ c (Proc.devRef .tc main_arg11) = W5 m ρ c (Proc.devRef .tc main_arg11) := W6_of_ne m ρ c main_arg11 (by decide)
theorem back_main_arg11_1 : W1 m ρ c (Proc.devRef .tc main_arg11) = W0 m ρ c (Proc.devRef .tc main_arg11) := (keep_main_arg11_1 m ρ c)
theorem back_main_arg11_2 : W2 m ρ c (Proc.devRef .tc main_arg11) = W0 m ρ c (Proc.devRef .tc main_arg11) := ((keep_main_arg11_2 m ρ c).trans (keep_main_arg11_1 m ρ c))
theorem back_main_arg11_3 : W3 m ρ c (Proc.devRef .tc main_arg11) = W0 m ρ c (Proc.devRef .tc main_arg11) := (((keep_main_arg11_3 m ρ c).trans (keep_main_arg11_2 m ρ c)).trans (keep_main_arg11_1 m ρ c))
theorem back_main_arg11_4 : W4 m ρ c (Proc.devRef .tc main_arg11) = W0 m ρ c (Proc.devRef .tc main_arg11) := ((((keep_main_arg11_4 m ρ c).trans (keep_main_arg11_3 m ρ c)).trans (keep_main_arg11_2 m ρ c)).trans (keep_main_arg11_1 m ρ c))
theorem back_main_arg11_5 : W5 m ρ c (Proc.devRef .tc main_arg11) = W0 m ρ c (Proc.devRef .tc main_arg11) := (((((keep_main_arg11_5 m ρ c).trans (keep_main_arg11_4 m ρ c)).trans (keep_main_arg11_3 m ρ c)).trans (keep_main_arg11_2 m ρ c)).trans (keep_main_arg11_1 m ρ c))
theorem back_main_arg11_6 : W6 m ρ c (Proc.devRef .tc main_arg11) = W0 m ρ c (Proc.devRef .tc main_arg11) := ((((((keep_main_arg11_6 m ρ c).trans (keep_main_arg11_5 m ρ c)).trans (keep_main_arg11_4 m ρ c)).trans (keep_main_arg11_3 m ρ c)).trans (keep_main_arg11_2 m ρ c)).trans (keep_main_arg11_1 m ρ c))

theorem keep_main_arg8_1 : W1 m ρ c (Proc.devRef .tc main_arg8) = W0 m ρ c (Proc.devRef .tc main_arg8) := by unwritten hostOps0
theorem keep_main_arg8_2 : W2 m ρ c (Proc.devRef .tc main_arg8) = W1 m ρ c (Proc.devRef .tc main_arg8) := W2_of_ne m ρ c main_arg8 (by decide)
theorem keep_main_arg8_3 : W3 m ρ c (Proc.devRef .tc main_arg8) = W2 m ρ c (Proc.devRef .tc main_arg8) := by unwritten hostOps1
theorem keep_main_arg8_4 : W4 m ρ c (Proc.devRef .tc main_arg8) = W3 m ρ c (Proc.devRef .tc main_arg8) := W4_of_ne m ρ c main_arg8 (by decide)
theorem keep_main_arg8_5 : W5 m ρ c (Proc.devRef .tc main_arg8) = W4 m ρ c (Proc.devRef .tc main_arg8) := by unwritten hostOps2
theorem keep_main_arg8_6 : W6 m ρ c (Proc.devRef .tc main_arg8) = W5 m ρ c (Proc.devRef .tc main_arg8) := W6_of_ne m ρ c main_arg8 (by decide)
theorem keep_main_arg8_7 : W7 m ρ c (Proc.devRef .tc main_arg8) = W6 m ρ c (Proc.devRef .tc main_arg8) := by unwritten hostOps3
theorem back_main_arg8_1 : W1 m ρ c (Proc.devRef .tc main_arg8) = W0 m ρ c (Proc.devRef .tc main_arg8) := (keep_main_arg8_1 m ρ c)
theorem back_main_arg8_2 : W2 m ρ c (Proc.devRef .tc main_arg8) = W0 m ρ c (Proc.devRef .tc main_arg8) := ((keep_main_arg8_2 m ρ c).trans (keep_main_arg8_1 m ρ c))
theorem back_main_arg8_3 : W3 m ρ c (Proc.devRef .tc main_arg8) = W0 m ρ c (Proc.devRef .tc main_arg8) := (((keep_main_arg8_3 m ρ c).trans (keep_main_arg8_2 m ρ c)).trans (keep_main_arg8_1 m ρ c))
theorem back_main_arg8_4 : W4 m ρ c (Proc.devRef .tc main_arg8) = W0 m ρ c (Proc.devRef .tc main_arg8) := ((((keep_main_arg8_4 m ρ c).trans (keep_main_arg8_3 m ρ c)).trans (keep_main_arg8_2 m ρ c)).trans (keep_main_arg8_1 m ρ c))
theorem back_main_arg8_5 : W5 m ρ c (Proc.devRef .tc main_arg8) = W0 m ρ c (Proc.devRef .tc main_arg8) := (((((keep_main_arg8_5 m ρ c).trans (keep_main_arg8_4 m ρ c)).trans (keep_main_arg8_3 m ρ c)).trans (keep_main_arg8_2 m ρ c)).trans (keep_main_arg8_1 m ρ c))
theorem back_main_arg8_6 : W6 m ρ c (Proc.devRef .tc main_arg8) = W0 m ρ c (Proc.devRef .tc main_arg8) := ((((((keep_main_arg8_6 m ρ c).trans (keep_main_arg8_5 m ρ c)).trans (keep_main_arg8_4 m ρ c)).trans (keep_main_arg8_3 m ρ c)).trans (keep_main_arg8_2 m ρ c)).trans (keep_main_arg8_1 m ρ c))
theorem back_main_arg8_7 : W7 m ρ c (Proc.devRef .tc main_arg8) = W0 m ρ c (Proc.devRef .tc main_arg8) := (((((((keep_main_arg8_7 m ρ c).trans (keep_main_arg8_6 m ρ c)).trans (keep_main_arg8_5 m ρ c)).trans (keep_main_arg8_4 m ρ c)).trans (keep_main_arg8_3 m ρ c)).trans (keep_main_arg8_2 m ρ c)).trans (keep_main_arg8_1 m ρ c))

theorem keep_main_arg10_1 : W1 m ρ c (Proc.devRef .tc main_arg10) = W0 m ρ c (Proc.devRef .tc main_arg10) := by unwritten hostOps0
theorem keep_main_arg10_2 : W2 m ρ c (Proc.devRef .tc main_arg10) = W1 m ρ c (Proc.devRef .tc main_arg10) := W2_of_ne m ρ c main_arg10 (by decide)
theorem keep_main_arg10_3 : W3 m ρ c (Proc.devRef .tc main_arg10) = W2 m ρ c (Proc.devRef .tc main_arg10) := by unwritten hostOps1
theorem keep_main_arg10_4 : W4 m ρ c (Proc.devRef .tc main_arg10) = W3 m ρ c (Proc.devRef .tc main_arg10) := W4_of_ne m ρ c main_arg10 (by decide)
theorem keep_main_arg10_5 : W5 m ρ c (Proc.devRef .tc main_arg10) = W4 m ρ c (Proc.devRef .tc main_arg10) := by unwritten hostOps2
theorem keep_main_arg10_6 : W6 m ρ c (Proc.devRef .tc main_arg10) = W5 m ρ c (Proc.devRef .tc main_arg10) := W6_of_ne m ρ c main_arg10 (by decide)
theorem keep_main_arg10_7 : W7 m ρ c (Proc.devRef .tc main_arg10) = W6 m ρ c (Proc.devRef .tc main_arg10) := by unwritten hostOps3
theorem back_main_arg10_1 : W1 m ρ c (Proc.devRef .tc main_arg10) = W0 m ρ c (Proc.devRef .tc main_arg10) := (keep_main_arg10_1 m ρ c)
theorem back_main_arg10_2 : W2 m ρ c (Proc.devRef .tc main_arg10) = W0 m ρ c (Proc.devRef .tc main_arg10) := ((keep_main_arg10_2 m ρ c).trans (keep_main_arg10_1 m ρ c))
theorem back_main_arg10_3 : W3 m ρ c (Proc.devRef .tc main_arg10) = W0 m ρ c (Proc.devRef .tc main_arg10) := (((keep_main_arg10_3 m ρ c).trans (keep_main_arg10_2 m ρ c)).trans (keep_main_arg10_1 m ρ c))
theorem back_main_arg10_4 : W4 m ρ c (Proc.devRef .tc main_arg10) = W0 m ρ c (Proc.devRef .tc main_arg10) := ((((keep_main_arg10_4 m ρ c).trans (keep_main_arg10_3 m ρ c)).trans (keep_main_arg10_2 m ρ c)).trans (keep_main_arg10_1 m ρ c))
theorem back_main_arg10_5 : W5 m ρ c (Proc.devRef .tc main_arg10) = W0 m ρ c (Proc.devRef .tc main_arg10) := (((((keep_main_arg10_5 m ρ c).trans (keep_main_arg10_4 m ρ c)).trans (keep_main_arg10_3 m ρ c)).trans (keep_main_arg10_2 m ρ c)).trans (keep_main_arg10_1 m ρ c))
theorem back_main_arg10_6 : W6 m ρ c (Proc.devRef .tc main_arg10) = W0 m ρ c (Proc.devRef .tc main_arg10) := ((((((keep_main_arg10_6 m ρ c).trans (keep_main_arg10_5 m ρ c)).trans (keep_main_arg10_4 m ρ c)).trans (keep_main_arg10_3 m ρ c)).trans (keep_main_arg10_2 m ρ c)).trans (keep_main_arg10_1 m ρ c))
theorem back_main_arg10_7 : W7 m ρ c (Proc.devRef .tc main_arg10) = W0 m ρ c (Proc.devRef .tc main_arg10) := (((((((keep_main_arg10_7 m ρ c).trans (keep_main_arg10_6 m ρ c)).trans (keep_main_arg10_5 m ρ c)).trans (keep_main_arg10_4 m ρ c)).trans (keep_main_arg10_3 m ρ c)).trans (keep_main_arg10_2 m ρ c)).trans (keep_main_arg10_1 m ρ c))

end Cert.KernelIdeal.Keep

end
-- ==== Proof.PlainOps.lean ====
/-
  The five stretches of host operations, restated.

  The printed program applies each host operation through typed references: an operand is read from its buffer at the
  value's type and the result written back at the buffer's type, both transports along an equation that holds by
  computation.  Here each operation is written with its function at the buffers' own types, with no transport; the two
  lists are equal operation by operation.  Folding the second list from given contents yields the operations' plain
  composition.
-/
import proofs.«145682_j63694365000469_2_alg».proof.Proof.Gen.KernelIdeal.Launch
import Idealize.ShloMosaic.Lib.StableHlo.Run

set_option maxRecDepth 16384

noncomputable section

namespace Cert.KernelIdeal.PlainOps

open Cert.KernelIdeal Cert.KernelIdeal.Gen Idealize.ShloMosaic Idealize.ShloMosaic.TcCoe Idealize.SL.Sem

variable {F : FTy → Type} [FloatOps F]

/-- Host stretch 0, its operations with each function written at the buffers' own types. -/
def ops0 : List (HloOp τ sig (Elt F)) :=
  [ StableHlo.nullary main_call0_v0 (((iotaInDim S50000 32 0)) : (⟨S50000, .i32⟩ : BufTy).Contents (Elt F)),
    StableHlo.unary main_arg1 main_call0_v1 (((extractStridedSlice S1x600000 ![0, 0] · slices_S2x600000_S1x600000_0_0)) : (⟨S2x600000, .i32⟩ : BufTy).Contents (Elt F) → (⟨S1x600000, .i32⟩ : BufTy).Contents (Elt F)),
    StableHlo.reshape main_call0_v1 main_call0_v2 rfl shapeCasts_S1x600000_S600000,
    StableHlo.binary main_call0_v2 main_call0_v0 main_call0_v3 (((fun a b => concatenate S650000 0 [⟨S600000, a⟩, ⟨S50000, b⟩] concatenates_S600000_S50000_S650000_d0)) : (⟨S600000, .i32⟩ : BufTy).Contents (Elt F) → (⟨S50000, .i32⟩ : BufTy).Contents (Elt F) → (⟨S650000, .i32⟩ : BufTy).Contents (Elt F)),
    StableHlo.unary main_arg1 main_call0_v4 (((extractStridedSlice S1x600000 ![1, 0] · slices_S2x600000_S1x600000_1_0)) : (⟨S2x600000, .i32⟩ : BufTy).Contents (Elt F) → (⟨S1x600000, .i32⟩ : BufTy).Contents (Elt F)),
    StableHlo.reshape main_call0_v4 main_call0_v5 rfl shapeCasts_S1x600000_S600000,
    StableHlo.binary main_call0_v5 main_call0_v0 main_call0_v6 (((fun a b => concatenate S650000 0 [⟨S600000, a⟩, ⟨S50000, b⟩] concatenates_S600000_S50000_S650000_d0)) : (⟨S600000, .i32⟩ : BufTy).Contents (Elt F) → (⟨S50000, .i32⟩ : BufTy).Contents (Elt F) → (⟨S650000, .i32⟩ : BufTy).Contents (Elt F)),
    StableHlo.nullary main_call0_cst (((constant S_ .f32 0x3F800000#32)) : (⟨S_, .f32⟩ : BufTy).Contents (Elt F)),
    StableHlo.unary main_call0_cst main_call0_v7 (((broadcastInDim S650000 ![] bcast_S_S650000)) : (⟨S_, .f32⟩ : BufTy).Contents (Elt F) → (⟨S650000, .f32⟩ : BufTy).Contents (Elt F)),
    StableHlo.nullary main_call0_cst_0 (((constant S_ .f32 0x00000000#32)) : (⟨S_, .f32⟩ : BufTy).Contents (Elt F)),
    StableHlo.unary main_call0_cst_0 main_call0_v8 (((broadcastInDim S50000 ![] bcast_S_S50000)) : (⟨S_, .f32⟩ : BufTy).Contents (Elt F) → (⟨S50000, .f32⟩ : BufTy).Contents (Elt F)),
    StableHlo.unary main_call0_v6 main_call0_v9 (((broadcastInDim S650000x1 ![0] bcast_S650000_S650000x1_0)) : (⟨S650000, .i32⟩ : BufTy).Contents (Elt F) → (⟨S650000x1, .i32⟩ : BufTy).Contents (Elt F)),
    StableHlo.ternary main_call0_v8 main_call0_v9 main_call0_v7 main_call0_v10 (((fun x i u => Host.scatterAdd scatter_S50000_S650000x1_S650000_n_0_0_1 x i u)) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_call0_cst_1 (((constant S_ .f32 0x3F800000#32)) : (⟨S_, .f32⟩ : BufTy).Contents (Elt F)),
    StableHlo.unary main_call0_cst_1 main_call0_v11 (((broadcastInDim S50000 ![] bcast_S_S50000)) : (⟨S_, .f32⟩ : BufTy).Contents (Elt F) → (⟨S50000, .f32⟩ : BufTy).Contents (Elt F)),
    StableHlo.binary main_call0_v10 main_call0_v11 main_call0_v12 ((maximumf) : (⟨S50000, .f32⟩ : BufTy).Contents (Elt F) → (⟨S50000, .f32⟩ : BufTy).Contents (Elt F) → (⟨S50000, .f32⟩ : BufTy).Contents (Elt F)),
    StableHlo.unary main_call0_v12 main_call0_v13 ((Host.rsqrt) : (⟨S50000, .f32⟩ : BufTy).Contents (Elt F) → (⟨S50000, .f32⟩ : BufTy).Contents (Elt F)),
    StableHlo.nullary main_call0_c (((constantI S_ 32 0#32)) : (⟨S_, .i32⟩ : BufTy).Contents (Elt F)),
    StableHlo.unary main_call0_c main_call0_v14 (((broadcastInDim S650000 ![] bcast_S_S650000)) : (⟨S_, .i32⟩ : BufTy).Contents (Elt F) → (⟨S650000, .i32⟩ : BufTy).Contents (Elt F)),
    StableHlo.binary main_call0_v3 main_call0_v14 main_call0_v15 (((cmpi .slt)) : (⟨S650000, .i32⟩ : BufTy).Contents (Elt F) → (⟨S650000, .i32⟩ : BufTy).Contents (Elt F) → (⟨S650000, .i1⟩ : BufTy).Contents (Elt F)),
    StableHlo.nullary main_call0_c_2 (((constantI S_ 32 50000#32)) : (⟨S_, .i32⟩ : BufTy).Contents (Elt F)),
    StableHlo.unary main_call0_c_2 main_call0_v16 (((broadcastInDim S650000 ![] bcast_S_S650000)) : (⟨S_, .i32⟩ : BufTy).Contents (Elt F) → (⟨S650000, .i32⟩ : BufTy).Contents (Elt F)),
    StableHlo.binary main_call0_v3 main_call0_v16 main_call0_v17 ((addi) : (⟨S650000, .i32⟩ : BufTy).Contents (Elt F) → (⟨S650000, .i32⟩ : BufTy).Contents (Elt F) → (⟨S650000, .i32⟩ : BufTy).Contents (Elt F)),
    StableHlo.ternary main_call0_v15 main_call0_v17 main_call0_v3 main_call0_v18 ((select) : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_call0_v18 main_call0_v19 (((broadcastInDim S650000x1 ![0] bcast_S650000_S650000x1_0)) : (⟨S650000, .i32⟩ : BufTy).Contents (Elt F) → (⟨S650000x1, .i32⟩ : BufTy).Contents (Elt F)),
    StableHlo.binary main_call0_v13 main_call0_v19 main_call0_v20 (((fun x i => Host.gather gather_S50000_S650000x1_S650000_n_0_n_n_0_1_1 x i)) : (⟨S50000, .f32⟩ : BufTy).Contents (Elt F) → (⟨S650000x1, .i32⟩ : BufTy).Contents (Elt F) → (⟨S650000, .f32⟩ : BufTy).Contents (Elt F)),
    StableHlo.nullary main_call0_c_3 (((constantI S_ 32 0#32)) : (⟨S_, .i32⟩ : BufTy).Contents (Elt F)),
    StableHlo.unary main_call0_c_3 main_call0_v21 (((broadcastInDim S650000 ![] bcast_S_S650000)) : (⟨S_, .i32⟩ : BufTy).Contents (Elt F) → (⟨S650000, .i32⟩ : BufTy).Contents (Elt F)),
    StableHlo.binary main_call0_v6 main_call0_v21 main_call0_v22 (((cmpi .slt)) : (⟨S650000, .i32⟩ : BufTy).Contents (Elt F) → (⟨S650000, .i32⟩ : BufTy).Contents (Elt F) → (⟨S650000, .i1⟩ : BufTy).Contents (Elt F)),
    StableHlo.nullary main_call0_c_4 (((constantI S_ 32 50000#32)) : (⟨S_, .i32⟩ : BufTy).Contents (Elt F)),
    StableHlo.unary main_call0_c_4 main_call0_v23 (((broadcastInDim S650000 ![] bcast_S_S650000)) : (⟨S_, .i32⟩ : BufTy).Contents (Elt F) → (⟨S650000, .i32⟩ : BufTy).Contents (Elt F)),
    StableHlo.binary main_call0_v6 main_call0_v23 main_call0_v24 ((addi) : (⟨S650000, .i32⟩ : BufTy).Contents (Elt F) → (⟨S650000, .i32⟩ : BufTy).Contents (Elt F) → (⟨S650000, .i32⟩ : BufTy).Contents (Elt F)),
    StableHlo.ternary main_call0_v22 main_call0_v24 main_call0_v6 main_call0_v25 ((select) : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_call0_v25 main_call0_v26 (((broadcastInDim S650000x1 ![0] bcast_S650000_S650000x1_0)) : (⟨S650000, .i32⟩ : BufTy).Contents (Elt F) → (⟨S650000x1, .i32⟩ : BufTy).Contents (Elt F)),
    StableHlo.binary main_call0_v13 main_call0_v26 main_call0_v27 (((fun x i => Host.gather gather_S50000_S650000x1_S650000_n_0_n_n_0_1_1 x i)) : (⟨S50000, .f32⟩ : BufTy).Contents (Elt F) → (⟨S650000x1, .i32⟩ : BufTy).Contents (Elt F) → (⟨S650000, .f32⟩ : BufTy).Contents (Elt F)),
    StableHlo.binary main_call0_v20 main_call0_v27 main_call0_v28 ((mulf) : (⟨S650000, .f32⟩ : BufTy).Contents (Elt F) → (⟨S650000, .f32⟩ : BufTy).Contents (Elt F) → (⟨S650000, .f32⟩ : BufTy).Contents (Elt F)),
    StableHlo.nullary main_call0_c_5 (((constantI S_ 32 0#32)) : (⟨S_, .i32⟩ : BufTy).Contents (Elt F)),
    StableHlo.unary main_call0_c_5 main_call0_call0_v0 (((sitofp .f32)) : (⟨S_, .i32⟩ : BufTy).Contents (Elt F) → (⟨S_, .f32⟩ : BufTy).Contents (Elt F)),
    StableHlo.binary main_arg0 main_call0_call0_v0 main_call0_v29 (((fun x v => pad S51200x44 ![0, 0] ![1200, 0] ![0, 0] x v pads_S50000x44_S51200x44_012000_000 h_S_)) : (⟨S50000x44, .f32⟩ : BufTy).Contents (Elt F) → (⟨S_, .f32⟩ : BufTy).Contents (Elt F) → (⟨S51200x44, .f32⟩ : BufTy).Contents (Elt F)),
    StableHlo.nullary main_call0_cst_6 (((constant S_ .f32 0x00000000#32)) : (⟨S_, .f32⟩ : BufTy).Contents (Elt F)),
    StableHlo.unary main_call0_cst_6 main_call0_v30 (((broadcastInDim S1x128 ![] bcast_S_S1x128)) : (⟨S_, .f32⟩ : BufTy).Contents (Elt F) → (⟨S1x128, .f32⟩ : BufTy).Contents (Elt F)) ]

theorem hostOps0_eq : (hostOps0 : List (HloOp τ sig (Elt F))) = ops0 := rfl

/-- Host stretch 1, its operations with each function written at the buffers' own types. -/
def ops1 : List (HloOp τ sig (Elt F)) :=
  [ StableHlo.unary main_call0_v31 main_call0_v32 (((extractStridedSlice S50000x128 ![0, 0] · slices_S51200x128_S50000x128_0_0)) : (⟨S51200x128, .f32⟩ : BufTy).Contents (Elt F) → (⟨S50000x128, .f32⟩ : BufTy).Contents (Elt F)),
    StableHlo.nullary main_call0_c_7 (((constantI S_ 32 0#32)) : (⟨S_, .i32⟩ : BufTy).Contents (Elt F)),
    StableHlo.unary main_call0_c_7 main_call0_v33 (((broadcastInDim S650000 ![] bcast_S_S650000)) : (⟨S_, .i32⟩ : BufTy).Contents (Elt F) → (⟨S650000, .i32⟩ : BufTy).Contents (Elt F)),
    StableHlo.binary main_call0_v3 main_call0_v33 main_call0_v34 (((cmpi .slt)) : (⟨S650000, .i32⟩ : BufTy).Contents (Elt F) → (⟨S650000, .i32⟩ : BufTy).Contents (Elt F) → (⟨S650000, .i1⟩ : BufTy).Contents (Elt F)),
    StableHlo.nullary main_call0_c_8 (((constantI S_ 32 50000#32)) : (⟨S_, .i32⟩ : BufTy).Contents (Elt F)),
    StableHlo.unary main_call0_c_8 main_call0_v35 (((broadcastInDim S650000 ![] bcast_S_S650000)) : (⟨S_, .i32⟩ : BufTy).Contents (Elt F) → (⟨S650000, .i32⟩ : BufTy).Contents (Elt F)),
    StableHlo.binary main_call0_v3 main_call0_v35 main_call0_v36 ((addi) : (⟨S650000, .i32⟩ : BufTy).Contents (Elt F) → (⟨S650000, .i32⟩ : BufTy).Contents (Elt F) → (⟨S650000, .i32⟩ : BufTy).Contents (Elt F)),
    StableHlo.ternary main_call0_v34 main_call0_v36 main_call0_v3 main_call0_v37 ((select) : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_call0_v37 main_call0_v38 (((broadcastInDim S650000x1 ![0] bcast_S650000_S650000x1_0)) : (⟨S650000, .i32⟩ : BufTy).Contents (Elt F) → (⟨S650000x1, .i32⟩ : BufTy).Contents (Elt F)),
    StableHlo.binary main_call0_v32 main_call0_v38 main_call0_v39 (((fun x i => Host.gather gather_S50000x128_S650000x1_S650000x128_1_0_n_n_0_1_1128 x i)) : (⟨S50000x128, .f32⟩ : BufTy).Contents (Elt F) → (⟨S650000x1, .i32⟩ : BufTy).Contents (Elt F) → (⟨S650000x128, .f32⟩ : BufTy).Contents (Elt F)),
    StableHlo.unary main_call0_v28 main_call0_v40 (((broadcastInDim S650000x1 ![0] bcast_S650000_S650000x1_0)) : (⟨S650000, .f32⟩ : BufTy).Contents (Elt F) → (⟨S650000x1, .f32⟩ : BufTy).Contents (Elt F)),
    StableHlo.unary main_call0_v40 main_call0_v41 (((broadcastInDim S650000x128 ![0, 1] bcast_S650000x1_S650000x128_0_1)) : (⟨S650000x1, .f32⟩ : BufTy).Contents (Elt F) → (⟨S650000x128, .f32⟩ : BufTy).Contents (Elt F)),
    StableHlo.binary main_call0_v39 main_call0_v41 main_call0_v42 ((mulf) : (⟨S650000x128, .f32⟩ : BufTy).Contents (Elt F) → (⟨S650000x128, .f32⟩ : BufTy).Contents (Elt F) → (⟨S650000x128, .f32⟩ : BufTy).Contents (Elt F)),
    StableHlo.nullary main_call0_cst_9 (((constant S_ .f32 0x00000000#32)) : (⟨S_, .f32⟩ : BufTy).Contents (Elt F)),
    StableHlo.unary main_call0_cst_9 main_call0_v43 (((broadcastInDim S50000x128 ![] bcast_S_S50000x128)) : (⟨S_, .f32⟩ : BufTy).Contents (Elt F) → (⟨S50000x128, .f32⟩ : BufTy).Contents (Elt F)),
    StableHlo.unary main_call0_v6 main_call0_v44 (((broadcastInDim S650000x1 ![0] bcast_S650000_S650000x1_0)) : (⟨S650000, .i32⟩ : BufTy).Contents (Elt F) → (⟨S650000x1, .i32⟩ : BufTy).Contents (Elt F)),
    StableHlo.ternary main_call0_v43 main_call0_v44 main_call0_v42 main_call0_v45 (((fun x i u => Host.scatterAdd scatter_S50000x128_S650000x1_S650000x128_1_0_0_1 x i u)) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_arg3 main_call0_v46 (((broadcastInDim S1x128 ![1] bcast_S128_S1x128_1)) : (⟨S128, .f32⟩ : BufTy).Contents (Elt F) → (⟨S1x128, .f32⟩ : BufTy).Contents (Elt F)),
    StableHlo.unary main_call0_v46 main_call0_v47 (((broadcastInDim S50000x128 ![0, 1] bcast_S1x128_S50000x128_0_1)) : (⟨S1x128, .f32⟩ : BufTy).Contents (Elt F) → (⟨S50000x128, .f32⟩ : BufTy).Contents (Elt F)),
    StableHlo.binary main_call0_v45 main_call0_v47 main_call0_v48 ((addf) : (⟨S50000x128, .f32⟩ : BufTy).Contents (Elt F) → (⟨S50000x128, .f32⟩ : BufTy).Contents (Elt F) → (⟨S50000x128, .f32⟩ : BufTy).Contents (Elt F)),
    StableHlo.nullary main_call0_call1_cst (((constant S_ .f32 0x00000000#32)) : (⟨S_, .f32⟩ : BufTy).Contents (Elt F)),
    StableHlo.unary main_call0_call1_cst main_call0_call1_v0 (((broadcastInDim S50000x128 ![] bcast_S_S50000x128)) : (⟨S_, .f32⟩ : BufTy).Contents (Elt F) → (⟨S50000x128, .f32⟩ : BufTy).Contents (Elt F)),
    StableHlo.binary main_call0_v48 main_call0_call1_v0 main_call0_v49 ((maximumf) : (⟨S50000x128, .f32⟩ : BufTy).Contents (Elt F) → (⟨S50000x128, .f32⟩ : BufTy).Contents (Elt F) → (⟨S50000x128, .f32⟩ : BufTy).Contents (Elt F)),
    StableHlo.nullary main_call0_c_10 (((constantI S_ 32 0#32)) : (⟨S_, .i32⟩ : BufTy).Contents (Elt F)),
    StableHlo.unary main_call0_c_10 main_call0_call2_v0 (((sitofp .f32)) : (⟨S_, .i32⟩ : BufTy).Contents (Elt F) → (⟨S_, .f32⟩ : BufTy).Contents (Elt F)),
    StableHlo.binary main_call0_v49 main_call0_call2_v0 main_call0_v50 (((fun x v => pad S51200x128 ![0, 0] ![1200, 0] ![0, 0] x v pads_S50000x128_S51200x128_012000_000 h_S_)) : (⟨S50000x128, .f32⟩ : BufTy).Contents (Elt F) → (⟨S_, .f32⟩ : BufTy).Contents (Elt F) → (⟨S51200x128, .f32⟩ : BufTy).Contents (Elt F)),
    StableHlo.nullary main_call0_cst_11 (((constant S_ .f32 0x00000000#32)) : (⟨S_, .f32⟩ : BufTy).Contents (Elt F)),
    StableHlo.unary main_call0_cst_11 main_call0_v51 (((broadcastInDim S1x64 ![] bcast_S_S1x64)) : (⟨S_, .f32⟩ : BufTy).Contents (Elt F) → (⟨S1x64, .f32⟩ : BufTy).Contents (Elt F)) ]

theorem hostOps1_eq : (hostOps1 : List (HloOp τ sig (Elt F))) = ops1 := rfl

/-- Host stretch 2, its operations with each function written at the buffers' own types. -/
def ops2 : List (HloOp τ sig (Elt F)) :=
  [ StableHlo.unary main_call0_v52 main_call0_v53 (((extractStridedSlice S50000x64 ![0, 0] · slices_S51200x64_S50000x64_0_0)) : (⟨S51200x64, .f32⟩ : BufTy).Contents (Elt F) → (⟨S50000x64, .f32⟩ : BufTy).Contents (Elt F)),
    StableHlo.nullary main_call0_c_12 (((constantI S_ 32 0#32)) : (⟨S_, .i32⟩ : BufTy).Contents (Elt F)),
    StableHlo.unary main_call0_c_12 main_call0_v54 (((broadcastInDim S650000 ![] bcast_S_S650000)) : (⟨S_, .i32⟩ : BufTy).Contents (Elt F) → (⟨S650000, .i32⟩ : BufTy).Contents (Elt F)),
    StableHlo.binary main_call0_v3 main_call0_v54 main_call0_v55 (((cmpi .slt)) : (⟨S650000, .i32⟩ : BufTy).Contents (Elt F) → (⟨S650000, .i32⟩ : BufTy).Contents (Elt F) → (⟨S650000, .i1⟩ : BufTy).Contents (Elt F)),
    StableHlo.nullary main_call0_c_13 (((constantI S_ 32 50000#32)) : (⟨S_, .i32⟩ : BufTy).Contents (Elt F)),
    StableHlo.unary main_call0_c_13 main_call0_v56 (((broadcastInDim S650000 ![] bcast_S_S650000)) : (⟨S_, .i32⟩ : BufTy).Contents (Elt F) → (⟨S650000, .i32⟩ : BufTy).Contents (Elt F)),
    StableHlo.binary main_call0_v3 main_call0_v56 main_call0_v57 ((addi) : (⟨S650000, .i32⟩ : BufTy).Contents (Elt F) → (⟨S650000, .i32⟩ : BufTy).Contents (Elt F) → (⟨S650000, .i32⟩ : BufTy).Contents (Elt F)),
    StableHlo.ternary main_call0_v55 main_call0_v57 main_call0_v3 main_call0_v58 ((select) : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_call0_v58 main_call0_v59 (((broadcastInDim S650000x1 ![0] bcast_S650000_S650000x1_0)) : (⟨S650000, .i32⟩ : BufTy).Contents (Elt F) → (⟨S650000x1, .i32⟩ : BufTy).Contents (Elt F)),
    StableHlo.binary main_call0_v53 main_call0_v59 main_call0_v60 (((fun x i => Host.gather gather_S50000x64_S650000x1_S650000x64_1_0_n_n_0_1_164 x i)) : (⟨S50000x64, .f32⟩ : BufTy).Contents (Elt F) → (⟨S650000x1, .i32⟩ : BufTy).Contents (Elt F) → (⟨S650000x64, .f32⟩ : BufTy).Contents (Elt F)),
    StableHlo.unary main_call0_v28 main_call0_v61 (((broadcastInDim S650000x1 ![0] bcast_S650000_S650000x1_0)) : (⟨S650000, .f32⟩ : BufTy).Contents (Elt F) → (⟨S650000x1, .f32⟩ : BufTy).Contents (Elt F)),
    StableHlo.unary main_call0_v61 main_call0_v62 (((broadcastInDim S650000x64 ![0, 1] bcast_S650000x1_S650000x64_0_1)) : (⟨S650000x1, .f32⟩ : BufTy).Contents (Elt F) → (⟨S650000x64, .f32⟩ : BufTy).Contents (Elt F)),
    StableHlo.binary main_call0_v60 main_call0_v62 main_call0_v63 ((mulf) : (⟨S650000x64, .f32⟩ : BufTy).Contents (Elt F) → (⟨S650000x64, .f32⟩ : BufTy).Contents (Elt F) → (⟨S650000x64, .f32⟩ : BufTy).Contents (Elt F)),
    StableHlo.nullary main_call0_cst_14 (((constant S_ .f32 0x00000000#32)) : (⟨S_, .f32⟩ : BufTy).Contents (Elt F)),
    StableHlo.unary main_call0_cst_14 main_call0_v64 (((broadcastInDim S50000x64 ![] bcast_S_S50000x64)) : (⟨S_, .f32⟩ : BufTy).Contents (Elt F) → (⟨S50000x64, .f32⟩ : BufTy).Contents (Elt F)),
    StableHlo.unary main_call0_v6 main_call0_v65 (((broadcastInDim S650000x1 ![0] bcast_S650000_S650000x1_0)) : (⟨S650000, .i32⟩ : BufTy).Contents (Elt F) → (⟨S650000x1, .i32⟩ : BufTy).Contents (Elt F)),
    StableHlo.ternary main_call0_v64 main_call0_v65 main_call0_v63 main_call0_v66 (((fun x i u => Host.scatterAdd scatter_S50000x64_S650000x1_S650000x64_1_0_0_1 x i u)) : (⟨S50000x64, .f32⟩ : BufTy).Contents (Elt F) → (⟨S650000x1, .i32⟩ : BufTy).Contents (Elt F) → (⟨S650000x64, .f32⟩ : BufTy).Contents (Elt F) → (⟨S50000x64, .f32⟩ : BufTy).Contents (Elt F)),
    StableHlo.unary main_arg5 main_call0_v67 (((broadcastInDim S1x64 ![1] bcast_S64_S1x64_1)) : (⟨S64, .f32⟩ : BufTy).Contents (Elt F) → (⟨S1x64, .f32⟩ : BufTy).Contents (Elt F)),
    StableHlo.unary main_call0_v67 main_call0_v68 (((broadcastInDim S50000x64 ![0, 1] bcast_S1x64_S50000x64_0_1)) : (⟨S1x64, .f32⟩ : BufTy).Contents (Elt F) → (⟨S50000x64, .f32⟩ : BufTy).Contents (Elt F)),
    StableHlo.binary main_call0_v66 main_call0_v68 main_call0_v69 ((addf) : (⟨S50000x64, .f32⟩ : BufTy).Contents (Elt F) → (⟨S50000x64, .f32⟩ : BufTy).Contents (Elt F) → (⟨S50000x64, .f32⟩ : BufTy).Contents (Elt F)),
    StableHlo.nullary main_call0_call3_cst (((constant S_ .f32 0x00000000#32)) : (⟨S_, .f32⟩ : BufTy).Contents (Elt F)),
    StableHlo.unary main_call0_call3_cst main_call0_call3_v0 (((broadcastInDim S50000x64 ![] bcast_S_S50000x64)) : (⟨S_, .f32⟩ : BufTy).Contents (Elt F) → (⟨S50000x64, .f32⟩ : BufTy).Contents (Elt F)),
    StableHlo.binary main_call0_v69 main_call0_call3_v0 main_call0_v70 ((maximumf) : (⟨S50000x64, .f32⟩ : BufTy).Contents (Elt F) → (⟨S50000x64, .f32⟩ : BufTy).Contents (Elt F) → (⟨S50000x64, .f32⟩ : BufTy).Contents (Elt F)),
    StableHlo.nullary main_call0_c_15 (((constantI S_ 32 0#32)) : (⟨S_, .i32⟩ : BufTy).Contents (Elt F)),
    StableHlo.unary main_call0_c_15 main_call0_call4_v0 (((sitofp .f32)) : (⟨S_, .i32⟩ : BufTy).Contents (Elt F) → (⟨S_, .f32⟩ : BufTy).Contents (Elt F)),
    StableHlo.binary main_call0_v70 main_call0_call4_v0 main_call0_v71 (((fun x v => pad S51200x64 ![0, 0] ![1200, 0] ![0, 0] x v pads_S50000x64_S51200x64_012000_000 h_S_)) : (⟨S50000x64, .f32⟩ : BufTy).Contents (Elt F) → (⟨S_, .f32⟩ : BufTy).Contents (Elt F) → (⟨S51200x64, .f32⟩ : BufTy).Contents (Elt F)),
    StableHlo.nullary main_call0_cst_16 (((constant S_ .f32 0x00000000#32)) : (⟨S_, .f32⟩ : BufTy).Contents (Elt F)),
    StableHlo.unary main_call0_cst_16 main_call0_v72 (((broadcastInDim S1x32 ![] bcast_S_S1x32)) : (⟨S_, .f32⟩ : BufTy).Contents (Elt F) → (⟨S1x32, .f32⟩ : BufTy).Contents (Elt F)) ]

theorem hostOps2_eq : (hostOps2 : List (HloOp τ sig (Elt F))) = ops2 := rfl

/-- Host stretch 3, its operations with each function written at the buffers' own types. -/
def ops3 : List (HloOp τ sig (Elt F)) :=
  [ StableHlo.unary main_call0_v73 main_call0_v74 (((extractStridedSlice S50000x32 ![0, 0] · slices_S51200x32_S50000x32_0_0)) : (⟨S51200x32, .f32⟩ : BufTy).Contents (Elt F) → (⟨S50000x32, .f32⟩ : BufTy).Contents (Elt F)),
    StableHlo.nullary main_call0_c_17 (((constantI S_ 32 0#32)) : (⟨S_, .i32⟩ : BufTy).Contents (Elt F)),
    StableHlo.unary main_call0_c_17 main_call0_v75 (((broadcastInDim S650000 ![] bcast_S_S650000)) : (⟨S_, .i32⟩ : BufTy).Contents (Elt F) → (⟨S650000, .i32⟩ : BufTy).Contents (Elt F)),
    StableHlo.binary main_call0_v3 main_call0_v75 main_call0_v76 (((cmpi .slt)) : (⟨S650000, .i32⟩ : BufTy).Contents (Elt F) → (⟨S650000, .i32⟩ : BufTy).Contents (Elt F) → (⟨S650000, .i1⟩ : BufTy).Contents (Elt F)),
    StableHlo.nullary main_call0_c_18 (((constantI S_ 32 50000#32)) : (⟨S_, .i32⟩ : BufTy).Contents (Elt F)),
    StableHlo.unary main_call0_c_18 main_call0_v77 (((broadcastInDim S650000 ![] bcast_S_S650000)) : (⟨S_, .i32⟩ : BufTy).Contents (Elt F) → (⟨S650000, .i32⟩ : BufTy).Contents (Elt F)),
    StableHlo.binary main_call0_v3 main_call0_v77 main_call0_v78 ((addi) : (⟨S650000, .i32⟩ : BufTy).Contents (Elt F) → (⟨S650000, .i32⟩ : BufTy).Contents (Elt F) → (⟨S650000, .i32⟩ : BufTy).Contents (Elt F)),
    StableHlo.ternary main_call0_v76 main_call0_v78 main_call0_v3 main_call0_v79 ((select) : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_call0_v79 main_call0_v80 (((broadcastInDim S650000x1 ![0] bcast_S650000_S650000x1_0)) : (⟨S650000, .i32⟩ : BufTy).Contents (Elt F) → (⟨S650000x1, .i32⟩ : BufTy).Contents (Elt F)),
    StableHlo.binary main_call0_v74 main_call0_v80 main_call0_v81 (((fun x i => Host.gather gather_S50000x32_S650000x1_S650000x32_1_0_n_n_0_1_132 x i)) : (⟨S50000x32, .f32⟩ : BufTy).Contents (Elt F) → (⟨S650000x1, .i32⟩ : BufTy).Contents (Elt F) → (⟨S650000x32, .f32⟩ : BufTy).Contents (Elt F)),
    StableHlo.unary main_call0_v28 main_call0_v82 (((broadcastInDim S650000x1 ![0] bcast_S650000_S650000x1_0)) : (⟨S650000, .f32⟩ : BufTy).Contents (Elt F) → (⟨S650000x1, .f32⟩ : BufTy).Contents (Elt F)),
    StableHlo.unary main_call0_v82 main_call0_v83 (((broadcastInDim S650000x32 ![0, 1] bcast_S650000x1_S650000x32_0_1)) : (⟨S650000x1, .f32⟩ : BufTy).Contents (Elt F) → (⟨S650000x32, .f32⟩ : BufTy).Contents (Elt F)),
    StableHlo.binary main_call0_v81 main_call0_v83 main_call0_v84 ((mulf) : (⟨S650000x32, .f32⟩ : BufTy).Contents (Elt F) → (⟨S650000x32, .f32⟩ : BufTy).Contents (Elt F) → (⟨S650000x32, .f32⟩ : BufTy).Contents (Elt F)),
    StableHlo.nullary main_call0_cst_19 (((constant S_ .f32 0x00000000#32)) : (⟨S_, .f32⟩ : BufTy).Contents (Elt F)),
    StableHlo.unary main_call0_cst_19 main_call0_v85 (((broadcastInDim S50000x32 ![] bcast_S_S50000x32)) : (⟨S_, .f32⟩ : BufTy).Contents (Elt F) → (⟨S50000x32, .f32⟩ : BufTy).Contents (Elt F)),
    StableHlo.unary main_call0_v6 main_call0_v86 (((broadcastInDim S650000x1 ![0] bcast_S650000_S650000x1_0)) : (⟨S650000, .i32⟩ : BufTy).Contents (Elt F) → (⟨S650000x1, .i32⟩ : BufTy).Contents (Elt F)),
    StableHlo.ternary main_call0_v85 main_call0_v86 main_call0_v84 main_call0_v87 (((fun x i u => Host.scatterAdd scatter_S50000x32_S650000x1_S650000x32_1_0_0_1 x i u)) : (⟨S50000x32, .f32⟩ : BufTy).Contents (Elt F) → (⟨S650000x1, .i32⟩ : BufTy).Contents (Elt F) → (⟨S650000x32, .f32⟩ : BufTy).Contents (Elt F) → (⟨S50000x32, .f32⟩ : BufTy).Contents (Elt F)),
    StableHlo.unary main_arg7 main_call0_v88 (((broadcastInDim S1x32 ![1] bcast_S32_S1x32_1)) : (⟨S32, .f32⟩ : BufTy).Contents (Elt F) → (⟨S1x32, .f32⟩ : BufTy).Contents (Elt F)),
    StableHlo.unary main_call0_v88 main_call0_v89 (((broadcastInDim S50000x32 ![0, 1] bcast_S1x32_S50000x32_0_1)) : (⟨S1x32, .f32⟩ : BufTy).Contents (Elt F) → (⟨S50000x32, .f32⟩ : BufTy).Contents (Elt F)),
    StableHlo.binary main_call0_v87 main_call0_v89 main_call0_v90 ((addf) : (⟨S50000x32, .f32⟩ : BufTy).Contents (Elt F) → (⟨S50000x32, .f32⟩ : BufTy).Contents (Elt F) → (⟨S50000x32, .f32⟩ : BufTy).Contents (Elt F)),
    StableHlo.nullary main_call0_call5_cst (((constant S_ .f32 0x00000000#32)) : (⟨S_, .f32⟩ : BufTy).Contents (Elt F)),
    StableHlo.unary main_call0_call5_cst main_call0_call5_v0 (((broadcastInDim S50000x32 ![] bcast_S_S50000x32)) : (⟨S_, .f32⟩ : BufTy).Contents (Elt F) → (⟨S50000x32, .f32⟩ : BufTy).Contents (Elt F)),
    StableHlo.binary main_call0_v90 main_call0_call5_v0 main_call0_v91 ((maximumf) : (⟨S50000x32, .f32⟩ : BufTy).Contents (Elt F) → (⟨S50000x32, .f32⟩ : BufTy).Contents (Elt F) → (⟨S50000x32, .f32⟩ : BufTy).Contents (Elt F)),
    StableHlo.nullary main_call0_c_20 (((constantI S_ 32 0#32)) : (⟨S_, .i32⟩ : BufTy).Contents (Elt F)),
    StableHlo.unary main_call0_c_20 main_call0_call6_v0 (((sitofp .f32)) : (⟨S_, .i32⟩ : BufTy).Contents (Elt F) → (⟨S_, .f32⟩ : BufTy).Contents (Elt F)),
    StableHlo.binary main_call0_v91 main_call0_call6_v0 main_call0_v92 (((fun x v => pad S51200x32 ![0, 0] ![1200, 0] ![0, 0] x v pads_S50000x32_S51200x32_012000_000 h_S_)) : (⟨S50000x32, .f32⟩ : BufTy).Contents (Elt F) → (⟨S_, .f32⟩ : BufTy).Contents (Elt F) → (⟨S51200x32, .f32⟩ : BufTy).Contents (Elt F)),
    StableHlo.reshape main_arg9 main_call0_v93 rfl shapeCasts_S16_S1x16,
    StableHlo.reshape main_arg11 main_call0_v94 rfl shapeCasts_S1_S1x1 ]

theorem hostOps3_eq : (hostOps3 : List (HloOp τ sig (Elt F))) = ops3 := rfl

/-- Host stretch 4, its operations with each function written at the buffers' own types. -/
def ops4 : List (HloOp τ sig (Elt F)) :=
  [ StableHlo.unary main_call0_v95 main_v0 (((extractStridedSlice S50000x1 ![0, 0] · slices_S51200x1_S50000x1_0_0)) : (⟨S51200x1, .f32⟩ : BufTy).Contents (Elt F) → (⟨S50000x1, .f32⟩ : BufTy).Contents (Elt F)) ]

theorem hostOps4_eq : (hostOps4 : List (HloOp τ sig (Elt F))) = ops4 := rfl

end Cert.KernelIdeal.PlainOps

end
-- ==== Proof.Stretch.lean ====
/-
  What each host stretch leaves in the buffers the regions read, from any contents.

  For any float values and any contents of the buffers before the stretch: the first stretch leaves the source nodes, the
  destination nodes, the edge weights, the padded input and a zero bias row; each of the next three takes the first 50000
  rows of the preceding region's output through one graph-convolution layer and pads the result (the last one also
  reshapes the head's two bias vectors into rows); the final operation keeps the first 50000 rows of the head's output.
-/
import proofs.«145682_j63694365000469_2_alg».proof.Proof.PlainOps
import proofs.«145682_j63694365000469_2_alg».proof.Proof.HostFnK

set_option maxRecDepth 16384

noncomputable section

namespace Cert.KernelIdeal.Stretch

open Cert.KernelIdeal Cert.KernelIdeal.Gen Cert.KernelIdeal.HostFn Cert.KernelIdeal.PlainOps
open Idealize.ShloMosaic Idealize.ShloMosaic.TcCoe Idealize.SL.Sem Idealize.ShloMosaic.StableHlo

variable {F : FTy → Type} [FloatOps F] (W : Valuation τ sig (Elt F))

/-! ## The first stretch -/

theorem src0 : StableHlo.after hostOps0 W (Proc.devRef .tc main_call0_v3) = srcOf (W (Proc.devRef .tc main_arg1)) := by
  rw [hostOps0_eq]; dsimp only [ops0]; after_results_simp; rfl

theorem dst0 : StableHlo.after hostOps0 W (Proc.devRef .tc main_call0_v6) = dstOf (W (Proc.devRef .tc main_arg1)) := by
  rw [hostOps0_eq]; dsimp only [ops0]; after_results_simp; rfl

theorem norm0 : StableHlo.after hostOps0 W (Proc.devRef .tc main_call0_v28) = normOf (srcOf (W (Proc.devRef .tc main_arg1))) (dstOf (W (Proc.devRef .tc main_arg1))) := by
  rw [hostOps0_eq]; dsimp only [ops0]; after_results_simp; rfl

theorem in0 : StableHlo.after hostOps0 W (Proc.devRef .tc main_call0_v29) = padRows44 (W (Proc.devRef .tc main_arg0)) := by
  rw [hostOps0_eq]; dsimp only [ops0]; after_results_simp; rfl

theorem zero0 : StableHlo.after hostOps0 W (Proc.devRef .tc main_call0_v30) = zeroRow128 := by
  rw [hostOps0_eq]; dsimp only [ops0]; after_results_simp; rfl

/-! ## The layers -/

theorem in1 : StableHlo.after hostOps1 W (Proc.devRef .tc main_call0_v50) = padRows128 (mix128 (topRows128 (W (Proc.devRef .tc main_call0_v31))) (W (Proc.devRef .tc main_call0_v3)) (W (Proc.devRef .tc main_call0_v6)) (W (Proc.devRef .tc main_call0_v28)) (W (Proc.devRef .tc main_arg3))) := by
  rw [hostOps1_eq]; dsimp only [ops1]; after_results_simp; rfl

theorem zero1 : StableHlo.after hostOps1 W (Proc.devRef .tc main_call0_v51) = zeroRow64 := by
  rw [hostOps1_eq]; dsimp only [ops1]; after_results_simp; rfl

theorem in2 : StableHlo.after hostOps2 W (Proc.devRef .tc main_call0_v71) = padRows64 (mix64 (topRows64 (W (Proc.devRef .tc main_call0_v52))) (W (Proc.devRef .tc main_call0_v3)) (W (Proc.devRef .tc main_call0_v6)) (W (Proc.devRef .tc main_call0_v28)) (W (Proc.devRef .tc main_arg5))) := by
  rw [hostOps2_eq]; dsimp only [ops2]; after_results_simp; rfl

theorem zero2 : StableHlo.after hostOps2 W (Proc.devRef .tc main_call0_v72) = zeroRow32 := by
  rw [hostOps2_eq]; dsimp only [ops2]; after_results_simp; rfl

theorem in3 : StableHlo.after hostOps3 W (Proc.devRef .tc main_call0_v92) = padRows32 (mix32 (topRows32 (W (Proc.devRef .tc main_call0_v73))) (W (Proc.devRef .tc main_call0_v3)) (W (Proc.devRef .tc main_call0_v6)) (W (Proc.devRef .tc main_call0_v28)) (W (Proc.devRef .tc main_arg7))) := by
  rw [hostOps3_eq]; dsimp only [ops3]; after_results_simp; rfl

theorem bias3a : StableHlo.after hostOps3 W (Proc.devRef .tc main_call0_v93) = shapeCast S1x16 (W (Proc.devRef .tc main_arg9)) shapeCasts_S16_S1x16 := by
  rw [hostOps3_eq]; dsimp only [ops3]; after_results_simp; rfl

theorem bias3b : StableHlo.after hostOps3 W (Proc.devRef .tc main_call0_v94) = shapeCast S1x1 (W (Proc.devRef .tc main_arg11)) shapeCasts_S1_S1x1 := by
  rw [hostOps3_eq]; dsimp only [ops3]; after_results_simp; rfl

/-! ## The last operation -/

theorem out4 : StableHlo.after hostOps4 W (Proc.devRef .tc main_v0) = topRows1 (W (Proc.devRef .tc main_call0_v95)) := by
  rw [hostOps4_eq]; dsimp only [ops4]; after_results_simp; rfl

end Cert.KernelIdeal.Stretch

end
-- ==== Proof.KValue.lean ====
/-
  The idealized kernel's result array holds the result function of the arguments.

  Boundary by boundary through the program: the first host stretch computes the source and destination nodes, the edge
  weights, the input padded to 51200 rows and a bias row of zeros; each of the first three regions leaves its output at
  the product-plus-bias function of what it found; each following host stretch takes the first 50000 rows of that output
  through one graph-convolution layer and pads the result again; the fourth region is the fused head, and the last host
  operation keeps the first 50000 rows.  Buffers a segment does not write are carried unchanged.
-/
import proofs.«145682_j63694365000469_2_alg».proof.Proof.Gen.KernelIdeal.Frame
import proofs.«145682_j63694365000469_2_alg».proof.Proof.Region0
import proofs.«145682_j63694365000469_2_alg».proof.Proof.Region1
import proofs.«145682_j63694365000469_2_alg».proof.Proof.Region2
import proofs.«145682_j63694365000469_2_alg».proof.Proof.Region3
import proofs.«145682_j63694365000469_2_alg».proof.Proof.HostFnK
import proofs.«145682_j63694365000469_2_alg».proof.Proof.KDefs
import proofs.«145682_j63694365000469_2_alg».proof.Proof.Keep
import proofs.«145682_j63694365000469_2_alg».proof.Proof.Stretch

set_option maxRecDepth 16384

noncomputable section

namespace Cert.KernelIdeal.Stages

open Cert.KernelIdeal Cert.KernelIdeal.Gen Cert.KernelIdeal.HostFn Cert.KernelIdeal.Keep
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument at launch. -/
theorem launch (b : Ref sig .tc) : W0 m ρ c (Proc.devRef .tc b) = m ((c : Thread nD τ).loc b) := rfl

/-! ## After the first host stretch -/

theorem src1 : W1 m ρ c (Proc.devRef .tc main_call0_v3) = src m c := Stretch.src0 (W0 m ρ c)
theorem dst1 : W1 m ρ c (Proc.devRef .tc main_call0_v6) = dst m c := Stretch.dst0 (W0 m ρ c)
theorem norm1 : W1 m ρ c (Proc.devRef .tc main_call0_v28) = norm m c := Stretch.norm0 (W0 m ρ c)
theorem in1 : W1 m ρ c (Proc.devRef .tc main_call0_v29) = padRows44 (m ((c : Thread nD τ).loc main_arg0)) := Stretch.in0 (W0 m ρ c)
theorem zero1 : W1 m ρ c (Proc.devRef .tc main_call0_v30) = zeroRow128 := Stretch.zero0 (W0 m ρ c)

/-! ## Region 0 and the second host stretch -/

theorem out2 : W2 m ρ c (Proc.devRef .tc main_call0_v31) = Region0.G (padRows44 (m ((c : Thread nD τ).loc main_arg0))) (m ((c : Thread nD τ).loc main_arg2)) zeroRow128 := by
  refine (W2_arr m ρ c 3).trans ?_
  refine (Region0.final (V1 m ρ) c).trans ?_
  show Region0.G (W1 m ρ c (Proc.devRef .tc main_call0_v29)) (W1 m ρ c (Proc.devRef .tc main_arg2)) (W1 m ρ c (Proc.devRef .tc main_call0_v30)) = _
  rw [in1, zero1, back_main_arg2_1, launch]

theorem in3 : W3 m ρ c (Proc.devRef .tc main_call0_v50) = padRows128 (h1 m c) := by
  refine (Stretch.in1 (W2 m ρ c)).trans ?_
  rw [out2, back_main_call0_v3_2, back_main_call0_v6_2, back_main_call0_v28_2, back_main_arg3_2, src1, dst1, norm1, launch]
  rfl
theorem zero3 : W3 m ρ c (Proc.devRef .tc main_call0_v51) = zeroRow64 := Stretch.zero1 (W2 m ρ c)

/-! ## Region 1 and the third host stretch -/

theorem out4 : W4 m ρ c (Proc.devRef .tc main_call0_v52) = Region1.G (padRows128 (h1 m c)) (m ((c : Thread nD τ).loc main_arg4)) zeroRow64 := by
  refine (W4_arr m ρ c 3).trans ?_
  refine (Region1.final (V3 m ρ) c).trans ?_
  show Region1.G (W3 m ρ c (Proc.devRef .tc main_call0_v50)) (W3 m ρ c (Proc.devRef .tc main_arg4)) (W3 m ρ c (Proc.devRef .tc main_call0_v51)) = _
  rw [in3, zero3, back_main_arg4_3, launch]

theorem in5 : W5 m ρ c (Proc.devRef .tc main_call0_v71) = padRows64 (h2 m c) := by
  refine (Stretch.in2 (W4 m ρ c)).trans ?_
  rw [out4, back_main_call0_v3_4, back_main_call0_v6_4, back_main_call0_v28_4, back_main_arg5_4, src1, dst1, norm1, launch]
  rfl
theorem zero5 : W5 m ρ c (Proc.devRef .tc main_call0_v72) = zeroRow32 := Stretch.zero2 (W4 m ρ c)

/-! ## Region 2 and the fourth host stretch -/

theorem out6 : W6 m ρ c (Proc.devRef .tc main_call0_v73) = Region2.G (padRows64 (h2 m c)) (m ((c : Thread nD τ).loc main_arg6)) zeroRow32 := by
  refine (W6_arr m ρ c 3).trans ?_
  refine (Region2.final (V5 m ρ) c).trans ?_
  show Region2.G (W5 m ρ c (Proc.devRef .tc main_call0_v71)) (W5 m ρ c (Proc.devRef .tc main_arg6)) (W5 m ρ c (Proc.devRef .tc main_call0_v72)) = _
  rw [in5, zero5, back_main_arg6_5, launch]

theorem in7 : W7 m ρ c (Proc.devRef .tc main_call0_v92) = padRows32 (h3 m c) := by
  refine (Stretch.in3 (W6 m ρ c)).trans ?_
  rw [out6, back_main_call0_v3_6, back_main_call0_v6_6, back_main_call0_v28_6, back_main_arg7_6, src1, dst1, norm1, launch]
  rfl
theorem bias7a : W7 m ρ c (Proc.devRef .tc main_call0_v93) = shapeCast S1x16 (m ((c : Thread nD τ).loc main_arg9)) shapeCasts_S16_S1x16 := by
  refine (Stretch.bias3a (W6 m ρ c)).trans ?_
  rw [back_main_arg9_6, launch]
theorem bias7b : W7 m ρ c (Proc.devRef .tc main_call0_v94) = shapeCast S1x1 (m ((c : Thread nD τ).loc main_arg11)) shapeCasts_S1_S1x1 := by
  refine (Stretch.bias3b (W6 m ρ c)).trans ?_
  rw [back_main_arg11_6, launch]

/-! ## Region 3 and the last host operation -/

theorem out8 : W8 m ρ c (Proc.devRef .tc main_call0_v95)
    = Region3.G (padRows32 (h3 m c)) (m ((c : Thread nD τ).loc main_arg8)) (shapeCast S1x16 (m ((c : Thread nD τ).loc main_arg9)) shapeCasts_S16_S1x16) (m ((c : Thread nD τ).loc main_arg10)) (shapeCast S1x1 (m ((c : Thread nD τ).loc main_arg11)) shapeCasts_S1_S1x1) := by
  refine (W8_arr m ρ c 5).trans ?_
  refine (Region3.final (V7 m ρ) c).trans ?_
  show Region3.G (W7 m ρ c (Proc.devRef .tc main_call0_v92)) (W7 m ρ c (Proc.devRef .tc main_arg8)) (W7 m ρ c (Proc.devRef .tc main_call0_v93))
    (W7 m ρ c (Proc.devRef .tc main_arg10)) (W7 m ρ c (Proc.devRef .tc main_call0_v94)) = _
  rw [in7, bias7a, bias7b, back_main_arg8_7, back_main_arg10_7, launch, launch]

/-- The result array at the last boundary is the result function of the arguments. -/
theorem result9 : W9 m ρ c (Proc.devRef .tc main_v0) = result m c := by
  refine (Stretch.out4 (W8 m ρ c)).trans ?_
  rw [out8]
  rfl

end Cert.KernelIdeal.Stages

end
-- ==== Proof.HostFnR.lean ====
/-
  The host side of the graph network, as named functions of its inputs (program ReferenceIdeal).

  From the edge list (2 × 600000 node numbers) the program forms 650000 source and destination nodes — the edges' first
  and second row, each followed by the self loops 0 … 49999 —, the degree of every node (ones added into the destination
  nodes, starting from zeros), its inverse square root after a clamp below at one, and the edge weight
  norm e = dinv(src e) · dinv(dst e), a node number below zero being read 50000 higher.  One layer then takes a dense
  product hw (50000 × N), gathers its rows at the source nodes, scales row e by norm e, adds the rows into their
  destination nodes starting from zeros, adds the bias to every row and clamps at zero.
  These are the printed operations, composed and named; nothing here looks inside a gather or a scatter.
-/
import proofs.«145682_j63694365000469_2_alg».proof.ReferenceIdeal

set_option maxRecDepth 16384

noncomputable section

namespace Cert.ReferenceIdeal.HostFn

open Cert.ReferenceIdeal Idealize.ShloMosaic

variable {F : FTy → Type} [FloatOps F] [Facts]
open Facts₀ Facts

/-- The 650000 source nodes: the edge list's first row, then the self loops. -/
def srcOf (ei : (⟨S2x600000, .i32⟩ : BufTy).Contents (Elt F)) : (⟨S650000, .i32⟩ : BufTy).Contents (Elt F) :=
  concatenate S650000 0 [⟨S600000, (shapeCast _ (extractStridedSlice S1x600000 ![0, 0] ei slices_S2x600000_S1x600000_0_0) shapeCasts_S1x600000_S600000)⟩, ⟨S50000, (iotaInDim S50000 32 0)⟩] concatenates_S600000_S50000_S650000_d0

/-- The 650000 destination nodes: the edge list's second row, then the self loops. -/
def dstOf (ei : (⟨S2x600000, .i32⟩ : BufTy).Contents (Elt F)) : (⟨S650000, .i32⟩ : BufTy).Contents (Elt F) :=
  concatenate S650000 0 [⟨S600000, (shapeCast _ (extractStridedSlice S1x600000 ![1, 0] ei slices_S2x600000_S1x600000_1_0) shapeCasts_S1x600000_S600000)⟩, ⟨S50000, (iotaInDim S50000 32 0)⟩] concatenates_S600000_S50000_S650000_d0

/-- A list of node numbers as an index column. -/
def column (s : (⟨S650000, .i32⟩ : BufTy).Contents (Elt F)) : (⟨S650000x1, .i32⟩ : BufTy).Contents (Elt F) :=
  broadcastInDim S650000x1 ![0] bcast_S650000_S650000x1_0 s

/-- The same with a number below zero read 50000 higher. -/
def wrapped (s : (⟨S650000, .i32⟩ : BufTy).Contents (Elt F)) : (⟨S650000x1, .i32⟩ : BufTy).Contents (Elt F) :=
  broadcastInDim S650000x1 ![0] bcast_S650000_S650000x1_0 (select (cmpi .slt s (broadcastInDim S650000 ![] bcast_S_S650000 (constantI S_ 32 0#32))) (addi s (broadcastInDim S650000 ![] bcast_S_S650000 (constantI S_ 32 50000#32))) s)

/-- The inverse square root of every node's degree, the degree clamped below at one. -/
def invSqrtDeg (dst : (⟨S650000, .i32⟩ : BufTy).Contents (Elt F)) : (⟨S50000, .f32⟩ : BufTy).Contents (Elt F) :=
  Host.rsqrt (maximumf (Host.scatterAdd scatter_S50000_S650000x1_S650000_n_0_0_1 (broadcastInDim S50000 ![] bcast_S_S50000 (constant S_ .f32 0x00000000#32)) (column dst) (broadcastInDim S650000 ![] bcast_S_S650000 (constant S_ .f32 0x3F800000#32))) (broadcastInDim S50000 ![] bcast_S_S50000 (constant S_ .f32 0x3F800000#32)))

/-- The edge weights. -/
def normOf (src dst : (⟨S650000, .i32⟩ : BufTy).Contents (Elt F)) : (⟨S650000, .f32⟩ : BufTy).Contents (Elt F) :=
  mulf (Host.gather gather_S50000_S650000x1_S650000_n_0_n_n_0_1_1 (invSqrtDeg dst) (wrapped src)) (Host.gather gather_S50000_S650000x1_S650000_n_0_n_n_0_1_1 (invSqrtDeg dst) (wrapped dst))

/-- One graph-convolution layer after its dense product, at width 128: gather the rows of hw at the source nodes, scale row e by
    norm e, add the rows into their destination nodes starting from zeros, add the bias to every row, clamp at zero. -/
def mix128 (hw : (⟨S50000x128, .f32⟩ : BufTy).Contents (Elt F)) (src dst : (⟨S650000, .i32⟩ : BufTy).Contents (Elt F)) (norm : (⟨S650000, .f32⟩ : BufTy).Contents (Elt F)) (b : (⟨S128, .f32⟩ : BufTy).Contents (Elt F)) :
    (⟨S50000x128, .f32⟩ : BufTy).Contents (Elt F) :=
  maximumf (addf (Host.scatterAdd scatter_S50000x128_S650000x1_S650000x128_1_0_0_1 (broadcastInDim S50000x128 ![] bcast_S_S50000x128 (constant S_ .f32 0x00000000#32)) (column dst) (mulf (Host.gather gather_S50000x128_S650000x1_S650000x128_1_0_n_n_0_1_1128 hw (wrapped src)) (broadcastInDim S650000x128 ![0, 1] bcast_S650000x1_S650000x128_0_1 (broadcastInDim S650000x1 ![0] bcast_S650000_S650000x1_0 norm)))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- One graph-convolution layer after its dense product, at width 64: gather the rows of hw at the source nodes, scale row e by
    norm e, add the rows into their destination nodes starting from zeros, add the bias to every row, clamp at zero. -/
def mix64 (hw : (⟨S50000x64, .f32⟩ : BufTy).Contents (Elt F)) (src dst : (⟨S650000, .i32⟩ : BufTy).Contents (Elt F)) (norm : (⟨S650000, .f32⟩ : BufTy).Contents (Elt F)) (b : (⟨S64, .f32⟩ : BufTy).Contents (Elt F)) :
    (⟨S50000x64, .f32⟩ : BufTy).Contents (Elt F) :=
  maximumf (addf (Host.scatterAdd scatter_S50000x64_S650000x1_S650000x64_1_0_0_1 (broadcastInDim S50000x64 ![] bcast_S_S50000x64 (constant S_ .f32 0x00000000#32)) (column dst) (mulf (Host.gather gather_S50000x64_S650000x1_S650000x64_1_0_n_n_0_1_164 hw (wrapped src)) (broadcastInDim S650000x64 ![0, 1] bcast_S650000x1_S650000x64_0_1 (broadcastInDim S650000x1 ![0] bcast_S650000_S650000x1_0 norm)))) (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- One graph-convolution layer after its dense product, at width 32: gather the rows of hw at the source nodes, scale row e by
    norm e, add the rows into their destination nodes starting from zeros, add the bias to every row, clamp at zero. -/
def mix32 (hw : (⟨S50000x32, .f32⟩ : BufTy).Contents (Elt F)) (src dst : (⟨S650000, .i32⟩ : BufTy).Contents (Elt F)) (norm : (⟨S650000, .f32⟩ : BufTy).Contents (Elt F)) (b : (⟨S32, .f32⟩ : BufTy).Contents (Elt F)) :
    (⟨S50000x32, .f32⟩ : BufTy).Contents (Elt F) :=
  maximumf (addf (Host.scatterAdd scatter_S50000x32_S650000x1_S650000x32_1_0_0_1 (broadcastInDim S50000x32 ![] bcast_S_S50000x32 (constant S_ .f32 0x00000000#32)) (column dst) (mulf (Host.gather gather_S50000x32_S650000x1_S650000x32_1_0_n_n_0_1_132 hw (wrapped src)) (broadcastInDim S650000x32 ![0, 1] bcast_S650000x1_S650000x32_0_1 (broadcastInDim S650000x1 ![0] bcast_S650000_S650000x1_0 norm)))) (broadcastInDim S50000x32 ![0, 1] bcast_S1x32_S50000x32_0_1 (broadcastInDim S1x32 ![1] bcast_S32_S1x32_1 b))) (broadcastInDim S50000x32 ![] bcast_S_S50000x32 (constant S_ .f32 0x00000000#32))

/-- The two dense layers of the head on the host: relu(h·W₁ + b₁)·W₂ + b₂ through 1 / (1 + exp(−·)). -/
def tailOf (h : (⟨S50000x32, .f32⟩ : BufTy).Contents (Elt F)) (Wf1 : (⟨S32x16, .f32⟩ : BufTy).Contents (Elt F)) (bf1 : (⟨S16, .f32⟩ : BufTy).Contents (Elt F)) (Wf2 : (⟨S16x1, .f32⟩ : BufTy).Contents (Elt F)) (bf2 : (⟨S1, .f32⟩ : BufTy).Contents (Elt F)) :
    (⟨S50000x1, .f32⟩ : BufTy).Contents (Elt F) :=
  Host.divf (broadcastInDim S50000x1 ![] bcast_S_S50000x1 (constant S_ .f32 0x3F800000#32)) (addf (broadcastInDim S50000x1 ![] bcast_S_S50000x1 (constant S_ .f32 0x3F800000#32)) (Host.exp (Host.negf (addf (Host.dotGeneral dot_S50000x16_S16x1_S50000x1_1_0_0_1_n_n none (maximumf (addf (Host.dotGeneral dot_S50000x32_S32x16_S50000x16_1_0_0_1_n_n none h Wf1) (broadcastInDim S50000x16 ![0, 1] bcast_S1x16_S50000x16_0_1 (broadcastInDim S1x16 ![1] bcast_S16_S1x16_1 bf1))) (broadcastInDim S50000x16 ![] bcast_S_S50000x16 (constant S_ .f32 0x00000000#32))) Wf2) (broadcastInDim S50000x1 ![0, 1] bcast_S1x1_S50000x1_0_1 (broadcastInDim S1x1 ![1] bcast_S1_S1x1_1 bf2))))))

end Cert.ReferenceIdeal.HostFn

end
-- ==== Proof.RValue.lean ====
/-
  The reference's result as one function of the argument arrays, layer by layer.

  The reference computes the same source and destination nodes and edge weights, then three graph-convolution layers —
  each one dense product h·W on the host followed by the gather, scale, add-into-nodes, bias and clamp — and the two
  dense layers of the head with the logistic function at the end.  Its run states the result as one composed term of the
  arguments; here that term is cut into the named layers.
-/
import proofs.«145682_j63694365000469_2_alg».proof.Proof.Gen.ReferenceIdeal.Run
import proofs.«145682_j63694365000469_2_alg».proof.Proof.HostFnR
import Idealize.ShloMosaic.PureOps.Ideal

set_option maxRecDepth 16384

noncomputable section

namespace Cert.ReferenceIdeal.Stages

open Cert.ReferenceIdeal Cert.ReferenceIdeal.Gen Cert.ReferenceIdeal.HostFn Cert.ReferenceIdeal.Value
open Idealize.ShloMosaic Idealize.ShloMosaic.TcCoe Idealize.SL.Sem

variable (m : (ℓ : Loc nD τ sig) → Buf (Elt Ideal) ℓ) (c : Dev nD)

abbrev src : (⟨S650000, .i32⟩ : BufTy).Contents (Elt Ideal) := srcOf (m ((c.tc : Thread nD τ).loc main_arg1))
abbrev dst : (⟨S650000, .i32⟩ : BufTy).Contents (Elt Ideal) := dstOf (m ((c.tc : Thread nD τ).loc main_arg1))
abbrev norm : (⟨S650000, .f32⟩ : BufTy).Contents (Elt Ideal) := normOf (src m c) (dst m c)

/-- The hidden arrays after layers one, two and three. -/
def h1 : (⟨S50000x128, .f32⟩ : BufTy).Contents (Elt Ideal) :=
  mix128 (Host.dotGeneral (F := Ideal) (φ₁ := .f32) (φ₂ := .f32) dot_S50000x44_S44x128_S50000x128_1_0_0_1_n_n none (m ((c.tc : Thread nD τ).loc main_arg0)) (m ((c.tc : Thread nD τ).loc main_arg2))) (src m c) (dst m c) (norm m c) (m ((c.tc : Thread nD τ).loc main_arg3))
def h2 : (⟨S50000x64, .f32⟩ : BufTy).Contents (Elt Ideal) :=
  mix64 (Host.dotGeneral (F := Ideal) (φ₁ := .f32) (φ₂ := .f32) dot_S50000x128_S128x64_S50000x64_1_0_0_1_n_n none (h1 m c) (m ((c.tc : Thread nD τ).loc main_arg4))) (src m c) (dst m c) (norm m c) (m ((c.tc : Thread nD τ).loc main_arg5))
def h3 : (⟨S50000x32, .f32⟩ : BufTy).Contents (Elt Ideal) :=
  mix32 (Host.dotGeneral (F := Ideal) (φ₁ := .f32) (φ₂ := .f32) dot_S50000x64_S64x32_S50000x32_1_0_0_1_n_n none (h2 m c) (m ((c.tc : Thread nD τ).loc main_arg6))) (src m c) (dst m c) (norm m c) (m ((c.tc : Thread nD τ).loc main_arg7))

/-- The result. -/
def result : (⟨S50000x1, .f32⟩ : BufTy).Contents (Elt Ideal) :=
  tailOf (h3 m c) (m ((c.tc : Thread nD τ).loc main_arg8)) (m ((c.tc : Thread nD τ).loc main_arg9)) (m ((c.tc : Thread nD τ).loc main_arg10)) (m ((c.tc : Thread nD τ).loc main_arg11))

set_option maxRecDepth 8192 in
/-- The run's composed term is the layered one. -/
theorem res_eq : res_main_v97 (F := Ideal) m c = result m c := by
  unfold res_main_v97 result h3 h2 h1 tailOf mix32 mix64 mix128
  rfl

end Cert.ReferenceIdeal.Stages

end
-- ==== Proof.Bridge.lean ====
/-
  The two programs' dense layers are the same functions.

  The kernel computes each dense product on row blocks of an input padded from 50000 to 51200 rows, with a bias row of
  zeros, and drops the padding afterwards; the reference computes it once on the host.  Index by index both are the
  same finite sum.  The fused head of the kernel against the reference's two dense layers and logistic function is the
  same comparison twice over, with 0 − s for −s.
-/
import proofs.«145682_j63694365000469_2_alg».proof.Proof.Region0
import proofs.«145682_j63694365000469_2_alg».proof.Proof.Region1
import proofs.«145682_j63694365000469_2_alg».proof.Proof.Region2
import proofs.«145682_j63694365000469_2_alg».proof.Proof.Region3
import proofs.«145682_j63694365000469_2_alg».proof.Proof.HostFnK
import proofs.«145682_j63694365000469_2_alg».proof.Proof.HostFnR
import proofs.«145682_j63694365000469_2_alg».proof.Proof.Gen.ReferenceIdeal
import proofs.«145682_j63694365000469_2_alg».proof.Proof.LibPlainDot
import Idealize.ShloMosaic.Lib.KernelVsHost
import Idealize.ShloMosaic.Lib.ValueLayout

set_option maxRecDepth 16384

noncomputable section

open scoped BigOperators

namespace Cert.Bridge

open Idealize.ShloMosaic Idealize.ShloMosaic.ValueIdx

/-- Rows appended below a matrix: a row of the original range reads the original. -/
theorem padRows_apply {α : Type} {M Mp K hi : Nat} (x : (⟨2, ![M, K]⟩ : Shape).Idx → α) {u : Shape} (v : u.Idx → α)
    (h : (⟨2, ![M, K]⟩ : Shape).Pads ![0, 0] ![hi, 0] ![0, 0] ⟨2, ![Mp, K]⟩) (hu : 0 < u.numel) (r : Fin M) (r' : Fin Mp) (k : Fin K)
    (hr : r'.val = r.val) :
    pad ⟨2, ![Mp, K]⟩ ![0, 0] ![hi, 0] ![0, 0] x v h hu (ix2 r' k) = x (ix2 r k) :=
  pad_apply_of_inside _ _ _ x v h hu _ _ (fun a => by
    match a with
    | ⟨0, _⟩ => show r'.val = 0 + r.val * (0 + 1); omega
    | ⟨1, _⟩ => show k.val = 0 + k.val * (0 + 1); omega)

/-- Layer 1's dense product: the kernel pads the 44-column input to 51200 rows, multiplies block by block on the matrix
    unit, adds a bias row of zeros and keeps the first 50000 rows; the reference multiplies once on the host.  Entry (r, c) of
    both is Σ_{k < 44} x(r, k) · W(k, c): an appended row is never read by a kept row, and adding zero changes nothing. -/
theorem dense0 (x : FVec Ideal Cert.KernelIdeal.S50000x44 .f32) (W : FVec Ideal Cert.KernelIdeal.S44x128 .f32) :
    Cert.KernelIdeal.HostFn.topRows128 (F := Ideal) (Cert.KernelIdeal.Region0.G (Cert.KernelIdeal.HostFn.padRows44 x) W Cert.KernelIdeal.HostFn.zeroRow128)
      = Host.dotGeneral (F := Ideal) Cert.ReferenceIdeal.dot_S50000x44_S44x128_S50000x128_1_0_0_1_n_n none x W := by
  funext i
  obtain ⟨r, q, rfl⟩ : ∃ (r : Fin 50000) (q : Fin 128), i = ix2 r q := ⟨i 0, i 1, eq_ix2 i⟩
  unfold Cert.KernelIdeal.HostFn.topRows128
  rw [slice2_axis0_eq]
  unfold Cert.KernelIdeal.Region0.G
  have hd : Cert.ReferenceIdeal.dot_S50000x44_S44x128_S50000x128_1_0_0_1_n_n = DotDims.plain 50000 44 128 := rfl
  simp only [Host.dotGeneral, hd]
  rw [Cert.PlainDot.dotGeneral_apply]
  have hz : ∀ j, (Cert.KernelIdeal.HostFn.zeroRow128 (F := Ideal)) j = 0 := fun j => Ideal.ofBits_zero_f32
  rw [hz, add_zero]
  refine Finset.sum_congr rfl fun k _ => congrArg₂ (· * ·) ?_ ?_
  · unfold Cert.KernelIdeal.HostFn.padRows44
    exact padRows_apply _ _ _ _ r _ k (by show 0 + r.val = r.val; omega)
  · exact congrArg W (funext fun a => Fin.ext (by match a with | ⟨0, _⟩ => rfl | ⟨1, _⟩ => rfl))

/-- Layer 2's dense product: the kernel pads the 128-column input to 51200 rows, multiplies block by block on the matrix
    unit, adds a bias row of zeros and keeps the first 50000 rows; the reference multiplies once on the host.  Entry (r, c) of
    both is Σ_{k < 128} x(r, k) · W(k, c): an appended row is never read by a kept row, and adding zero changes nothing. -/
theorem dense1 (x : FVec Ideal Cert.KernelIdeal.S50000x128 .f32) (W : FVec Ideal Cert.KernelIdeal.S128x64 .f32) :
    Cert.KernelIdeal.HostFn.topRows64 (F := Ideal) (Cert.KernelIdeal.Region1.G (Cert.KernelIdeal.HostFn.padRows128 x) W Cert.KernelIdeal.HostFn.zeroRow64)
      = Host.dotGeneral (F := Ideal) Cert.ReferenceIdeal.dot_S50000x128_S128x64_S50000x64_1_0_0_1_n_n none x W := by
  funext i
  obtain ⟨r, q, rfl⟩ : ∃ (r : Fin 50000) (q : Fin 64), i = ix2 r q := ⟨i 0, i 1, eq_ix2 i⟩
  unfold Cert.KernelIdeal.HostFn.topRows64
  rw [slice2_axis0_eq]
  unfold Cert.KernelIdeal.Region1.G
  have hd : Cert.ReferenceIdeal.dot_S50000x128_S128x64_S50000x64_1_0_0_1_n_n = DotDims.plain 50000 128 64 := rfl
  simp only [Host.dotGeneral, hd]
  rw [Cert.PlainDot.dotGeneral_apply]
  have hz : ∀ j, (Cert.KernelIdeal.HostFn.zeroRow64 (F := Ideal)) j = 0 := fun j => Ideal.ofBits_zero_f32
  rw [hz, add_zero]
  refine Finset.sum_congr rfl fun k _ => congrArg₂ (· * ·) ?_ ?_
  · unfold Cert.KernelIdeal.HostFn.padRows128
    exact padRows_apply _ _ _ _ r _ k (by show 0 + r.val = r.val; omega)
  · exact congrArg W (funext fun a => Fin.ext (by match a with | ⟨0, _⟩ => rfl | ⟨1, _⟩ => rfl))

/-- Layer 3's dense product: the kernel pads the 64-column input to 51200 rows, multiplies block by block on the matrix
    unit, adds a bias row of zeros and keeps the first 50000 rows; the reference multiplies once on the host.  Entry (r, c) of
    both is Σ_{k < 64} x(r, k) · W(k, c): an appended row is never read by a kept row, and adding zero changes nothing. -/
theorem dense2 (x : FVec Ideal Cert.KernelIdeal.S50000x64 .f32) (W : FVec Ideal Cert.KernelIdeal.S64x32 .f32) :
    Cert.KernelIdeal.HostFn.topRows32 (F := Ideal) (Cert.KernelIdeal.Region2.G (Cert.KernelIdeal.HostFn.padRows64 x) W Cert.KernelIdeal.HostFn.zeroRow32)
      = Host.dotGeneral (F := Ideal) Cert.ReferenceIdeal.dot_S50000x64_S64x32_S50000x32_1_0_0_1_n_n none x W := by
  funext i
  obtain ⟨r, q, rfl⟩ : ∃ (r : Fin 50000) (q : Fin 32), i = ix2 r q := ⟨i 0, i 1, eq_ix2 i⟩
  unfold Cert.KernelIdeal.HostFn.topRows32
  rw [slice2_axis0_eq]
  unfold Cert.KernelIdeal.Region2.G
  have hd : Cert.ReferenceIdeal.dot_S50000x64_S64x32_S50000x32_1_0_0_1_n_n = DotDims.plain 50000 64 32 := rfl
  simp only [Host.dotGeneral, hd]
  rw [Cert.PlainDot.dotGeneral_apply]
  have hz : ∀ j, (Cert.KernelIdeal.HostFn.zeroRow32 (F := Ideal)) j = 0 := fun j => Ideal.ofBits_zero_f32
  rw [hz, add_zero]
  refine Finset.sum_congr rfl fun k _ => congrArg₂ (· * ·) ?_ ?_
  · unfold Cert.KernelIdeal.HostFn.padRows64
    exact padRows_apply _ _ _ _ r _ k (by show 0 + r.val = r.val; omega)
  · exact congrArg W (funext fun a => Fin.ext (by match a with | ⟨0, _⟩ => rfl | ⟨1, _⟩ => rfl))

/-- The head: the kernel's fused region on the padded hidden array, first 50000 rows kept, against the reference's two dense
    layers and logistic function on the host.  Row r of both is 1 / (1 + exp(−s_r)) with
    s_r = Σ_j max(Σ_k h(r,k)·W₁(k,j) + b₁(j), 0)·W₂(j) + b₂: the kernel writes 0 − s for −s, reads its biases as rows the host
    reshaped from the vectors, and an appended row is never read by a kept row. -/
theorem head (h : FVec Ideal Cert.KernelIdeal.S50000x32 .f32) (Wf1 : FVec Ideal Cert.KernelIdeal.S32x16 .f32) (bf1 : FVec Ideal Cert.KernelIdeal.S16 .f32)
    (Wf2 : FVec Ideal Cert.KernelIdeal.S16x1 .f32) (bf2 : FVec Ideal Cert.KernelIdeal.S1 .f32) :
    Cert.KernelIdeal.HostFn.topRows1 (F := Ideal) (Cert.KernelIdeal.Region3.G (Cert.KernelIdeal.HostFn.padRows32 h) Wf1 (shapeCast Cert.KernelIdeal.S1x16 bf1 Cert.KernelIdeal.Facts₀.shapeCasts_S16_S1x16) Wf2
        (shapeCast Cert.KernelIdeal.S1x1 bf2 Cert.KernelIdeal.Facts₀.shapeCasts_S1_S1x1))
      = Cert.ReferenceIdeal.HostFn.tailOf (F := Ideal) h Wf1 bf1 Wf2 bf2 := by
  funext i
  obtain ⟨r, q, rfl⟩ : ∃ (r : Fin 50000) (q : Fin 1), i = ix2 r q := ⟨i 0, i 1, eq_ix2 i⟩
  unfold Cert.KernelIdeal.HostFn.topRows1
  rw [slice2_axis0_eq]
  unfold Cert.KernelIdeal.Region3.G Cert.KernelIdeal.Region3.headAt Cert.ReferenceIdeal.HostFn.tailOf
  refine congrArg₂ Ideal.div rfl (congrArg₂ (· + ·) rfl (congrArg Ideal.exp ?_))
  have hzs : ∀ y : EReal, Ideal.ofBits .f32 0x00000000#32 - y = -y := fun y => by rw [Ideal.ofBits_zero_f32, zero_sub]
  refine (hzs _).trans ?_
  refine congrArg Neg.neg ?_
  have hd1 : Cert.ReferenceIdeal.dot_S50000x32_S32x16_S50000x16_1_0_0_1_n_n = DotDims.plain 50000 32 16 := rfl
  have hd2 : Cert.ReferenceIdeal.dot_S50000x16_S16x1_S50000x1_1_0_0_1_n_n = DotDims.plain 50000 16 1 := rfl
  have hq : (⟨((ix2 (⟨0 + r.val, by omega⟩ : Fin 51200) q) 1).val, ((ix2 (⟨0 + r.val, by omega⟩ : Fin 51200) q) 1).isLt⟩ : Fin 1) = q := Fin.ext rfl
  refine congrArg₂ (· + ·) ?_ ?_
  · simp only [Host.dotGeneral, hd1, hd2]
    refine Eq.trans ?_ (Cert.PlainDot.dotGeneral_apply none _ _ _ r q).symm
    refine Finset.sum_congr rfl fun j _ => congrArg₂ (· * ·) ?_ ?_
    · refine congrArg₂ max (congrArg₂ (· + ·) ?_ ?_) rfl
      · refine Eq.trans ?_ (Cert.PlainDot.dotGeneral_apply none _ h Wf1 r j).symm
        refine Finset.sum_congr rfl fun k _ => congrArg₂ (· * ·) ?_ rfl
        unfold Cert.KernelIdeal.HostFn.padRows32
        exact padRows_apply _ _ _ _ r _ k (by show 0 + r.val = r.val; omega)
      · refine (shapeCast_a_1a_apply bf1 _ 0 j).trans (Eq.symm ?_)
        refine (broadcastInDim_apply _ _ _ (ix2 r j) (ix2 (0 : Fin 1) j) (fun a => by
          match a with
          | ⟨0, _⟩ => rfl
          | ⟨1, _⟩ => rfl)).trans ?_
        exact broadcastInDim_apply _ _ bf1 (ix2 (0 : Fin 1) j) (ix1 j) (fun a => by
          match a with
          | ⟨0, _⟩ => rfl)
    · exact congrArg Wf2 (funext fun a => Fin.ext (by match a with | ⟨0, _⟩ => rfl | ⟨1, _⟩ => rfl))
  · rw [hq]
    have hq0 : q = 0 := Fin.ext (by have := q.isLt; omega)
    subst hq0
    refine (shapeCast_a_1a_apply bf2 _ 0 0).trans (Eq.symm ?_)
    refine (broadcastInDim_apply _ _ _ (ix2 r (0 : Fin 1)) (ix2 (0 : Fin 1) (0 : Fin 1)) (fun a => by
      match a with
      | ⟨0, _⟩ => rfl
      | ⟨1, _⟩ => rfl)).trans ?_
    exact broadcastInDim_apply _ _ bf2 (ix2 (0 : Fin 1) (0 : Fin 1)) (ix1 (0 : Fin 1)) (fun a => by
      match a with
      | ⟨0, _⟩ => rfl)

end Cert.Bridge

end
-- ==== Proof.Cross.lean ====
/-
  The host chain is the same function in both programs.

  The two printed programs spell the edge bookkeeping and the layer's gather, scale, add-into-nodes, bias and clamp with the
  same operations at the same shapes and dimension numbers; only the names of the records differ.  So the named
  functions of the one program are those of the other.
-/
import proofs.«145682_j63694365000469_2_alg».proof.Proof.HostFnK
import proofs.«145682_j63694365000469_2_alg».proof.Proof.HostFnR
import proofs.«145682_j63694365000469_2_alg».proof.Proof.Gen.KernelIdeal
import proofs.«145682_j63694365000469_2_alg».proof.Proof.Gen.ReferenceIdeal
import Idealize.ShloMosaic.PureOps.Ideal

set_option maxRecDepth 16384

noncomputable section

namespace Cert.Cross

open Idealize.ShloMosaic

theorem srcOf_eq (ei : (⟨Cert.KernelIdeal.S2x600000, .i32⟩ : BufTy).Contents (Elt Ideal)) : Cert.KernelIdeal.HostFn.srcOf (F := Ideal) ei = Cert.ReferenceIdeal.HostFn.srcOf (F := Ideal) ei := rfl
theorem dstOf_eq (ei : (⟨Cert.KernelIdeal.S2x600000, .i32⟩ : BufTy).Contents (Elt Ideal)) : Cert.KernelIdeal.HostFn.dstOf (F := Ideal) ei = Cert.ReferenceIdeal.HostFn.dstOf (F := Ideal) ei := rfl
theorem normOf_eq (s d : (⟨Cert.KernelIdeal.S650000, .i32⟩ : BufTy).Contents (Elt Ideal)) : Cert.KernelIdeal.HostFn.normOf (F := Ideal) s d = Cert.ReferenceIdeal.HostFn.normOf (F := Ideal) s d := rfl
theorem mix128_eq (hw : (⟨Cert.KernelIdeal.S50000x128, .f32⟩ : BufTy).Contents (Elt Ideal)) (s d : (⟨Cert.KernelIdeal.S650000, .i32⟩ : BufTy).Contents (Elt Ideal)) (n : (⟨Cert.KernelIdeal.S650000, .f32⟩ : BufTy).Contents (Elt Ideal)) (b : (⟨Cert.KernelIdeal.S128, .f32⟩ : BufTy).Contents (Elt Ideal)) :
    Cert.KernelIdeal.HostFn.mix128 (F := Ideal) hw s d n b = Cert.ReferenceIdeal.HostFn.mix128 (F := Ideal) hw s d n b := rfl
theorem mix64_eq (hw : (⟨Cert.KernelIdeal.S50000x64, .f32⟩ : BufTy).Contents (Elt Ideal)) (s d : (⟨Cert.KernelIdeal.S650000, .i32⟩ : BufTy).Contents (Elt Ideal)) (n : (⟨Cert.KernelIdeal.S650000, .f32⟩ : BufTy).Contents (Elt Ideal)) (b : (⟨Cert.KernelIdeal.S64, .f32⟩ : BufTy).Contents (Elt Ideal)) :
    Cert.KernelIdeal.HostFn.mix64 (F := Ideal) hw s d n b = Cert.ReferenceIdeal.HostFn.mix64 (F := Ideal) hw s d n b := rfl
theorem mix32_eq (hw : (⟨Cert.KernelIdeal.S50000x32, .f32⟩ : BufTy).Contents (Elt Ideal)) (s d : (⟨Cert.KernelIdeal.S650000, .i32⟩ : BufTy).Contents (Elt Ideal)) (n : (⟨Cert.KernelIdeal.S650000, .f32⟩ : BufTy).Contents (Elt Ideal)) (b : (⟨Cert.KernelIdeal.S32, .f32⟩ : BufTy).Contents (Elt Ideal)) :
    Cert.KernelIdeal.HostFn.mix32 (F := Ideal) hw s d n b = Cert.ReferenceIdeal.HostFn.mix32 (F := Ideal) hw s d n b := rfl

end Cert.Cross

end
-- ==== Proof.Final.lean ====
/-
  The two results are one function of the arguments.

  With the arguments equal, the two programs agree layer by layer: the same source and destination nodes and edge weights;
  in each of the three layers the kernel's padded, blockwise product with a zero bias, cut back to 50000 rows, is the
  host's single product, and the gather, scale, add-into-nodes, bias and clamp that follow are the same function of it;
  the fused head on the padded third hidden array, cut back, is the host's two dense layers and logistic function.
-/
import proofs.«145682_j63694365000469_2_alg».proof.Proof.KDefs
import proofs.«145682_j63694365000469_2_alg».proof.Proof.RValue
import proofs.«145682_j63694365000469_2_alg».proof.Proof.Bridge
import proofs.«145682_j63694365000469_2_alg».proof.Proof.Cross

set_option maxRecDepth 16384

noncomputable section

namespace Cert.Final

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- From memories that agree on the twelve arguments, the reference's result is the kernel's. -/
theorem results_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Stages.result m' c = Cert.KernelIdeal.Stages.result m c := by
  obtain ⟨e0, e1, e2, e3, e4, e5, e6, e7, e8, e9, e10, e11⟩ := h
  unfold Cert.ReferenceIdeal.Stages.result Cert.ReferenceIdeal.Stages.h3 Cert.ReferenceIdeal.Stages.h2 Cert.ReferenceIdeal.Stages.h1
  unfold Cert.KernelIdeal.Stages.result Cert.KernelIdeal.Stages.h3 Cert.KernelIdeal.Stages.h2 Cert.KernelIdeal.Stages.h1
  dsimp only [Cert.ReferenceIdeal.Stages.norm, Cert.ReferenceIdeal.Stages.src, Cert.ReferenceIdeal.Stages.dst, Cert.KernelIdeal.Stages.norm, Cert.KernelIdeal.Stages.src, Cert.KernelIdeal.Stages.dst]
  rw [e0, e1, e2, e3, e4, e5, e6, e7, e8, e9, e10, e11]
  rw [Cert.Bridge.head, Cert.Bridge.dense2, Cert.Bridge.dense1, Cert.Bridge.dense0]
  rw [Cert.Cross.mix32_eq, Cert.Cross.mix64_eq, Cert.Cross.mix128_eq, Cert.Cross.normOf_eq, Cert.Cross.srcOf_eq, Cert.Cross.dstOf_eq]

end Cert.Final

end
-- ==== Proof.lean ====
/-
  A three-layer graph-convolution network with a two-layer head, on 50000 nodes and 600000 edges plus self loops:
  the kernel against its reference, as extended reals.

  Both programs form the same source and destination node lists, degrees, inverse square roots and edge weights on the
  host, and in each layer gather, scale, add into the destination nodes, add the bias and clamp at zero with the same host
  operations.  They differ in the dense products.  The kernel pads the layer's input from 50000 to 51200 rows, multiplies
  it by the weight matrix in 25 row blocks on the matrix unit (operands narrowed to bf16, which on the extended reals is
  the identity), adds a bias row of zeros and drops the padding; the reference multiplies once.  Entry (r, c) of both is
  Σ_k x(r, k)·W(k, c).  The kernel's head is one fused region: max(h·W₁ + b₁, 0)·W₂ + b₂ through 1 / (1 + exp(0 − s)) on
  the padded hidden array, padding dropped; the reference's is two host products and 1 / (1 + exp(−s)).  Only
  commutative-monoid facts of the extended reals are used (x + 0 = x, 0 − s = −s), so finiteness of the inputs is not
  needed for the values.

  The three frames are the generated ones (the reference's is its generated run with the result dropped); the ideal pass
  rewrote nothing, so there is nothing to preserve.
-/
import proofs.«145682_j63694365000469_2_alg».proof.Defs
import proofs.«145682_j63694365000469_2_alg».proof.Proof.Gen.Kernel
import proofs.«145682_j63694365000469_2_alg».proof.Proof.Gen.Kernel.Skeleton
import proofs.«145682_j63694365000469_2_alg».proof.Proof.Gen.Kernel.Launch
import proofs.«145682_j63694365000469_2_alg».proof.Proof.Gen.Kernel.Points
import proofs.«145682_j63694365000469_2_alg».proof.Proof.Gen.Kernel.Frame
import proofs.«145682_j63694365000469_2_alg».proof.Proof.Gen.KernelIdeal
import proofs.«145682_j63694365000469_2_alg».proof.Proof.Gen.KernelIdeal.Skeleton
import proofs.«145682_j63694365000469_2_alg».proof.Proof.Gen.KernelIdeal.Launch
import proofs.«145682_j63694365000469_2_alg».proof.Proof.Gen.KernelIdeal.Points
import proofs.«145682_j63694365000469_2_alg».proof.Proof.Gen.KernelIdeal.Frame
import proofs.«145682_j63694365000469_2_alg».proof.Proof.Gen.ReferenceIdeal
import proofs.«145682_j63694365000469_2_alg».proof.Proof.Gen.Pre_finite_inputs
import proofs.«145682_j63694365000469_2_alg».proof.Proof.Gen.ReferenceIdeal.Run
import proofs.«145682_j63694365000469_2_alg».proof.Proof.KRun
import proofs.«145682_j63694365000469_2_alg».proof.Proof.KValue
import proofs.«145682_j63694365000469_2_alg».proof.Proof.RValue
import proofs.«145682_j63694365000469_2_alg».proof.Proof.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs run to the same result: the kernel's result array ends at the
    layered function of its arguments, the reference's at its own, and with equal arguments the two are one function. -/
theorem algebraic : Cert.algebraic_KernelIdeal_ReferenceIdeal := by
  intro m ρ m' ρ' _ hagree
  refine ⟨fun c => Cert.KernelIdeal.Stages.result m c, ?_, ?_⟩
  · refine (θ_run Cert.KernelIdeal.defs _ _).mono (fun r h c => ?_) (Cert.KernelIdeal.WholeRun.run_all (F := Ideal) m ρ)
    exact ⟨(h c _ (Cert.KernelIdeal.Gen.mem_uc Cert.KernelIdeal.main_v0 (by decide))).trans (Cert.KernelIdeal.Stages.result9 m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c),
      (h c _ (Cert.KernelIdeal.Gen.mem_uc Cert.KernelIdeal.main_arg8 (by decide))).trans (Cert.KernelIdeal.Gen.W9_main_arg8 m ρ c),
      (h c _ (Cert.KernelIdeal.Gen.mem_uc Cert.KernelIdeal.main_arg9 (by decide))).trans (Cert.KernelIdeal.Gen.W9_main_arg9 m ρ c),
      (h c _ (Cert.KernelIdeal.Gen.mem_uc Cert.KernelIdeal.main_arg10 (by decide))).trans (Cert.KernelIdeal.Gen.W9_main_arg10 m ρ c),
      (h c _ (Cert.KernelIdeal.Gen.mem_uc Cert.KernelIdeal.main_arg11 (by decide))).trans (Cert.KernelIdeal.Gen.W9_main_arg11 m ρ c)⟩
  · refine (θ_run Cert.ReferenceIdeal.defs _ _).mono (fun r h c => ⟨(h c).1.trans ?_, (h c).2⟩)
      (Cert.ReferenceIdeal.Value.run (F := Ideal) m' ρ')
    exact (Cert.ReferenceIdeal.Stages.res_eq m' c).trans (Cert.Final.results_eq m m' c (hagree c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
